-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S5000x512 : Shape := ⟨2, ![5000, 512]⟩
abbrev S5000x16 : Shape := ⟨2, ![5000, 16]⟩
abbrev S3200000x16 : Shape := ⟨2, ![3200000, 16]⟩
abbrev S1x16 : Shape := ⟨2, ![1, 16]⟩
abbrev S100000x64 : Shape := ⟨2, ![100000, 64]⟩
abbrev S10000x16 : Shape := ⟨2, ![10000, 16]⟩
abbrev S10000x64 : Shape := ⟨2, ![10000, 64]⟩
abbrev S3200000x64 : Shape := ⟨2, ![3200000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 90
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000, .f32⟩
  | .hbm, ⟨45, _⟩ => ⟨S3200000, .f32⟩
  | .hbm, ⟨46, _⟩ => ⟨S3200000x1, .f32⟩
  | .hbm, ⟨47, _⟩ => ⟨S100000, .f32⟩
  | .hbm, ⟨48, _⟩ => ⟨S100000x1, .f32⟩
  | .hbm, ⟨49, _⟩ => ⟨S100000x16, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x16, .f32⟩
  | .hbm, ⟨59, _⟩ => ⟨S3200000x16, .f32⟩
  | .hbm, ⟨60, _⟩ => ⟨S3200000x16, .f32⟩
  | .hbm, ⟨61, _⟩ => ⟨S_, .f32⟩
  | .hbm, ⟨62, _⟩ => ⟨S100000x16, .f32⟩
  | .hbm, ⟨63, _⟩ => ⟨S3200000x1, .i32⟩
  | .hbm, ⟨64, _⟩ => ⟨S100000x16, .f32⟩
  | .hbm, ⟨65, _⟩ => ⟨S100000x16, .f32⟩
  | .hbm, ⟨66, _⟩ => ⟨S100000x16, .f32⟩
  | .hbm, ⟨67, _⟩ => ⟨S100000x16, .f32⟩
  | .hbm, ⟨68, _⟩ => ⟨S1x16, .f32⟩
  | .hbm, ⟨69, _⟩ => ⟨S100000x64, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x64, .f32⟩
  | .hbm, ⟨79, _⟩ => ⟨S3200000x64, .f32⟩
  | .hbm, ⟨80, _⟩ => ⟨S3200000x64, .f32⟩
  | .hbm, ⟨81, _⟩ => ⟨S_, .f32⟩
  | .hbm, ⟨82, _⟩ => ⟨S100000x64, .f32⟩
  | .hbm, ⟨83, _⟩ => ⟨S3200000x1, .i32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16x64, .f32⟩
  | .local _ .vmem, ⟨8, _⟩ => ⟨S1x16, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S3200000_S3200000x1 : S3200000.ShapeCasts S3200000x1
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x512_S512x16_S5000x16_1_0_0_1_n_n_wf : DotDims.WF S5000x512 S512x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x64_S10000x64_1_0_0_1_n_n_wf : DotDims.WF S10000x16 S16x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x64, .f32⟩
  | 5 => ⟨S64, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x64, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x64, .f32⟩
  | 115 => ⟨S3300000x1, .f32⟩
  | 116 => ⟨S3300000x64, .f32⟩
  | 117 => ⟨S3300000x64, .f32⟩
  | 118 => ⟨S_, .f32⟩
  | 119 => ⟨S100000x64, .f32⟩
  | 120 => ⟨S3300000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x64, .f32⟩
  | 4 => ⟨S100000x64, .f32⟩
  | 5 => ⟨S100000x64, .f32⟩
  | 6 => ⟨S_, .f32⟩
  | 7 => ⟨S100000, .f32⟩
  | 8 => ⟨S100000x1, .f32⟩
  | 9 => ⟨S100000x1, .f32⟩
  | 10 => ⟨S100000x64, .f32⟩
  | 11 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelRun.lean ====
/-
  The idealized kernel's run with its result named.

  @main is eight segments: three stretches of host operations, a matrix product region, a stretch, a second matrix
  product region, a stretch, and the row-wise log-softmax region. The launch over these segments leaves every unscoped
  buffer at the contents the fold through the segments computes (the last boundary's valuation). Read at the result
  buffer this names the program's result; read at the six arguments it gives them back as launched.
-/
import proofs.«125250_j10754598109885_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the six argument arrays end as launched. -/
theorem run_result : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.KStages.lean ====
/-
  The kernel program's host-side stages, as functions of arrays.

  From the edge list: the two endpoint vectors; the in-degree with the node's own loop counted (a scatter-add of ones over
  the destinations, plus one); its inverse square root where the degree is positive and zero elsewhere; the per-edge
  weight (the product of the two endpoints' inverse roots, the endpoints read with negative numbers wrapped once and then
  clamped into the node range); the per-node self weight (the inverse root squared). From a node feature matrix h: the
  aggregation — for each node the sum over its incoming edges of the source's row times the edge weight, plus the node's
  own row times its self weight. Each definition is the program's own chain of host operations.
-/
import proofs.«125250_j10754598109885_2_alg».proof.Proof.Gen.KernelIdeal
import Idealize.ShloMosaic.PureOps.Ideal

noncomputable section

namespace Cert.KernelIdeal.Stages

open Cert.KernelIdeal Cert.KernelIdeal.Gen Idealize.ShloMosaic Idealize.ShloMosaic.TcCoe

/-- The edges' sources: row 0 of the edge list. -/
def src (ei : IVec S2x3200000 32) : IVec S3200000 32 :=
  shapeCast _ (extractStridedSlice S1x3200000 ![0, 0] ei slices_S2x3200000_S1x3200000_0_0) shapeCasts_S1x3200000_S3200000
/-- The edges' destinations: row 1 of the edge list. -/
def dst (ei : IVec S2x3200000 32) : IVec S3200000 32 :=
  shapeCast _ (extractStridedSlice S1x3200000 ![1, 0] ei slices_S2x3200000_S1x3200000_1_0) shapeCasts_S1x3200000_S3200000

/-- A vector of node numbers as a one-column index array. -/
def col (v : IVec S3200000 32) : IVec S3200000x1 32 :=
  broadcastInDim S3200000x1 ![0] bcast_S3200000_S3200000x1_0 v
/-- Node numbers with the negative ones wrapped once (a negative number has the node count added). -/
def wrap (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- The in-degree, the node's own loop counted: ones scattered over the destinations into zeros, plus one. -/
def deg (d : IVec S3200000 32) : FVec Ideal S100000 .f32 :=
  addf (Host.scatterAdd scatter_S100000_S3200000x1_S3200000_n_0_0_1
      (broadcastInDim S100000 ![] bcast_S_S100000 (constant (F := Ideal) S_ .f32 0x00000000#32)) (col d)
      (broadcastInDim S3200000 ![] bcast_S_S3200000 (constant (F := Ideal) S_ .f32 0x3F800000#32)))
    (broadcastInDim S100000 ![] bcast_S_S100000 (constant (F := Ideal) S_ .f32 0x3F800000#32))
/-- The inverse square root of a degree vector where it is positive, zero elsewhere. -/
def dinvOf (g : FVec Ideal S100000 .f32) : FVec Ideal S100000 .f32 :=
  select (cmpf .ogt g (broadcastInDim S100000 ![] bcast_S_S100000 (constant (F := Ideal) S_ .f32 0x00000000#32)))
    (Host.rsqrt (F := Ideal) g) (broadcastInDim S100000 ![] bcast_S_S100000 (id (constant (F := Ideal) S_ .f32 0x00000000#32)))
/-- The per-edge weight, one column. -/
def normE (dinv : FVec Ideal S100000 .f32) (s d : IVec S3200000 32) : FVec Ideal S3200000x1 .f32 :=
  shapeCast _ (mulf (F := Ideal) (Host.gather gather_S100000_S3200000x1_S3200000_n_0_n_n_0_1_1 dinv (col (wrap s)))
    (Host.gather gather_S100000_S3200000x1_S3200000_n_0_n_n_0_1_1 dinv (col (wrap d)))) shapeCasts_S3200000_S3200000x1
/-- The per-node self weight, one column. -/
def selfS (dinv : FVec Ideal S100000 .f32) : FVec Ideal S100000x1 .f32 :=
  shapeCast _ (mulf (F := Ideal) dinv dinv) shapeCasts_S100000_S100000x1

/-- The aggregation of a 16-column feature matrix. -/
def agg16 (h : FVec Ideal S100000x16 .f32) (s d : IVec S3200000 32) (nE : FVec Ideal S3200000x1 .f32) (sS : FVec Ideal S100000x1 .f32) : FVec Ideal S100000x16 .f32 :=
  addf (Host.scatterAdd scatter_S100000x16_S3200000x1_S3200000x16_1_0_0_1
      (broadcastInDim S100000x16 ![] bcast_S_S100000x16 (constant (F := Ideal) S_ .f32 0x00000000#32)) (col d)
      (mulf (Host.gather gather_S100000x16_S3200000x1_S3200000x16_1_0_n_n_0_1_116 h (col (wrap s)))
        (broadcastInDim S3200000x16 ![0, 1] bcast_S3200000x1_S3200000x16_0_1 nE)))
    (mulf (broadcastInDim S100000x16 ![0, 1] bcast_S100000x1_S100000x16_0_1 sS) h)
/-- The aggregation of a 64-column feature matrix. -/
def agg64 (h : FVec Ideal S100000x64 .f32) (s d : IVec S3200000 32) (nE : FVec Ideal S3200000x1 .f32) (sS : FVec Ideal S100000x1 .f32) : FVec Ideal S100000x64 .f32 :=
  addf (Host.scatterAdd scatter_S100000x64_S3200000x1_S3200000x64_1_0_0_1
      (broadcastInDim S100000x64 ![] bcast_S_S100000x64 (constant (F := Ideal) S_ .f32 0x00000000#32)) (col d)
      (mulf (Host.gather gather_S100000x64_S3200000x1_S3200000x64_1_0_n_n_0_1_164 h (col (wrap s)))
        (broadcastInDim S3200000x64 ![0, 1] bcast_S3200000x1_S3200000x64_0_1 nE)))
    (mulf (broadcastInDim S100000x64 ![0, 1] bcast_S100000x1_S100000x64_0_1 sS) h)

end Cert.KernelIdeal.Stages

end
-- ==== Proof.Dense.lean ====
/-
  The mathematics of the three dense stages, entry by entry, on the extended reals.

  `matProd x w`       the matrix product: entry (r, q) is the sum over k of x (r, k) · w (k, q);
  `biasRelu o b`      entry (r, k) is max (o (r, k) + b k) 0;
  `rowMax v`, `logSoftmaxRow v`   for one row v of 64 entries: its maximum taken from −∞, and
                       (v q − M) − log (0 + Σ exp (v q' − M)) with M that maximum.
  The zero and the −∞ are kept as the words the programs print (the same word on both sides is never evaluated).
-/
import Idealize.ShloMosaic.PureOps.Ideal
import Idealize.ShloMosaic.Lib.ValueIdx

noncomputable section

namespace Cert.Dense

open Idealize.ShloMosaic Idealize.ShloMosaic.ValueIdx

/-- The product of an [a, n] and an [n, b] matrix, entry by entry. -/
def matProd {a n b : ℕ} (x : (⟨2, ![a, n]⟩ : Shape).Idx → EReal) (w : (⟨2, ![n, b]⟩ : Shape).Idx → EReal) :
    (⟨2, ![a, b]⟩ : Shape).Idx → EReal :=
  fun i => ∑ k : Fin n, x (ix2 (i 0) k) * w (ix2 k (i 1))

/-- A bias added along the rows, then the positive part taken against the printed zero word. -/
def biasRelu {a n : ℕ} (o : (⟨2, ![a, n]⟩ : Shape).Idx → EReal) (b : (⟨1, ![n]⟩ : Shape).Idx → EReal) :
    (⟨2, ![a, n]⟩ : Shape).Idx → EReal :=
  fun i => max (o i + b (ix1 (i 1))) (Ideal.ofBits .f32 0x00000000#32)

/-- The maximum of a row, taken from the printed −∞ word. -/
def rowMax {n : ℕ} (v : Fin n → EReal) : EReal :=
  (Finset.univ : Finset (Fin n)).fold max (Ideal.ofBits .f32 0xFF800000#32) v

/-- One row of a log-softmax: the row shifted by its maximum, less the logarithm of the sum of the exponentials of the
    shifted row (the sum started at the printed zero word). -/
def logSoftmaxRow {n : ℕ} (v : Fin n → EReal) (q : Fin n) : EReal :=
  (v q - rowMax v) - Ideal.log (Ideal.ofBits .f32 0x00000000#32 + ∑ k : Fin n, Ideal.exp (v k - rowMax v))

/-- A bias added along the rows, then each row's log-softmax. -/
def biasLogSoftmax {a n : ℕ} (o : (⟨2, ![a, n]⟩ : Shape).Idx → EReal) (b : (⟨1, ![n]⟩ : Shape).Idx → EReal) :
    (⟨2, ![a, n]⟩ : Shape).Idx → EReal :=
  fun i => logSoftmaxRow (fun k => o (ix2 (i 0) k) + b (ix1 k)) (i 1)

end Cert.Dense

end
-- ==== Proof.KValue.lean ====
/-
  The value both programs compute, as one function of the six arguments.

  With s, d the edges' endpoints, dinv the inverse root of the in-degree (own loop counted), w the per-edge weight and u the
  per-node self weight, and agg the aggregation "sum over incoming edges of the source's row times the edge weight, plus the
  node's own row times its self weight":
      out1 = agg (x · W1),   h2 = max (out1 + b1, 0) · W2,   out2 = agg h2,   result = log-softmax of the rows of out2 + b2.
-/
import proofs.«125250_j10754598109885_2_alg».proof.Proof.KStages
import proofs.«125250_j10754598109885_2_alg».proof.Proof.Dense

noncomputable section

namespace Cert.Value

open Cert.KernelIdeal Cert.KernelIdeal.Stages Cert.Dense Idealize.ShloMosaic

/-- The inverse root of the in-degree. -/
def dinv (ei : IVec S2x3200000 32) : FVec Ideal S100000 .f32 := dinvOf (deg (dst ei))
/-- The first layer, aggregated. -/
def out1 (x : FVec Ideal S100000x512 .f32) (ei : IVec S2x3200000 32) (w1 : FVec Ideal S512x16 .f32) : FVec Ideal S100000x16 .f32 :=
  agg16 (matProd x w1) (src ei) (dst ei) (normE (dinv ei) (src ei) (dst ei)) (selfS (dinv ei))
/-- The second layer's linear part. -/
def h2 (x : FVec Ideal S100000x512 .f32) (ei : IVec S2x3200000 32) (w1 : FVec Ideal S512x16 .f32) (b1 : FVec Ideal S16 .f32)
    (w2 : FVec Ideal S16x64 .f32) : FVec Ideal S100000x64 .f32 :=
  matProd (biasRelu (out1 x ei w1) b1) w2
/-- The second layer, aggregated. -/
def out2 (x : FVec Ideal S100000x512 .f32) (ei : IVec S2x3200000 32) (w1 : FVec Ideal S512x16 .f32) (b1 : FVec Ideal S16 .f32)
    (w2 : FVec Ideal S16x64 .f32) : FVec Ideal S100000x64 .f32 :=
  agg64 (h2 x ei w1 b1 w2) (src ei) (dst ei) (normE (dinv ei) (src ei) (dst ei)) (selfS (dinv ei))
/-- The result. -/
def result (x : FVec Ideal S100000x512 .f32) (ei : IVec S2x3200000 32) (w1 : FVec Ideal S512x16 .f32) (b1 : FVec Ideal S16 .f32)
    (w2 : FVec Ideal S16x64 .f32) (b2 : FVec Ideal S64 .f32) : FVec Ideal S100000x64 .f32 :=
  biasLogSoftmax (out2 x ei w1 b1 w2) b2

end Cert.Value

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Region0.lean ====
/-
  Region 0: the first matrix product, block by block, is the whole product.

  Point t of the grid of 20 reads rows 5000 t … 5000 t + 4999 of the left operand and the whole right operand, and writes
  back their product as rows 5000 t … of the result. Entry (p, q) of that block is the sum over k of the left block's
  (p, k) times the right operand's (k, q), which is entry (5000 t + p, q) of the product of the whole arrays. The twenty
  blocks tile the result's 100000 rows, so the result array ends as the product.
-/
import proofs.«125250_j10754598109885_2_alg».proof.Proof.Gen.KernelIdeal.Frame
import proofs.«125250_j10754598109885_2_alg».proof.Proof.LibMatmulAt
import proofs.«125250_j10754598109885_2_alg».proof.Proof.Dense
import Idealize.ShloMosaic.Lib.Pipeline.Value

set_option maxRecDepth 16384

noncomputable section

namespace Cert.KernelIdeal.Region0

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The product's record: where its two operand indices sit -/

theorem lhs0 (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem lhs1 (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q
theorem rhs0 (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q
theorem rhs1 (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-! ## One block of the product -/

/-- The body's value at (p, q): the sum over k of the left block's (p, k) times the right operand's (k, q). -/
theorem pay_at (x0 : Vec Ideal S5000x512 .f32) (x1 : Vec Ideal S512x16 .f32) (p : Fin 5000) (q : Fin 16) :
    k0_pay1 x0 x1 (ix2 p q) = ∑ k : Fin 512, x0 (ix2 p k) * x1 (ix2 k q) := by
  unfold k0_pay1
  exact MatmulAt.matmul_zero_ix2 dot_S5000x512_S512x16_S5000x16_1_0_0_1_n_n rfl rfl lhs0 lhs1 rhs0 rhs1 (some .fp32) x0 x1 p q

/-- A block of the product is the product of the left operand's rows from `base` on with the right operand: when the
    left block is rows `base + ·` of X, the right block all of W, and i is row `base + p`, column q of the result. -/
theorem pay_block (x0 : Vec Ideal S5000x512 .f32) (x1 : Vec Ideal S512x16 .f32)
    (X : S100000x512.Idx → EReal) (W : S512x16.Idx → EReal)
    (e0 : S5000x512.Idx → S100000x512.Idx) (e1 : S512x16.Idx → S512x16.Idx) (base : ℕ)
    (hx0 : ∀ y, x0 y = X (e0 y)) (hx1 : ∀ y, x1 y = W (e1 y))
    (he0 : ∀ y, (e0 y 0).val = base + (y 0).val ∧ (e0 y 1).val = (y 1).val)
    (he1 : ∀ y, (e1 y 0).val = (y 0).val ∧ (e1 y 1).val = (y 1).val)
    (j : S5000x16.Idx) (i : S100000x16.Idx) (hi0 : (i 0).val = base + (j 0).val) (hi1 : (i 1).val = (j 1).val) :
    k0_pay1 x0 x1 j = matProd X W i := by
  obtain ⟨p, q, rfl⟩ : ∃ (p : Fin 5000) (q : Fin 16), j = ix2 p q := ⟨j 0, j 1, eq_ix2 j⟩
  rw [pay_at]
  unfold matProd
  refine Finset.sum_congr rfl fun k _ => ?_
  rw [hx0, hx1]
  have a0 : e0 (ix2 p k) = ix2 (i 0) k := funext fun a => Fin.ext (by
    match a with
    | ⟨0, _⟩ => exact ((he0 (ix2 p k)).1).trans hi0.symm
    | ⟨1, _⟩ => exact (he0 (ix2 p k)).2)
  have a1 : e1 (ix2 k q) = ix2 k (i 1) := funext fun a => Fin.ext (by
    match a with
    | ⟨0, _⟩ => exact (he1 (ix2 k q)).1
    | ⟨1, _⟩ => exact ((he1 (ix2 k q)).2).trans hi1.symm)
  rw [a0, a1]
  rfl

/-! ## From the blocks to the array -/

variable (V : (c : Dev nD) → (b : Ref sig .tc) → Buf (Elt Ideal) ((c : Thread nD τ).loc b))

/-- The printed index maps over the grid: the left operand's block moves with the result's, the right operand's stays,
    and the result's block index along the rows is the point's number. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨f0, f1, f2, f3, f4, f5⟩ := idx_facts t
  funext j
  refine pay_block (iblk0 V c 0 t) (iblk0 V c 1 t) (V c main_arg0) (V c main_arg2)
    ((cfg0.win 0).blk t).view.emb ((cfg0.win 1).blk t).view.emb (t.val * 5000) (fun y => rfl) (fun y => rfl) ?_ ?_ j _ ?_ ?_
  · intro y
    refine ⟨?_, ?_⟩
    · show win0_0.index t (0 : Fin 2) * 5000 + 1 * (y 0).val = t.val * 5000 + (y 0).val; omega
    · show win0_0.index t (1 : Fin 2) * 512 + 1 * (y 1).val = (y 1).val; omega
  · intro y
    refine ⟨?_, ?_⟩
    · show win0_1.index t (0 : Fin 2) * 512 + 1 * (y 0).val = (y 0).val; omega
    · show win0_1.index t (1 : Fin 2) * 16 + 1 * (y 1).val = (y 1).val; omega
  · show win0_2.index t (0 : Fin 2) * 5000 + 1 * (j 0).val = t.val * 5000 + (j 0).val; omega
  · show win0_2.index t (1 : Fin 2) * 16 + 1 * (j 1).val = (j 1).val; omega

/-- An index of the result is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- Every row of the result lies in the block of the point numbered row / 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨f0, f1, f2, f3, f4, f5⟩ := idx_facts t
  refine ⟨t, flush0_2 t, ?_⟩
  rw [mem_blk]
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The result array after the region: the product of the two arrays the region was entered with. -/
theorem final (c : Dev nD) : (dat0 V c).arrAt 2 cfg0.N = matProd (V c main_arg0) (V c main_arg2) :=
  (dat0 V c).arrAt_eq_of_cover 2 (matProd (V c main_arg0) (V c main_arg2)) (fun t _ => flushed_eq V c t) cover

end Cert.KernelIdeal.Region0

end
-- ==== Proof.Region1.lean ====
/-
  Region 1: bias, positive part and the second matrix product, block by block.

  Point t of the grid of 10 reads rows 10000 t … of the aggregated first layer, the one-row bias and the whole weight
  matrix, and writes back rows 10000 t … of the product of the biased, clipped block with the weights. Entry (p, q) of
  the block is the sum over k of max (block (p, k) + bias k, 0) · weight (k, q): entry (10000 t + p, q) of the product
  of the whole biased and clipped array with the weights. The ten blocks tile the 100000 rows.
-/
import proofs.«125250_j10754598109885_2_alg».proof.Proof.Gen.KernelIdeal.Frame
import proofs.«125250_j10754598109885_2_alg».proof.Proof.LibMatmulAt
import proofs.«125250_j10754598109885_2_alg».proof.Proof.Dense
import Idealize.ShloMosaic.Lib.Pipeline.Value
import Idealize.ShloMosaic.Lib.ValueLayout

set_option maxRecDepth 16384

noncomputable section

namespace Cert.KernelIdeal.Region1

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The product's record: where its two operand indices sit -/

theorem lhs0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem lhs1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
theorem rhs0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
theorem rhs1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-! ## One block -/

/-- The biased and clipped block, entry by entry. -/
theorem act_at (x0 : Vec Ideal S10000x16 .f32) (x2 : Vec Ideal S1x16 .f32) (p : Fin 10000) (k : Fin 16) :
    maximumf (addf (shapeCast S10000x16 x0 shapeCasts_S10000x16_S10000x16)
        (broadcastTo S10000x16 (shapeCast S1x16 x2 shapeCasts_S1x16_S1x16) broadcasts_S1x16_S10000x16))
      (broadcast S10000x16 (Scalar.ofBits (F := Ideal) .f32 0x00000000#32)) (ix2 p k)
      = max (x0 (ix2 p k) + x2 (ix2 (0 : Fin 1) k)) (Ideal.ofBits .f32 0x00000000#32) := by
  rw [maximumf_apply, addf_apply, broadcast_apply, shapeCast_self, shapeCast_self, broadcastTo_1b_ab_apply]
  rfl

/-- The body's value at (p, q). -/
theorem pay_at (x0 : Vec Ideal S10000x16 .f32) (x2 : Vec Ideal S1x16 .f32) (x8 : Vec Ideal S16x64 .f32) (p : Fin 10000) (q : Fin 64) :
    k1_pay1 x0 x2 x8 (ix2 p q)
      = ∑ k : Fin 16, max (x0 (ix2 p k) + x2 (ix2 (0 : Fin 1) k)) (Ideal.ofBits .f32 0x00000000#32) * x8 (ix2 k q) := by
  show matmul dot_S10000x16_S16x64_S10000x64_1_0_0_1_n_n (some .fp32)
      (maximumf (addf (shapeCast S10000x16 x0 shapeCasts_S10000x16_S10000x16)
        (broadcastTo S10000x16 (shapeCast S1x16 x2 shapeCasts_S1x16_S1x16) broadcasts_S1x16_S10000x16))
        (broadcast S10000x16 (Scalar.ofBits (F := Ideal) .f32 0x00000000#32)))
      x8 (constant S10000x64 .f32 0x00000000#32) (ix2 p q) = _
  refine (MatmulAt.matmul_zero_ix2 dot_S10000x16_S16x64_S10000x64_1_0_0_1_n_n rfl rfl lhs0 lhs1 rhs0 rhs1 (some .fp32) _ x8 p q).trans ?_
  refine Finset.sum_congr rfl fun k _ => ?_
  rw [act_at]

/-- A block is the product of the biased, clipped rows from `base` on with the weights. -/
theorem pay_block (x0 : Vec Ideal S10000x16 .f32) (x2 : Vec Ideal S1x16 .f32) (x8 : Vec Ideal S16x64 .f32)
    (O : S100000x16.Idx → EReal) (b : S16.Idx → EReal) (W : S16x64.Idx → EReal)
    (e0 : S10000x16.Idx → S100000x16.Idx) (e8 : S16x64.Idx → S16x64.Idx) (base : ℕ)
    (hx0 : ∀ y, x0 y = O (e0 y)) (hx2 : ∀ k : Fin 16, x2 (ix2 (0 : Fin 1) k) = b (ix1 k)) (hx8 : ∀ y, x8 y = W (e8 y))
    (he0 : ∀ y, (e0 y 0).val = base + (y 0).val ∧ (e0 y 1).val = (y 1).val)
    (he8 : ∀ y, (e8 y 0).val = (y 0).val ∧ (e8 y 1).val = (y 1).val)
    (j : S10000x64.Idx) (i : S100000x64.Idx) (hi0 : (i 0).val = base + (j 0).val) (hi1 : (i 1).val = (j 1).val) :
    k1_pay1 x0 x2 x8 j = matProd (biasRelu O b) W i := by
  obtain ⟨p, q, rfl⟩ : ∃ (p : Fin 10000) (q : Fin 64), j = ix2 p q := ⟨j 0, j 1, eq_ix2 j⟩
  rw [pay_at]
  unfold matProd biasRelu
  refine Finset.sum_congr rfl fun k _ => ?_
  rw [hx0, hx2, hx8]
  have a0 : e0 (ix2 p k) = ix2 (i 0) k := funext fun a => Fin.ext (by
    match a with
    | ⟨0, _⟩ => exact ((he0 (ix2 p k)).1).trans hi0.symm
    | ⟨1, _⟩ => exact (he0 (ix2 p k)).2)
  have a8 : e8 (ix2 k q) = ix2 k (i 1) := funext fun a => Fin.ext (by
    match a with
    | ⟨0, _⟩ => exact (he8 (ix2 k q)).1
    | ⟨1, _⟩ => exact ((he8 (ix2 k q)).2).trans hi1.symm)
  rw [a0, a8]
  rfl

/-! ## From the blocks to the array -/

variable (V : (c : Dev nD) → (b : Ref sig .tc) → Buf (Elt Ideal) ((c : Thread nD τ).loc b))

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the product, for any vector b that the one-row bias array spells. -/
theorem flushed_eq (c : Dev nD) (b : S16.Idx → EReal) (hb : ∀ k : Fin 16, V c main_v48 (ix2 (0 : Fin 1) k) = b (ix1 k)) (t : Fin cfg1.N) :
    (dat1 V c).flushed 3 t = ((cfg1.win 3).blk t).view.read (Elt Ideal) (matProd (biasRelu (V c main_v47) b) (V c main_arg4)) := by
  show (cfg1.win 3).cut (grid1.coords t) ((dat1 V c).after 3 t) = _
  rw [after1_3]
  unfold out1_3
  rw [View.canon_unit_zero hz]
  simp only [View.ld_unit_zero (S := S10000x16) hz, View.ld_unit_zero (S := S16x64) hz, View.ld_unit_zero (S := S1x16) hz]
  obtain ⟨f0, f1, f2, f3, f4, f5, f6, f7⟩ := idx_facts t
  funext j
  refine pay_block (iblk1 V c 0 t) (iblk1 V c 2 t) (iblk1 V c 1 t) (V c main_v47) b (V c main_arg4)
    ((cfg1.win 0).blk t).view.emb ((cfg1.win 1).blk t).view.emb (t.val * 10000) (fun y => rfl) ?_ (fun y => rfl) ?_ ?_ j _ ?_ ?_
  · intro k
    refine Eq.trans ?_ (hb k)
    show V c main_v48 (((cfg1.win 2).blk t).view.emb (ix2 (0 : Fin 1) k)) = V c main_v48 (ix2 (0 : Fin 1) k)
    refine congrArg (V c main_v48) (funext fun a => Fin.ext ?_)
    match a with
    | ⟨0, _⟩ => show win1_2.index t (0 : Fin 2) * 1 + 1 * 0 = 0; omega
    | ⟨1, _⟩ => show win1_2.index t (1 : Fin 2) * 16 + 1 * k.val = k.val; omega
  · intro y
    refine ⟨?_, ?_⟩
    · show win1_0.index t (0 : Fin 2) * 10000 + 1 * (y 0).val = t.val * 10000 + (y 0).val; omega
    · show win1_0.index t (1 : Fin 2) * 16 + 1 * (y 1).val = (y 1).val; omega
  · intro y
    refine ⟨?_, ?_⟩
    · show win1_1.index t (0 : Fin 2) * 16 + 1 * (y 0).val = (y 0).val; omega
    · show win1_1.index t (1 : Fin 2) * 64 + 1 * (y 1).val = (y 1).val; omega
  · show win1_3.index t (0 : Fin 2) * 10000 + 1 * (j 0).val = t.val * 10000 + (j 0).val; omega
  · show win1_3.index t (1 : Fin 2) * 64 + 1 * (j 1).val = (j 1).val; omega

theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v49).slice (win1_3.rect t)).set ↔ _
  rw [View.set_slice_whole, Rect.mem_set_unit]
  exact Iff.rfl

theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨f0, f1, f2, f3, f4, f5, f6, f7⟩ := idx_facts t
  refine ⟨t, flush1_3 t, ?_⟩
  rw [mem_blk]
  have ht : t.val = (i 0).val / 10000 := rfl
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The result array after the region. -/
theorem final (c : Dev nD) (b : S16.Idx → EReal) (hb : ∀ k : Fin 16, V c main_v48 (ix2 (0 : Fin 1) k) = b (ix1 k)) :
    (dat1 V c).arrAt 3 cfg1.N = matProd (biasRelu (V c main_v47) b) (V c main_arg4) :=
  (dat1 V c).arrAt_eq_of_cover 3 (matProd (biasRelu (V c main_v47) b) (V c main_arg4)) (fun t _ => flushed_eq V c b hb t) cover

end Cert.KernelIdeal.Region1

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.Region2.lean ====
/-
  Region 2: bias and the row-wise log-softmax, block by block.

  Point t of the grid of 10 reads rows 10000 t … of the aggregated second layer and the one-row bias, and writes back,
  row by row, the log-softmax of the biased row: with M the row's maximum, entry q is (v q − M) − log Σ exp (v k − M).
  Each row's result depends on that row only, so block t of the result is rows 10000 t … of the row-wise log-softmax of
  the whole biased array, and the ten blocks tile the 100000 rows.
-/
import proofs.«125250_j10754598109885_2_alg».proof.Proof.Gen.KernelIdeal.Frame
import proofs.«125250_j10754598109885_2_alg».proof.Proof.LibColBroadcast
import proofs.«125250_j10754598109885_2_alg».proof.Proof.LibColumnCast
import proofs.«125250_j10754598109885_2_alg».proof.Proof.Dense
import Idealize.ShloMosaic.Lib.Pipeline.Value
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The row-wise part of the body, over any biased block -/

/-- Each row's maximum. -/
def mx (v : FVec Ideal S10000x64 .f32) : FVec Ideal S10000 .f32 :=
  multiReduction .maximumf [1] S10000 v 0xFF800000#32 reduces_S10000x64_S10000 (.inl rfl) rfl
/-- The block shifted by its rows' maxima. -/
def sh (v : FVec Ideal S10000x64 .f32) : FVec Ideal S10000x64 .f32 :=
  subf v (broadcastTo S10000x64 (shapeCast S10000x1 (mx v) shapeCasts_S10000_S10000x1) broadcasts_S10000x1_S10000x64)
/-- Each row's sum of exponentials of the shifted row. -/
def se (v : FVec Ideal S10000x64 .f32) : FVec Ideal S10000 .f32 :=
  multiReduction .add [1] S10000 (exp (sh v)) 0x00000000#32 reduces_S10000x64_S10000 (.inl rfl) rfl
/-- The block's row-wise log-softmax. -/
def lsm (v : FVec Ideal S10000x64 .f32) : FVec Ideal S10000x64 .f32 :=
  subf (sh v) (broadcastTo S10000x64 (log (shapeCast S10000x1 (se v) shapeCasts_S10000_S10000x1)) broadcasts_S10000x1_S10000x64)

/-- The body's value is the row-wise part of the biased block. -/
theorem pay_eq (x0 : Vec Ideal S10000x64 .f32) (x2 : Vec Ideal S1x64 .f32) :
    k2_pay1 x0 x2 = lsm (addf (shapeCast S10000x64 x0 shapeCasts_S10000x64_S10000x64)
      (broadcastTo S10000x64 (shapeCast S1x64 x2 shapeCasts_S1x64_S1x64) broadcasts_S1x64_S10000x64)) := rfl

/-- The reduced index with the lane coordinate put back is (row, lane). -/
theorem lift_eq (p : Fin 10000) (k : Fin 64) : reduces_S10000x64_S10000.lift (ix1 p) k = ix2 p k :=
  funext fun a => Fin.ext (by
    match a with
    | ⟨0, _⟩ => rfl
    | ⟨1, _⟩ => rfl)

/-- A column of one value per row, stood up and broadcast over the lanes, reads that row's value. -/
theorem col_at (u : FVec Ideal S10000 .f32) (p : Fin 10000) (q : Fin 64) :
    broadcastTo S10000x64 (shapeCast S10000x1 u shapeCasts_S10000_S10000x1) broadcasts_S10000x1_S10000x64 (ix2 p q) = u (ix1 p) := by
  rw [Cert.LibColBroadcast.broadcastTo_a1_ab_apply, Cert.LibColumnCast.shapeCast_a_a1_apply]

theorem mx_at (v : FVec Ideal S10000x64 .f32) (p : Fin 10000) : mx v (ix1 p) = rowMax (fun k : Fin 64 => v (ix2 p k)) := by
  unfold mx rowMax
  refine (Ideal.multiReduction_maximumf_single v _ reduces_S10000x64_S10000 _ _ (ix1 p)).trans ?_
  exact congrArg (fun f : Fin 64 → EReal => (Finset.univ : Finset (Fin 64)).fold max (Ideal.ofBits .f32 0xFF800000#32) f)
    (funext fun k => congrArg v (lift_eq p k))

theorem sh_at (v : FVec Ideal S10000x64 .f32) (p : Fin 10000) (k : Fin 64) :
    sh v (ix2 p k) = v (ix2 p k) - rowMax (fun k : Fin 64 => v (ix2 p k)) := by
  unfold sh
  rw [subf_apply, col_at, mx_at]

theorem se_at (v : FVec Ideal S10000x64 .f32) (p : Fin 10000) :
    se v (ix1 p) = ∑ k : Fin 64, Ideal.exp (v (ix2 p k) - rowMax (fun k : Fin 64 => v (ix2 p k))) := by
  unfold se
  refine (Ideal.multiReduction_add_single (exp (sh v)) _ reduces_S10000x64_S10000 _ _ (ix1 p)).trans ?_
  refine Finset.sum_congr rfl fun k _ => ?_
  refine (congrArg (fun z => Ideal.exp (sh v z)) (lift_eq p k)).trans ?_
  exact congrArg Ideal.exp (sh_at v p k)

theorem lsm_at (v : FVec Ideal S10000x64 .f32) (p : Fin 10000) (q : Fin 64) :
    lsm v (ix2 p q) = logSoftmaxRow (fun k : Fin 64 => v (ix2 p k)) q := by
  unfold lsm logSoftmaxRow
  rw [subf_apply, sh_at]
  refine congrArg (fun z => v (ix2 p q) - rowMax (fun k : Fin 64 => v (ix2 p k)) - z) ?_
  rw [Cert.LibColBroadcast.broadcastTo_a1_ab_apply]
  show Ideal.log (shapeCast S10000x1 (se v) shapeCasts_S10000_S10000x1 (ix2 p (0 : Fin 1))) = _
  rw [Cert.LibColumnCast.shapeCast_a_a1_apply, se_at, Ideal.ofBits_zero_f32, zero_add]

/-- The biased block, entry by entry. -/
theorem biased_at (x0 : Vec Ideal S10000x64 .f32) (x2 : Vec Ideal S1x64 .f32) (p : Fin 10000) (k : Fin 64) :
    addf (F := Ideal) (φ := .f32) (shapeCast S10000x64 x0 shapeCasts_S10000x64_S10000x64)
      (broadcastTo S10000x64 (shapeCast S1x64 x2 shapeCasts_S1x64_S1x64) broadcasts_S1x64_S10000x64) (ix2 p k)
      = x0 (ix2 p k) + x2 (ix2 (0 : Fin 1) k) := by
  rw [addf_apply, shapeCast_self, shapeCast_self, broadcastTo_1b_ab_apply]

/-- A block of the result is rows `base + ·` of the row-wise log-softmax of the whole biased array. -/
theorem pay_block (x0 : Vec Ideal S10000x64 .f32) (x2 : Vec Ideal S1x64 .f32)
    (O : S100000x64.Idx → EReal) (b : S64.Idx → EReal)
    (e0 : S10000x64.Idx → S100000x64.Idx) (base : ℕ)
    (hx0 : ∀ y, x0 y = O (e0 y)) (hx2 : ∀ k : Fin 64, x2 (ix2 (0 : Fin 1) k) = b (ix1 k))
    (he0 : ∀ y, (e0 y 0).val = base + (y 0).val ∧ (e0 y 1).val = (y 1).val)
    (j : S10000x64.Idx) (i : S100000x64.Idx) (hi0 : (i 0).val = base + (j 0).val) (hi1 : (i 1).val = (j 1).val) :
    k2_pay1 x0 x2 j = biasLogSoftmax O b i := by
  obtain ⟨p, q, rfl⟩ : ∃ (p : Fin 10000) (q : Fin 64), j = ix2 p q := ⟨j 0, j 1, eq_ix2 j⟩
  rw [pay_eq, lsm_at]
  unfold biasLogSoftmax
  have hq : (i 1 : Fin 64) = q := Fin.ext hi1
  rw [hq]
  refine congrArg (fun r : Fin 64 → EReal => logSoftmaxRow r q) (funext fun k => ?_)
  rw [biased_at, hx0, hx2]
  have a0 : e0 (ix2 p k) = ix2 (i 0) k := funext fun a => Fin.ext (by
    match a with
    | ⟨0, _⟩ => exact ((he0 (ix2 p k)).1).trans hi0.symm
    | ⟨1, _⟩ => exact (he0 (ix2 p k)).2)
  rw [a0]
  rfl

/-! ## From the blocks to the array -/

variable (V : (c : Dev nD) → (b : Ref sig .tc) → Buf (Elt Ideal) ((c : Thread nD τ).loc b))

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the row-wise log-softmax of the biased array. -/
theorem flushed_eq (c : Dev nD) (b : S64.Idx → EReal) (hb : ∀ k : Fin 64, V c main_v65 (ix2 (0 : Fin 1) k) = b (ix1 k)) (t : Fin cfg2.N) :
    (dat2 V c).flushed 2 t = ((cfg2.win 2).blk t).view.read (Elt Ideal) (biasLogSoftmax (V c main_v64) b) := by
  show (cfg2.win 2).cut (grid2.coords t) ((dat2 V c).after 2 t) = _
  rw [after2_2]
  unfold out2_2
  rw [View.canon_unit_zero hz]
  simp only [View.ld_unit_zero (S := S10000x64) hz, View.ld_unit_zero (S := S1x64) hz]
  obtain ⟨f0, f1, f2, f3, f4, f5⟩ := idx_facts t
  funext j
  refine pay_block (iblk2 V c 0 t) (iblk2 V c 1 t) (V c main_v64) b
    ((cfg2.win 0).blk t).view.emb (t.val * 10000) (fun y => rfl) ?_ ?_ j _ ?_ ?_
  · intro k
    refine Eq.trans ?_ (hb k)
    show V c main_v65 (((cfg2.win 1).blk t).view.emb (ix2 (0 : Fin 1) k)) = V c main_v65 (ix2 (0 : Fin 1) k)
    refine congrArg (V c main_v65) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  · intro y
    refine ⟨?_, ?_⟩
    · show win2_0.index t (0 : Fin 2) * 10000 + 1 * (y 0).val = t.val * 10000 + (y 0).val; omega
    · show win2_0.index t (1 : Fin 2) * 64 + 1 * (y 1).val = (y 1).val; omega
  · show win2_2.index t (0 : Fin 2) * 10000 + 1 * (j 0).val = t.val * 10000 + (j 0).val; omega
  · show win2_2.index t (1 : Fin 2) * 64 + 1 * (j 1).val = (j 1).val; omega

theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v66).slice (win2_2.rect t)).set ↔ _
  rw [View.set_slice_whole, Rect.mem_set_unit]
  exact Iff.rfl

theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨f0, f1, f2, f3, f4, f5⟩ := idx_facts t
  refine ⟨t, flush2_2 t, ?_⟩
  rw [mem_blk]
  have ht : t.val = (i 0).val / 10000 := rfl
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the region. -/
theorem final (c : Dev nD) (b : S64.Idx → EReal) (hb : ∀ k : Fin 64, V c main_v65 (ix2 (0 : Fin 1) k) = b (ix1 k)) :
    (dat2 V c).arrAt 2 cfg2.N = biasLogSoftmax (V c main_v64) b :=
  (dat2 V c).arrAt_eq_of_cover 2 (biasLogSoftmax (V c main_v64) b) (fun t _ => flushed_eq V c b hb t) cover

end Cert.KernelIdeal.Region2

end
-- ==== Proof.KBounds.lean ====
/-
  What each segment of the kernel program leaves in the buffers that later segments read.

  Through the three opening stretches of host operations the endpoint vectors, the per-edge weight and the per-node self
  weight are computed from the edge list; region 0 leaves the first product; the next stretch aggregates it and lays the
  first bias down as one row; region 1 leaves the second layer's linear part; the next stretch aggregates that and lays
  the second bias down; region 2 leaves the result. A buffer a segment does not write keeps its contents through it. Read
  at the result buffer, the last boundary's contents are the value function of the six arguments.
-/
import proofs.«125250_j10754598109885_2_alg».proof.Proof.Gen.KernelIdeal.Frame
import proofs.«125250_j10754598109885_2_alg».proof.Proof.KValue
import proofs.«125250_j10754598109885_2_alg».proof.Proof.Region0
import proofs.«125250_j10754598109885_2_alg».proof.Proof.Region1
import proofs.«125250_j10754598109885_2_alg».proof.Proof.Region2
import Idealize.ShloMosaic.Lib.ValueLayout

set_option maxRecDepth 16384

noncomputable section

namespace Cert.KernelIdeal.Bounds

open Cert.KernelIdeal Cert.KernelIdeal.Gen Cert.KernelIdeal.Stages Cert.Dense
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

-- The large operations are compared by their arguments only, never opened: an equation between two arrays built from them
-- holds because the arguments agree.
attribute [local irreducible] Host.scatterAdd Host.gather Host.rsqrt matProd biasRelu biasLogSoftmax

/-! ## Region 0's entry: after the three opening stretches -/

/-! ### The first stretch, from the launch contents -/

theorem W1_main_v1 (c : Dev nD) : W1 m ρ c (Proc.devRef .tc main_v1) = src (m ((c : Thread nD τ).loc main_arg1)) := by
  show StableHlo.after hostOps0 (W0 m ρ c) (Proc.devRef .tc main_v1) = _
  after_results
  all_goals rfl

theorem W1_main_v3 (c : Dev nD) : W1 m ρ c (Proc.devRef .tc main_v3) = dst (m ((c : Thread nD τ).loc main_arg1)) := by
  show StableHlo.after hostOps0 (W0 m ρ c) (Proc.devRef .tc main_v3) = _
  after_results
  all_goals rfl

theorem W1_main_v11 (c : Dev nD) : W1 m ρ c (Proc.devRef .tc main_v11) = cmpf (F := Ideal) .ogt (deg (dst (m ((c : Thread nD τ).loc main_arg1)))) (broadcastInDim S100000 ![] bcast_S_S100000 (constant (F := Ideal) S_ .f32 0x00000000#32)) := by
  show StableHlo.after hostOps0 (W0 m ρ c) (Proc.devRef .tc main_v11) = _
  after_results
  all_goals rfl

theorem W1_main_v12 (c : Dev nD) : W1 m ρ c (Proc.devRef .tc main_v12) = Host.rsqrt (F := Ideal) (deg (dst (m ((c : Thread nD τ).loc main_arg1)))) := by
  show StableHlo.after hostOps0 (W0 m ρ c) (Proc.devRef .tc main_v12) = _
  after_results
  all_goals rfl

theorem W1_main_cst_3 (c : Dev nD) : W1 m ρ c (Proc.devRef .tc main_cst_3) = constant (F := Ideal) S_ .f32 0x00000000#32 := by
  show StableHlo.after hostOps0 (W0 m ρ c) (Proc.devRef .tc main_cst_3) = _
  after_results
  all_goals rfl

/-! ### The second stretch (the choice between the inverse root and zero), over any contents -/

theorem choice_main_v13 (W : Valuation τ sig (Elt Ideal)) : StableHlo.after hostOps0_1 W (Proc.devRef .tc main_v13)
    = select (W (Proc.devRef .tc main_v11)) (W (Proc.devRef .tc main_v12)) (broadcastInDim S100000 ![] bcast_S_S100000 (id (W (Proc.devRef .tc main_cst_3)))) := by
  after_results
  all_goals rfl
theorem choice_main_v1 (W : Valuation τ sig (Elt Ideal)) : StableHlo.after hostOps0_1 W (Proc.devRef .tc main_v1) = W (Proc.devRef .tc main_v1) := by
  after_results
  all_goals rfl
theorem choice_main_v3 (W : Valuation τ sig (Elt Ideal)) : StableHlo.after hostOps0_1 W (Proc.devRef .tc main_v3) = W (Proc.devRef .tc main_v3) := by
  after_results
  all_goals rfl

theorem W2_main_v13 (c : Dev nD) : W2 m ρ c (Proc.devRef .tc main_v13) = Cert.Value.dinv (m ((c : Thread nD τ).loc main_arg1)) := by
  refine (choice_main_v13 (W1 m ρ c)).trans ?_
  rw [W1_main_v11, W1_main_v12, W1_main_cst_3]
  all_goals rfl
theorem W2_main_v1 (c : Dev nD) : W2 m ρ c (Proc.devRef .tc main_v1) = src (m ((c : Thread nD τ).loc main_arg1)) :=
  (choice_main_v1 (W1 m ρ c)).trans (W1_main_v1 m ρ c)
theorem W2_main_v3 (c : Dev nD) : W2 m ρ c (Proc.devRef .tc main_v3) = dst (m ((c : Thread nD τ).loc main_arg1)) :=
  (choice_main_v3 (W1 m ρ c)).trans (W1_main_v3 m ρ c)

/-! ### The third stretch (the weights), over any contents -/

set_option maxHeartbeats 8000000 in
theorem weights_main_v29 (W : Valuation τ sig (Elt Ideal)) : StableHlo.after hostOps0_2 W (Proc.devRef .tc main_v29)
    = normE (W (Proc.devRef .tc main_v13)) (W (Proc.devRef .tc main_v1)) (W (Proc.devRef .tc main_v3)) := by
  after_results_simp
  all_goals rfl
theorem weights_main_v31 (W : Valuation τ sig (Elt Ideal)) : StableHlo.after hostOps0_2 W (Proc.devRef .tc main_v31) = selfS (W (Proc.devRef .tc main_v13)) := by
  after_results
  all_goals rfl
theorem weights_main_v1 (W : Valuation τ sig (Elt Ideal)) : StableHlo.after hostOps0_2 W (Proc.devRef .tc main_v1) = W (Proc.devRef .tc main_v1) := by
  after_results
  all_goals rfl
theorem weights_main_v3 (W : Valuation τ sig (Elt Ideal)) : StableHlo.after hostOps0_2 W (Proc.devRef .tc main_v3) = W (Proc.devRef .tc main_v3) := by
  after_results
  all_goals rfl

theorem W3_main_v1 (c : Dev nD) : W3 m ρ c (Proc.devRef .tc main_v1) = src (m ((c : Thread nD τ).loc main_arg1)) :=
  (weights_main_v1 (W2 m ρ c)).trans (W2_main_v1 m ρ c)
theorem W3_main_v3 (c : Dev nD) : W3 m ρ c (Proc.devRef .tc main_v3) = dst (m ((c : Thread nD τ).loc main_arg1)) :=
  (weights_main_v3 (W2 m ρ c)).trans (W2_main_v3 m ρ c)
theorem W3_main_v29 (c : Dev nD) : W3 m ρ c (Proc.devRef .tc main_v29) = normE (Cert.Value.dinv (m ((c : Thread nD τ).loc main_arg1))) (src (m ((c : Thread nD τ).loc main_arg1))) (dst (m ((c : Thread nD τ).loc main_arg1))) := by
  refine (weights_main_v29 (W2 m ρ c)).trans ?_
  rw [W2_main_v13, W2_main_v1, W2_main_v3]
theorem W3_main_v31 (c : Dev nD) : W3 m ρ c (Proc.devRef .tc main_v31) = selfS (Cert.Value.dinv (m ((c : Thread nD τ).loc main_arg1))) := by
  refine (weights_main_v31 (W2 m ρ c)).trans ?_
  rw [W2_main_v13]

theorem W3_main_arg0 (c : Dev nD) : W3 m ρ c (Proc.devRef .tc main_arg0) = m ((c : Thread nD τ).loc main_arg0) := by
  show StableHlo.after hostOps0_2 (W2 m ρ c) (Proc.devRef .tc main_arg0) = _
  after_results
  all_goals rfl

theorem W3_main_arg2 (c : Dev nD) : W3 m ρ c (Proc.devRef .tc main_arg2) = m ((c : Thread nD τ).loc main_arg2) := by
  show StableHlo.after hostOps0_2 (W2 m ρ c) (Proc.devRef .tc main_arg2) = _
  after_results
  all_goals rfl

theorem W3_main_arg3 (c : Dev nD) : W3 m ρ c (Proc.devRef .tc main_arg3) = m ((c : Thread nD τ).loc main_arg3) := by
  show StableHlo.after hostOps0_2 (W2 m ρ c) (Proc.devRef .tc main_arg3) = _
  after_results
  all_goals rfl

theorem W3_main_arg4 (c : Dev nD) : W3 m ρ c (Proc.devRef .tc main_arg4) = m ((c : Thread nD τ).loc main_arg4) := by
  show StableHlo.after hostOps0_2 (W2 m ρ c) (Proc.devRef .tc main_arg4) = _
  after_results
  all_goals rfl

theorem W3_main_arg5 (c : Dev nD) : W3 m ρ c (Proc.devRef .tc main_arg5) = m ((c : Thread nD τ).loc main_arg5) := by
  show StableHlo.after hostOps0_2 (W2 m ρ c) (Proc.devRef .tc main_arg5) = _
  after_results
  all_goals rfl

/-! ## Region 0's exit -/

theorem W4_main_v32 (c : Dev nD) : W4 m ρ c (Proc.devRef .tc main_v32) = matProd (m ((c : Thread nD τ).loc main_arg0)) (m ((c : Thread nD τ).loc main_arg2)) := by
  refine (W4_arr m ρ c 2).trans ((Region0.final (V3 m ρ) c).trans ?_)
  have e0 : V3 m ρ c main_arg0 = m ((c : Thread nD τ).loc main_arg0) := W3_main_arg0 m ρ c
  have e2 : V3 m ρ c main_arg2 = m ((c : Thread nD τ).loc main_arg2) := W3_main_arg2 m ρ c
  rw [e0, e2]
theorem W4_main_v1 (c : Dev nD) : W4 m ρ c (Proc.devRef .tc main_v1) = src (m ((c : Thread nD τ).loc main_arg1)) :=
  (W4_of_ne m ρ c main_v1 (by decide)).trans (W3_main_v1 m ρ c)
theorem W4_main_v3 (c : Dev nD) : W4 m ρ c (Proc.devRef .tc main_v3) = dst (m ((c : Thread nD τ).loc main_arg1)) :=
  (W4_of_ne m ρ c main_v3 (by decide)).trans (W3_main_v3 m ρ c)
theorem W4_main_v29 (c : Dev nD) : W4 m ρ c (Proc.devRef .tc main_v29) = normE (Cert.Value.dinv (m ((c : Thread nD τ).loc main_arg1))) (src (m ((c : Thread nD τ).loc main_arg1))) (dst (m ((c : Thread nD τ).loc main_arg1))) :=
  (W4_of_ne m ρ c main_v29 (by decide)).trans (W3_main_v29 m ρ c)
theorem W4_main_v31 (c : Dev nD) : W4 m ρ c (Proc.devRef .tc main_v31) = selfS (Cert.Value.dinv (m ((c : Thread nD τ).loc main_arg1))) :=
  (W4_of_ne m ρ c main_v31 (by decide)).trans (W3_main_v31 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)

/-! ## Region 1's entry: the first aggregation and the first bias as one row -/

set_option maxHeartbeats 4000000 in
theorem W5_main_v47 (c : Dev nD) : W5 m ρ c (Proc.devRef .tc main_v47) = Cert.Value.out1 (m ((c : Thread nD τ).loc main_arg0)) (m ((c : Thread nD τ).loc main_arg1)) (m ((c : Thread nD τ).loc main_arg2)) := by
  show StableHlo.after hostOps1 (W4 m ρ c) (Proc.devRef .tc main_v47) = _
  after_results
  rw [W4_main_v32, W4_main_v1, W4_main_v3, W4_main_v29, W4_main_v31]
  rfl

theorem W5_main_v48 (c : Dev nD) : W5 m ρ c (Proc.devRef .tc main_v48) = shapeCast S1x16 (m ((c : Thread nD τ).loc main_arg3)) shapeCasts_S16_S1x16 := by
  show StableHlo.after hostOps1 (W4 m ρ c) (Proc.devRef .tc main_v48) = _
  after_results
  rw [W4_main_arg3]
  rfl
theorem W5_main_v1 (c : Dev nD) : W5 m ρ c (Proc.devRef .tc main_v1) = src (m ((c : Thread nD τ).loc main_arg1)) := by
  show StableHlo.after hostOps1 (W4 m ρ c) (Proc.devRef .tc main_v1) = _
  after_results
  exact W4_main_v1 m ρ c
theorem W5_main_v3 (c : Dev nD) : W5 m ρ c (Proc.devRef .tc main_v3) = dst (m ((c : Thread nD τ).loc main_arg1)) := by
  show StableHlo.after hostOps1 (W4 m ρ c) (Proc.devRef .tc main_v3) = _
  after_results
  exact W4_main_v3 m ρ c
theorem W5_main_v29 (c : Dev nD) : W5 m ρ c (Proc.devRef .tc main_v29) = normE (Cert.Value.dinv (m ((c : Thread nD τ).loc main_arg1))) (src (m ((c : Thread nD τ).loc main_arg1))) (dst (m ((c : Thread nD τ).loc main_arg1))) := by
  show StableHlo.after hostOps1 (W4 m ρ c) (Proc.devRef .tc main_v29) = _
  after_results
  exact W4_main_v29 m ρ c
theorem W5_main_v31 (c : Dev nD) : W5 m ρ c (Proc.devRef .tc main_v31) = selfS (Cert.Value.dinv (m ((c : Thread nD τ).loc main_arg1))) := by
  show StableHlo.after hostOps1 (W4 m ρ c) (Proc.devRef .tc main_v31) = _
  after_results
  exact W4_main_v31 m ρ c
theorem W5_main_arg4 (c : Dev nD) : W5 m ρ c (Proc.devRef .tc main_arg4) = m ((c : Thread nD τ).loc main_arg4) := by
  show StableHlo.after hostOps1 (W4 m ρ c) (Proc.devRef .tc main_arg4) = _
  after_results
  exact W4_main_arg4 m ρ c
theorem W5_main_arg5 (c : Dev nD) : W5 m ρ c (Proc.devRef .tc main_arg5) = m ((c : Thread nD τ).loc main_arg5) := by
  show StableHlo.after hostOps1 (W4 m ρ c) (Proc.devRef .tc main_arg5) = _
  after_results
  exact W4_main_arg5 m ρ c

/-! ## Region 1's exit -/

theorem W6_main_v49 (c : Dev nD) : W6 m ρ c (Proc.devRef .tc main_v49)
    = Cert.Value.h2 (m ((c : Thread nD τ).loc main_arg0)) (m ((c : Thread nD τ).loc main_arg1)) (m ((c : Thread nD τ).loc main_arg2)) (m ((c : Thread nD τ).loc main_arg3)) (m ((c : Thread nD τ).loc main_arg4)) := by
  have hb : ∀ k : Fin 16, V5 m ρ c main_v48 (ix2 (0 : Fin 1) k) = (m ((c : Thread nD τ).loc main_arg3)) (ix1 k) := by
    intro k
    have e : V5 m ρ c main_v48 = shapeCast S1x16 (m ((c : Thread nD τ).loc main_arg3)) shapeCasts_S16_S1x16 := W5_main_v48 m ρ c
    rw [e]
    exact shapeCast_a_1a_apply _ _ (0 : Fin 1) k
  refine (W6_arr m ρ c 3).trans ((Region1.final (V5 m ρ) c _ hb).trans ?_)
  have e47 : V5 m ρ c main_v47 = Cert.Value.out1 (m ((c : Thread nD τ).loc main_arg0)) (m ((c : Thread nD τ).loc main_arg1)) (m ((c : Thread nD τ).loc main_arg2)) := W5_main_v47 m ρ c
  have e4 : V5 m ρ c main_arg4 = m ((c : Thread nD τ).loc main_arg4) := W5_main_arg4 m ρ c
  rw [e47, e4]
  rfl
theorem W6_main_v1 (c : Dev nD) : W6 m ρ c (Proc.devRef .tc main_v1) = src (m ((c : Thread nD τ).loc main_arg1)) :=
  (W6_of_ne m ρ c main_v1 (by decide)).trans (W5_main_v1 m ρ c)
theorem W6_main_v3 (c : Dev nD) : W6 m ρ c (Proc.devRef .tc main_v3) = dst (m ((c : Thread nD τ).loc main_arg1)) :=
  (W6_of_ne m ρ c main_v3 (by decide)).trans (W5_main_v3 m ρ c)
theorem W6_main_v29 (c : Dev nD) : W6 m ρ c (Proc.devRef .tc main_v29) = normE (Cert.Value.dinv (m ((c : Thread nD τ).loc main_arg1))) (src (m ((c : Thread nD τ).loc main_arg1))) (dst (m ((c : Thread nD τ).loc main_arg1))) :=
  (W6_of_ne m ρ c main_v29 (by decide)).trans (W5_main_v29 m ρ c)
theorem W6_main_v31 (c : Dev nD) : W6 m ρ c (Proc.devRef .tc main_v31) = selfS (Cert.Value.dinv (m ((c : Thread nD τ).loc main_arg1))) :=
  (W6_of_ne m ρ c main_v31 (by decide)).trans (W5_main_v31 m ρ c)
theorem W6_main_arg5 (c : Dev nD) : W6 m ρ c (Proc.devRef .tc main_arg5) = m ((c : Thread nD τ).loc main_arg5) :=
  (W6_of_ne m ρ c main_arg5 (by decide)).trans (W5_main_arg5 m ρ c)

/-! ## Region 2's entry: the second aggregation and the second bias as one row -/

set_option maxHeartbeats 4000000 in
theorem W7_main_v64 (c : Dev nD) : W7 m ρ c (Proc.devRef .tc main_v64)
    = Cert.Value.out2 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v64) = _
  after_results
  rw [W6_main_v49, W6_main_v1, W6_main_v3, W6_main_v29, W6_main_v31]
  rfl

theorem W7_main_v65 (c : Dev nD) : W7 m ρ c (Proc.devRef .tc main_v65) = shapeCast S1x64 (m ((c : Thread nD τ).loc main_arg5)) shapeCasts_S64_S1x64 := by
  show StableHlo.after hostOps2 (W6 m ρ c) (Proc.devRef .tc main_v65) = _
  after_results
  rw [W6_main_arg5]
  rfl

/-! ## The result -/

/-- The last boundary's contents at the result buffer: the value function of the six arguments. -/
theorem W8_main_v66 (c : Dev nD) : W8 m ρ c (Proc.devRef .tc main_v66)
    = Cert.Value.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hb : ∀ k : Fin 64, V7 m ρ c main_v65 (ix2 (0 : Fin 1) k) = (m ((c : Thread nD τ).loc main_arg5)) (ix1 k) := by
    intro k
    have e : V7 m ρ c main_v65 = shapeCast S1x64 (m ((c : Thread nD τ).loc main_arg5)) shapeCasts_S64_S1x64 := W7_main_v65 m ρ c
    rw [e]
    exact shapeCast_a_1a_apply _ _ (0 : Fin 1) k
  refine (W8_arr m ρ c 2).trans ((Region2.final (V7 m ρ) c _ hb).trans ?_)
  have e64 : V7 m ρ c main_v64 = Cert.Value.out2 (m ((c : Thread nD τ).loc main_arg0)) (m ((c : Thread nD τ).loc main_arg1)) (m ((c : Thread nD τ).loc main_arg2)) (m ((c : Thread nD τ).loc main_arg3)) (m ((c : Thread nD τ).loc main_arg4)) := W7_main_v64 m ρ c
  rw [e64]
  rfl

end Cert.KernelIdeal.Bounds

end
-- ==== Proof.LibScatterAddReindex.lean ====
/-
  The accumulating scatter on the extended reals, read at an index and carried across a re-indexing of the updates.

  At the ideal instance the host's scatter with an `add` body gives, at operand index `i`, the operand's element plus
  the sum of the update elements whose result index is `i` (start index plus window coordinate on every axis, when that
  is inside the operand). Two such scatters over ONE index array, with different layouts of operand and updates (for
  instance one the transpose of the other), agree at a pair of operand indices `i`, `i'` as soon as the operands agree
  there and a bijection of the update indices carries the updates landing on `i` onto the updates landing on `i'`, with
  equal update elements: the two sums are one sum, re-indexed.
-/
import Idealize.ShloMosaic.PureOps.Ideal
import Idealize.ShloMosaic.PureOps.Contract

namespace Cert.Lib

open Idealize.ShloMosaic

variable {w : Nat} {s si u : Shape}

/-- An update index lands at `i` exactly when its start plus window coordinate is, on every operand axis, the
    coordinate of `i`. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have hv : (d.start j idx a + (d.window j a : Int)).toNat = (i a).val := congrArg Fin.val e'
      rw [← hv]; exact (Int.toNat_of_nonneg (h a).1).symm
    · intro e
      congr 1
      funext a
      apply Fin.ext
      show (d.start j idx a + (d.window j a : Int)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- The host's accumulating scatter at the ideal instance is the exact sum. -/
theorem hostScatterAdd_ideal {φ : FTy} (d : ScatterDims s si u) (x : FVec Ideal s φ) (idx : IVec si w) (upd : FVec Ideal u φ) :
    Host.scatterAdd (F := Ideal) d x idx upd = Ideal.hostScatterAdd d x idx upd := rfl

/-- TWO LAYOUTS OF ONE ACCUMULATION. Operands that agree at `i` / `i'`, and a bijection `e` of the update indices under
    which landing on `i` is landing on `i'` and the update elements correspond: the two scatters agree at `i` / `i'`. -/
theorem hostScatterAdd_reindex {s' u' : Shape} (d : ScatterDims s si u) (d' : ScatterDims s' si u')
    (x : s.Idx → EReal) (x' : s'.Idx → EReal) (idx : IVec si w) (upd : u.Idx → EReal) (upd' : u'.Idx → EReal)
    (e : u.Idx ≃ u'.Idx) (i : s.Idx) (i' : s'.Idx)
    (hx : x i = x' i') (hupd : ∀ j, upd j = upd' (e j))
    (hres : ∀ j, d.resultIdx? j idx = some i ↔ d'.resultIdx? (e j) idx = some i') :
    Ideal.hostScatterAdd d x idx upd i = Ideal.hostScatterAdd d' x' idx upd' i' := by
  unfold Ideal.hostScatterAdd
  rw [hx]
  congr 1
  exact Finset.sum_equiv e
    (fun j => by simp only [Finset.mem_filter, Finset.mem_univ, true_and]; exact hres j) (fun j _ => hupd j)

end Cert.Lib
-- ==== Proof.LibScatterRowsCols.lean ====
/-
  Where an update lands, for the two layouts of a scatter along one axis of a matrix.

  ROWS: operand [N, C], M scalar indices given as an [M, 1] array, updates [M, C]: update (r, c) lands at (idx r, c).
  COLUMNS: operand [C, N], the same indices, updates [C, M]: update (c, r) lands at (c, idx r).
  In both the index word is read signed and is not clamped: an update whose index is negative or at least N is dropped.
  So the accumulating scatter by rows, read at (p, c), and by columns, read at (c, p), of updates that are transposes
  of each other onto operands that agree there, are the same number on the extended reals.
-/
import Idealize.ShloMosaic.Lib.ValueIdx
import proofs.«125250_j10754598109885_2_alg».proof.Proof.LibScatterAddReindex

namespace Cert.Lib

open Idealize.ShloMosaic Idealize.ShloMosaic.ValueIdx

variable {N M C w : Nat}

/-- The dimension numbers of a scatter of whole rows: the update's axis 1 is the window, the operand's axis 0 is
    inserted and is the one the index names, the index vector lies along axis 1 of the index array. -/
structure IsRowScatter (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- The dimension numbers of a scatter of whole columns: the update's axis 0 is the window, the operand's axis 1 is
    inserted and is the one the index names. -/
structure IsColScatter (d : ScatterDims ⟨2, ![C, N]⟩ ⟨2, ![M, 1]⟩ ⟨2, ![C, M]⟩) : Prop where
  uw : d.updateWindowDims = [0]
  iw : d.insertedWindowDims = [1]
  sd : d.scatterDimsToOperandDims = [1]
  iv : d.indexVectorDim = 1

private theorem mem00 : (0 : Fin 2) ∈ ([0] : List (Fin 2)) := by decide
private theorem mem10 : (1 : Fin 2) ∉ ([0] : List (Fin 2)) := by decide
private theorem mem11 : (1 : Fin 2) ∈ ([1] : List (Fin 2)) := by decide
private theorem mem01 : (0 : Fin 2) ∉ ([1] : List (Fin 2)) := by decide
private theorem kept0_1 : (1 : Fin 2) ∈ (List.finRange 2).filter (· ∉ ([0] : List (Fin 2))) := by decide
private theorem kept0_0 : (0 : Fin 2) ∉ (List.finRange 2).filter (· ∉ ([0] : List (Fin 2))) := by decide
private theorem kept1_0 : (0 : Fin 2) ∈ (List.finRange 2).filter (· ∉ ([1] : List (Fin 2))) := by decide
private theorem kept1_1 : (1 : Fin 2) ∉ (List.finRange 2).filter (· ∉ ([1] : List (Fin 2))) := by decide

/-- On the axis the index names, the window starts at the index word of the update's row, read signed. -/
theorem row_start_scat (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem00 ha

/-- On the other axis it starts at zero. -/
theorem row_start_win (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 1 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem10
  · rfl

/-- The window has no extent along the axis the index names. -/
theorem row_window_scat (d : ScatterDims ⟨2, ![N, C]⟩ ⟨2, ![M, 1]⟩ ⟨2, ![M, C]⟩) (hd : IsRowScatter d)
    (j : (⟨2, ![M, C]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept0_0
  · rfl

/-- Along the other axis the window coordinate is the update's. -/
theorem row_window_win (d : ScatterDims ⟨2, ![N, C]⟩ ⟨2, ![M, 1]⟩ ⟨2, ![M, C]⟩) (hd : IsRowScatter d)
    (j : (⟨2, ![M, C]⟩ : Shape).Idx) : d.window j 1 = (j 1).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept0_1 ha

/-- Update (r, c) of a row scatter lands at (idx r, c). -/
theorem row_resultIdx? (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) (i : (⟨2, ![N, C]⟩ : Shape).Idx) :
    d.resultIdx? j idx = some i ↔
      (idx (ix2 (j 0) (0 : Fin 1))).toInt = ((i 0).val : Int) ∧ (j 1).val = (i 1).val := by
  rw [resultIdx?_eq_some_iff]
  constructor
  · intro H
    have Ha := H 0
    have Hb := H 1
    rw [row_start_scat d hd, row_window_scat d hd] at Ha
    rw [row_start_win d hd, row_window_win d hd] at Hb
    exact ⟨by simpa using Ha, by exact_mod_cast (by simpa using Hb : ((j 1).val : Int) = ((i 1).val : Int))⟩
  · rintro ⟨Ha, Hb⟩ x
    have ea : d.start j idx 0 + (d.window j 0 : Int) = ((i 0).val : Int) := by
      rw [row_start_scat d hd, row_window_scat d hd, Ha]; simp
    have eb : d.start j idx 1 + (d.window j 1 : Int) = ((i 1).val : Int) := by
      rw [row_start_win d hd, row_window_win d hd, Hb]; simp
    match x with
    | ⟨0, _⟩ => exact ea
    | ⟨1, _⟩ => exact eb

/-- On the axis the index names, the window starts at the index word of the update's column, read signed. -/
theorem col_start_scat (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 1 = (idx (ix2 (j 1) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem11 ha

/-- On the other axis it starts at zero. -/
theorem col_start_win (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 0 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem01
  · rfl

/-- The window has no extent along the axis the index names. -/
theorem col_window_scat (d : ScatterDims ⟨2, ![C, N]⟩ ⟨2, ![M, 1]⟩ ⟨2, ![C, M]⟩) (hd : IsColScatter d)
    (j : (⟨2, ![C, M]⟩ : Shape).Idx) : d.window j 1 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept1_1
  · rfl

/-- Along the other axis the window coordinate is the update's. -/
theorem col_window_win (d : ScatterDims ⟨2, ![C, N]⟩ ⟨2, ![M, 1]⟩ ⟨2, ![C, M]⟩) (hd : IsColScatter d)
    (j : (⟨2, ![C, M]⟩ : Shape).Idx) : d.window j 0 = (j 0).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept1_0 ha

/-- Update (c, r) of a column scatter lands at (c, idx r). -/
theorem col_resultIdx? (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) (i : (⟨2, ![C, N]⟩ : Shape).Idx) :
    d.resultIdx? j idx = some i ↔
      (idx (ix2 (j 1) (0 : Fin 1))).toInt = ((i 1).val : Int) ∧ (j 0).val = (i 0).val := by
  rw [resultIdx?_eq_some_iff]
  constructor
  · intro H
    have Ha := H 1
    have Hb := H 0
    rw [col_start_scat d hd, col_window_scat d hd] at Ha
    rw [col_start_win d hd, col_window_win d hd] at Hb
    exact ⟨by simpa using Ha, by exact_mod_cast (by simpa using Hb : ((j 0).val : Int) = ((i 0).val : Int))⟩
  · rintro ⟨Ha, Hb⟩ x
    have ea : d.start j idx 1 + (d.window j 1 : Int) = ((i 1).val : Int) := by
      rw [col_start_scat d hd, col_window_scat d hd, Ha]; simp
    have eb : d.start j idx 0 + (d.window j 0 : Int) = ((i 0).val : Int) := by
      rw [col_start_win d hd, col_window_win d hd, Hb]; simp
    match x with
    | ⟨1, _⟩ => exact ea
    | ⟨0, _⟩ => exact eb

/-- The transposition of update indices, [A, B] ↔ [B, A]. -/
def swapIdx (A B : Nat) : (⟨2, ![A, B]⟩ : Shape).Idx ≃ (⟨2, ![B, A]⟩ : Shape).Idx where
  toFun j := ix2 (j 1) (j 0)
  invFun j := ix2 (j 1) (j 0)
  left_inv j := (eq_ix2 j).symm
  right_inv j := (eq_ix2 j).symm

/-- ROWS AGAINST COLUMNS: the accumulating scatter of the rows `upd` read at (p, c) is the accumulating scatter of the
    columns `upd'` read at (c, p), the updates transposes of each other and the operands equal there. -/
theorem scatterAdd_rows_eq_cols (d : ScatterDims ⟨2, ![N, C]⟩ ⟨2, ![M, 1]⟩ ⟨2, ![M, C]⟩) (hd : IsRowScatter d)
    (d' : ScatterDims ⟨2, ![C, N]⟩ ⟨2, ![M, 1]⟩ ⟨2, ![C, M]⟩) (hd' : IsColScatter d')
    (x : (⟨2, ![N, C]⟩ : Shape).Idx → EReal) (x' : (⟨2, ![C, N]⟩ : Shape).Idx → EReal) (idx : IVec ⟨2, ![M, 1]⟩ w)
    (upd : (⟨2, ![M, C]⟩ : Shape).Idx → EReal) (upd' : (⟨2, ![C, M]⟩ : Shape).Idx → EReal)
    (p : Fin N) (c : Fin C) (hx : x (ix2 p c) = x' (ix2 c p))
    (hupd : ∀ (r : Fin M) (c : Fin C), upd (ix2 r c) = upd' (ix2 c r)) :
    Ideal.hostScatterAdd d x idx upd (ix2 p c) = Ideal.hostScatterAdd d' x' idx upd' (ix2 c p) := by
  refine hostScatterAdd_reindex d d' x x' idx upd upd' (swapIdx M C) (ix2 p c) (ix2 c p) hx ?_ ?_
  · intro j
    rw [eq_ix2 j]
    exact hupd (j 0) (j 1)
  · intro j
    rw [row_resultIdx? d hd, col_resultIdx? d' hd']
    exact Iff.rfl

end Cert.Lib
-- ==== Proof.LibScatterVec.lean ====
/-
  Where an update lands, for a scatter of scalars into a vector.

  Operand [N], M scalar indices given as an [M, 1] array, updates [M]: update r lands at idx r. The index word is read
  signed and is not clamped: an update whose index is negative or at least N is dropped.
-/
import Idealize.ShloMosaic.Lib.ValueIdx
import proofs.«125250_j10754598109885_2_alg».proof.Proof.LibScatterAddReindex

namespace Cert.Lib

open Idealize.ShloMosaic Idealize.ShloMosaic.ValueIdx

variable {N M w : Nat}

/-- The dimension numbers of a scatter of scalars into a vector: no window axis in the updates, the operand's one axis
    inserted and named by the index, the index vector along axis 1 of the index array. -/
structure IsVecScatter (d : ScatterDims ⟨1, ![N]⟩ ⟨2, ![M, 1]⟩ ⟨1, ![M]⟩) : Prop where
  uw : d.updateWindowDims = []
  iw : d.insertedWindowDims = [0]
  sd : d.scatterDimsToOperandDims = [0]
  iv : d.indexVectorDim = 1

private theorem vmem00 : (0 : Fin 1) ∈ ([0] : List (Fin 1)) := by decide
private theorem vkept0 : (0 : Fin 1) ∉ (List.finRange 1).filter (· ∉ ([0] : List (Fin 1))) := by decide

/-- The window starts at the index word of the update, read signed. -/
theorem vec_start (d : ScatterDims ⟨1, ![N]⟩ ⟨2, ![M, 1]⟩ ⟨1, ![M]⟩) (hd : IsVecScatter d)
    (j : (⟨1, ![M]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd vmem00 ha

/-- The window has no extent. -/
theorem vec_window (d : ScatterDims ⟨1, ![N]⟩ ⟨2, ![M, 1]⟩ ⟨1, ![M]⟩) (hd : IsVecScatter d)
    (j : (⟨1, ![M]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha vkept0
  · rfl

/-- Update r of a scatter of scalars lands at idx r. -/
theorem vec_resultIdx? (d : ScatterDims ⟨1, ![N]⟩ ⟨2, ![M, 1]⟩ ⟨1, ![M]⟩) (hd : IsVecScatter d)
    (j : (⟨1, ![M]⟩ : Shape).Idx) (idx : IVec ⟨2, ![M, 1]⟩ w) (i : (⟨1, ![N]⟩ : Shape).Idx) :
    d.resultIdx? j idx = some i ↔ (idx (ix2 (j 0) (0 : Fin 1))).toInt = ((i 0).val : Int) := by
  rw [resultIdx?_eq_some_iff]
  constructor
  · intro H
    have Ha := H 0
    rw [vec_start d hd, vec_window d hd] at Ha
    simpa using Ha
  · intro Ha x
    have ea : d.start j idx 0 + (d.window j 0 : Int) = ((i 0).val : Int) := by
      rw [vec_start d hd, vec_window d hd, Ha]; simp
    match x with
    | ⟨0, _⟩ => exact ea

end Cert.Lib
-- ==== Proof.LibScatterSum.lean ====
/-
  The accumulating scatter of whole rows, and of scalars into a vector, read at an entry as a sum over the update rows.

  For an index array with one index per update row, the entry (p, q) of a row scatter-add is the operand's entry plus
  the sum, over the update rows whose index word read signed is p, of the update's entry in column q; the entry p of a
  scatter-add of scalars is the operand's entry plus the sum of the updates whose index word is p. Rows whose index is
  negative or past the operand's last row match no p and contribute nothing.
-/
import proofs.«125250_j10754598109885_2_alg».proof.Proof.LibScatterRowsCols
import proofs.«125250_j10754598109885_2_alg».proof.Proof.LibScatterVec

namespace Cert.Lib

open Idealize.ShloMosaic Idealize.ShloMosaic.ValueIdx Finset

variable {N M C w : Nat}

/-- The row and the column of an entry of an [M, C] array, as numbers below M and C. -/
def rowOf (j : (⟨2, ![M, C]⟩ : Shape).Idx) : Fin M := j 0
def colOf (j : (⟨2, ![M, C]⟩ : Shape).Idx) : Fin C := j 1
/-- The position of an entry of an [M] array, as a number below M. -/
def posOf (j : (⟨1, ![M]⟩ : Shape).Idx) : Fin M := j 0

/-- A sum over the entries of an [M, C] array that lie in column q and whose row satisfies P is the sum over those rows. -/
theorem sum_rows_filter {A : Type*} [AddCommMonoid A] (P : Fin M → Prop) [DecidablePred P] (q : Fin C)
    (f : (⟨2, ![M, C]⟩ : Shape).Idx → A) :
    ∑ j ∈ univ.filter (fun j : (⟨2, ![M, C]⟩ : Shape).Idx => P (rowOf j) ∧ (colOf j).val = q.val), f j
      = ∑ r ∈ univ.filter P, f (ix2 r q) := by
  symm
  refine Finset.sum_bij' (fun r _ => ix2 r q) (fun j _ => rowOf j) ?_ ?_ ?_ ?_ ?_
  · intro r hr
    simp only [mem_filter, mem_univ, true_and] at hr ⊢
    exact ⟨hr, rfl⟩
  · intro j hj
    simp only [mem_filter, mem_univ, true_and] at hj ⊢
    exact hj.1
  · intro r _; rfl
  · intro j hj
    simp only [mem_filter, mem_univ, true_and] at hj
    have e : colOf j = q := Fin.ext hj.2
    rw [← e]
    exact (eq_ix2 j).symm
  · intro r _; rfl

/-- A sum over the entries of an [M] array whose position satisfies P is the sum over those positions. -/
theorem sum_entries_filter {A : Type*} [AddCommMonoid A] (P : Fin M → Prop) [DecidablePred P]
    (f : (⟨1, ![M]⟩ : Shape).Idx → A) :
    ∑ j ∈ univ.filter (fun j : (⟨1, ![M]⟩ : Shape).Idx => P (posOf j)), f j = ∑ r ∈ univ.filter P, f (ix1 r) := by
  symm
  refine Finset.sum_bij' (fun r _ => ix1 r) (fun j _ => posOf j) ?_ ?_ ?_ ?_ ?_
  · intro r hr
    simp only [mem_filter, mem_univ, true_and] at hr ⊢
    exact hr
  · intro j hj
    simp only [mem_filter, mem_univ, true_and] at hj ⊢
    exact hj
  · intro r _; rfl
  · intro j _; exact (eq_ix1 j).symm
  · intro r _; rfl

/-- A row scatter-add at the ideal instance, read at (p, q). -/
theorem rowScatterAdd_apply {φ : FTy} (d : ScatterDims ⟨2, ![N, C]⟩ ⟨2, ![M, 1]⟩ ⟨2, ![M, C]⟩) (hd : IsRowScatter d)
    (x : FVec Ideal ⟨2, ![N, C]⟩ φ) (idx : IVec ⟨2, ![M, 1]⟩ w) (upd : FVec Ideal ⟨2, ![M, C]⟩ φ) (p : Fin N) (q : Fin C) :
    Host.scatterAdd (F := Ideal) d x idx upd (ix2 p q)
      = x (ix2 p q) + ∑ r ∈ univ.filter (fun r : Fin M => (idx (ix2 r (0 : Fin 1))).toInt = (p.val : Int)), upd (ix2 r q) := by
  rw [hostScatterAdd_ideal]
  unfold Ideal.hostScatterAdd
  congr 1
  rw [← sum_rows_filter (fun r : Fin M => (idx (ix2 r (0 : Fin 1))).toInt = (p.val : Int)) q upd]
  refine Finset.sum_congr ?_ (fun _ _ => rfl)
  ext j
  simp only [mem_filter, mem_univ, true_and]
  exact row_resultIdx? d hd j idx (ix2 p q)

/-- A scatter-add of scalars into a vector at the ideal instance, read at p. -/
theorem vecScatterAdd_apply {φ : FTy} (d : ScatterDims ⟨1, ![N]⟩ ⟨2, ![M, 1]⟩ ⟨1, ![M]⟩) (hd : IsVecScatter d)
    (x : FVec Ideal ⟨1, ![N]⟩ φ) (idx : IVec ⟨2, ![M, 1]⟩ w) (upd : FVec Ideal ⟨1, ![M]⟩ φ) (p : Fin N) :
    Host.scatterAdd (F := Ideal) d x idx upd (ix1 p)
      = x (ix1 p) + ∑ r ∈ univ.filter (fun r : Fin M => (idx (ix2 r (0 : Fin 1))).toInt = (p.val : Int)), upd (ix1 r) := by
  rw [hostScatterAdd_ideal]
  unfold Ideal.hostScatterAdd
  congr 1
  rw [← sum_entries_filter (fun r : Fin M => (idx (ix2 r (0 : Fin 1))).toInt = (p.val : Int)) upd]
  refine Finset.sum_congr ?_ (fun _ _ => rfl)
  ext j
  simp only [mem_filter, mem_univ, true_and]
  exact vec_resultIdx? d hd j idx (ix1 p)

end Cert.Lib
-- ==== Proof.LibSumParts.lean ====
/-
  Sums over a range cut in two, with a filter.

  A sum over the positions below `E + N` that satisfy a predicate is the sum over the first `E` positions that satisfy
  it plus the sum over the last `N` that do. When, on the last `N`, the predicate singles out one position, that second
  sum is one term. This is how an accumulation over a list of edges followed by one loop per node is the accumulation
  over the edges plus the node's own term.
-/
import Mathlib.Algebra.BigOperators.Fin

namespace Cert.SumParts

open Finset

variable {M : Type*} [AddCommMonoid M]

/-- Position `e` of the first part, among all `T = E + N` positions. -/
def inl (E N T : ℕ) (h : E + N = T) (e : Fin E) : Fin T := ⟨e.val, by omega⟩
/-- Position `k` of the second part, among all `T = E + N` positions. -/
def inr (E N T : ℕ) (h : E + N = T) (k : Fin N) : Fin T := ⟨E + k.val, by omega⟩

@[simp] theorem inl_val (E N T : ℕ) (h : E + N = T) (e : Fin E) : (inl E N T h e).val = e.val := rfl
@[simp] theorem inr_val (E N T : ℕ) (h : E + N = T) (k : Fin N) : (inr E N T h k).val = E + k.val := rfl

/-- A filtered sum over `E + N` positions is the filtered sum over the first part plus the one over the second. -/
theorem sum_filter_split (E N T : ℕ) (h : E + N = T) (p : Fin T → Prop) [DecidablePred p] (f : Fin T → M) :
    ∑ r ∈ univ.filter p, f r
      = ∑ e ∈ (univ : Finset (Fin E)).filter (fun e => p (inl E N T h e)), f (inl E N T h e)
        + ∑ k ∈ (univ : Finset (Fin N)).filter (fun k => p (inr E N T h k)), f (inr E N T h k) := by
  subst h
  simp only [Finset.sum_filter]
  rw [Fin.sum_univ_add]
  rfl

/-- A filtered sum whose filter holds at exactly one position is the term there. -/
theorem sum_filter_single {N : ℕ} (i0 : Fin N) (q : Fin N → Prop) [DecidablePred q] (g : Fin N → M)
    (hq : ∀ k, q k ↔ k = i0) : ∑ k ∈ univ.filter q, g k = g i0 := by
  have e : univ.filter q = {i0} := by
    ext k
    simp only [mem_filter, mem_univ, true_and, mem_singleton]
    exact hq k
  rw [e, Finset.sum_singleton]

/-- EDGES THEN LOOPS. Over `E + N` positions, when the first part's filter and terms are those of a family over `E`
    and the second part's filter singles out position `i0`: the filtered sum is the family's filtered sum plus the
    term at `i0` of the second part. -/
theorem sum_filter_edges_loop (E N T : ℕ) (h : E + N = T) (p : Fin T → Prop) [DecidablePred p] (f : Fin T → M)
    (pE : Fin E → Prop) [DecidablePred pE] (fE : Fin E → M) (i0 : Fin N) (g : M)
    (hpE : ∀ e, p (inl E N T h e) ↔ pE e) (hfE : ∀ e, f (inl E N T h e) = fE e)
    (hpN : ∀ k, p (inr E N T h k) ↔ k = i0) (hg : f (inr E N T h i0) = g) :
    ∑ r ∈ univ.filter p, f r = ∑ e ∈ univ.filter pE, fE e + g := by
  rw [sum_filter_split E N T h p f, sum_filter_single i0 _ _ hpN, hg]
  congr 1
  refine Finset.sum_congr ?_ (fun e _ => hfE e)
  ext e
  simp only [mem_filter, mem_univ, true_and]
  exact hpE e

end Cert.SumParts
-- ==== Proof.LibSelfLoops.lean ====
/-
  Self-loops folded out of an accumulating scatter.

  A graph aggregation that appends one loop per node to its edge list, and scatters over the `E + N` entries, equals
  the aggregation over the `E` edges plus the node's own term added afterwards. Stated for row scatters into an [N, C]
  array and for scalar scatters into an [N] vector, over ANY index and update arrays, under four pointwise facts: on
  the first `E` rows the long index and update arrays are the short ones; row `E + k` of the long index array is the
  number `k`; row `E + k` of the long updates is row `k` of the separate term. Only commutativity and associativity of
  the sum are used, so the arrays may hold any extended reals.
-/
import proofs.«125250_j10754598109885_2_alg».proof.Proof.LibScatterSum
import proofs.«125250_j10754598109885_2_alg».proof.Proof.LibSumParts

namespace Cert.Lib

open Idealize.ShloMosaic Idealize.ShloMosaic.ValueIdx Finset Cert.SumParts

variable {N E T C w : Nat}

/-- Rows: the scatter over edges and loops is the scatter over the edges plus the loop terms. -/
theorem rowScatterAdd_selfLoops {φ : FTy} (hT : E + N = T)
    (dR : ScatterDims ⟨2, ![N, C]⟩ ⟨2, ![T, 1]⟩ ⟨2, ![T, C]⟩) (hdR : IsRowScatter dR)
    (dK : ScatterDims ⟨2, ![N, C]⟩ ⟨2, ![E, 1]⟩ ⟨2, ![E, C]⟩) (hdK : IsRowScatter dK)
    (z : FVec Ideal ⟨2, ![N, C]⟩ φ) (idxR : IVec ⟨2, ![T, 1]⟩ w) (idxK : IVec ⟨2, ![E, 1]⟩ w)
    (updR : FVec Ideal ⟨2, ![T, C]⟩ φ) (updK : FVec Ideal ⟨2, ![E, C]⟩ φ) (self : FVec Ideal ⟨2, ![N, C]⟩ φ)
    (hidxE : ∀ e : Fin E, idxR (ix2 (inl E N T hT e) (0 : Fin 1)) = idxK (ix2 e (0 : Fin 1)))
    (hidxN : ∀ k : Fin N, (idxR (ix2 (inr E N T hT k) (0 : Fin 1))).toInt = (k.val : Int))
    (hupdE : ∀ (e : Fin E) (q : Fin C), updR (ix2 (inl E N T hT e) q) = updK (ix2 e q))
    (hupdN : ∀ (k : Fin N) (q : Fin C), updR (ix2 (inr E N T hT k) q) = self (ix2 k q)) :
    Host.scatterAdd (F := Ideal) dR z idxR updR = addf (Host.scatterAdd (F := Ideal) dK z idxK updK) self := by
  funext i
  obtain ⟨p, q, rfl⟩ : ∃ (p : Fin N) (q : Fin C), i = ix2 p q := ⟨i 0, i 1, eq_ix2 i⟩
  rw [addf_apply, rowScatterAdd_apply dR hdR, rowScatterAdd_apply dK hdK,
    sum_filter_edges_loop E N T hT
      (fun r : Fin T => (idxR (ix2 r (0 : Fin 1))).toInt = (p.val : Int)) (fun r => updR (ix2 r q))
      (fun e : Fin E => (idxK (ix2 e (0 : Fin 1))).toInt = (p.val : Int)) (fun e => updK (ix2 e q)) p (self (ix2 p q))
      (fun e => by rw [hidxE e]) (fun e => hupdE e q)
      (fun k => by
        rw [hidxN k]
        constructor
        · intro h; exact Fin.ext (by exact_mod_cast h)
        · intro h; rw [h])
      (hupdN p q),
    add_assoc]

/-- Scalars into a vector: the same law. -/
theorem vecScatterAdd_selfLoops {φ : FTy} (hT : E + N = T)
    (dR : ScatterDims ⟨1, ![N]⟩ ⟨2, ![T, 1]⟩ ⟨1, ![T]⟩) (hdR : IsVecScatter dR)
    (dK : ScatterDims ⟨1, ![N]⟩ ⟨2, ![E, 1]⟩ ⟨1, ![E]⟩) (hdK : IsVecScatter dK)
    (z : FVec Ideal ⟨1, ![N]⟩ φ) (idxR : IVec ⟨2, ![T, 1]⟩ w) (idxK : IVec ⟨2, ![E, 1]⟩ w)
    (updR : FVec Ideal ⟨1, ![T]⟩ φ) (updK : FVec Ideal ⟨1, ![E]⟩ φ) (self : FVec Ideal ⟨1, ![N]⟩ φ)
    (hidxE : ∀ e : Fin E, idxR (ix2 (inl E N T hT e) (0 : Fin 1)) = idxK (ix2 e (0 : Fin 1)))
    (hidxN : ∀ k : Fin N, (idxR (ix2 (inr E N T hT k) (0 : Fin 1))).toInt = (k.val : Int))
    (hupdE : ∀ e : Fin E, updR (ix1 (inl E N T hT e)) = updK (ix1 e))
    (hupdN : ∀ k : Fin N, updR (ix1 (inr E N T hT k)) = self (ix1 k)) :
    Host.scatterAdd (F := Ideal) dR z idxR updR = addf (Host.scatterAdd (F := Ideal) dK z idxK updK) self := by
  funext i
  obtain ⟨p, rfl⟩ : ∃ p : Fin N, i = ix1 p := ⟨i 0, eq_ix1 i⟩
  rw [addf_apply, vecScatterAdd_apply dR hdR, vecScatterAdd_apply dK hdK,
    sum_filter_edges_loop E N T hT
      (fun r : Fin T => (idxR (ix2 r (0 : Fin 1))).toInt = (p.val : Int)) (fun r => updR (ix1 r))
      (fun e : Fin E => (idxK (ix2 e (0 : Fin 1))).toInt = (p.val : Int)) (fun e => updK (ix1 e)) p (self (ix1 p))
      (fun e => by rw [hidxE e]) (fun e => hupdE e)
      (fun k => by
        rw [hidxN k]
        constructor
        · intro h; exact Fin.ext (by exact_mod_cast h)
        · intro h; rw [h])
      (hupdN p),
    add_assoc]

end Cert.Lib
-- ==== Proof.LibGatherRows.lean ====
/-
  A gather of whole rows of a matrix, and of entries of a vector, by one index per row of an [M, 1] index array,
  read at an index.

  ROWS: operand [N, C], indices [M, 1], result [M, C]: entry (e, j) is the operand at (clamp (idx e), j).
  ENTRIES: operand [N], the same indices, result [M]: entry e is the operand at clamp (idx e).
  In both the index word is read signed and clamped into [0, N − 1] (a negative word to 0), the same clamp for the
  two layouts: a row gathered from a matrix and an entry gathered from a vector by one index array come from one row.
-/
import Idealize.ShloMosaic.Lib.ValueIdx

namespace Cert.Lib

open Idealize.ShloMosaic Idealize.ShloMosaic.ValueIdx

variable {N M C w : Nat} {α : Type}

/-- The row the index word of entry `e` names, read signed and clamped into the operand. -/
def clampRow (N : Nat) (hN : 0 < N) (idx : IVec ⟨2, ![M, 1]⟩ w) (e : Fin M) : Fin N :=
  ⟨min (idx (ix2 e (0 : Fin 1))).toInt.toNat (N - 1), by omega⟩

/-- A word that is a row number, read signed, clamps to that row. -/
theorem clampRow_of_toInt (hN : 0 < N) (idx : IVec ⟨2, ![M, 1]⟩ w) (e : Fin M) (p : Fin N)
    (h : (idx (ix2 e (0 : Fin 1))).toInt = (p.val : Int)) : clampRow N hN idx e = p := by
  apply Fin.ext
  show min (idx (ix2 e (0 : Fin 1))).toInt.toNat (N - 1) = p.val
  rw [h, Int.toNat_natCast]
  have := p.isLt
  omega

/-- The clamped row depends only on the index words. -/
theorem clampRow_congr (hN : 0 < N) (idx idx' : IVec ⟨2, ![M, 1]⟩ w) (e : Fin M)
    (h : idx (ix2 e (0 : Fin 1)) = idx' (ix2 e (0 : Fin 1))) : clampRow N hN idx e = clampRow N hN idx' e := by
  apply Fin.ext
  show min (idx (ix2 e (0 : Fin 1))).toInt.toNat (N - 1) = min (idx' (ix2 e (0 : Fin 1))).toInt.toNat (N - 1)
  rw [h]

/-- The dimension numbers of a gather of whole rows, as a record over given sizes. -/
abbrev rowDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem rowDims_gather_apply (hN : 0 < N) (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowDims N M C wf) x idx (ix2 e j) = x (ix2 (clampRow N hN idx e) j) := by
  unfold Host.gather
  congr 1
  funext a
  refine Fin.ext ?_
  match a with
  | ⟨0, _⟩ =>
    show (rowDims N M C wf).start (ix2 e j) idx 0 + (rowDims N M C wf).batchCoord (ix2 e j) 0 + (rowDims N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 e j) ⟨List.idxOf (0 : Fin 2) (rowDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M C wf).start (ix2 e j) idx 1 + (rowDims N M C wf).batchCoord (ix2 e j) 1 + (rowDims N M C wf).offCoord (ix2 e j) 1 = j.val
    rw [GatherDims.batchCoord_eq_zero _ _ _ List.not_mem_nil]
    unfold GatherDims.start GatherDims.offCoord
    rw [dif_neg (show ¬ (1 : Fin 2) ∈ (rowDims N M C wf).startIndexMap from (by decide : ¬ (1 : Fin 2) ∈ ([0] : List (Fin 2)))),
      dif_pos (show (1 : Fin 2) ∈ (rowDims N M C wf).sKept from
        (by decide : (1 : Fin 2) ∈ (List.finRange 2).filter (· ∉ (([0] : List (Fin 2)) ++ []))))]
    simp only [Nat.zero_add, Nat.add_zero]
    rfl

theorem vecDims_gather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN idx e)) := by
  unfold Host.gather
  congr 1
  funext a
  refine Fin.ext ?_
  match a with
  | ⟨0, _⟩ =>
    show (vecDims N M wf).start (ix1 e) idx 0 + (vecDims N M wf).batchCoord (ix1 e) 0 + (vecDims N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N M wf).startIndexMap from List.mem_singleton.mpr rfl)]
    have hsi : (vecDims N M wf).siIdx (ix1 e) ⟨List.idxOf (0 : Fin 1) (vecDims N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of a gather of whole rows. -/
structure IsRowGather (d : GatherDims ⟨2, ![N, C]⟩ ⟨2, ![M, 1]⟩ ⟨2, ![M, C]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, C]

/-- The dimension numbers of a gather of entries of a vector. -/
structure IsVecGather (d : GatherDims ⟨1, ![N]⟩ ⟨2, ![M, 1]⟩ ⟨1, ![M]⟩) : Prop where
  od : d.offsetDims = []
  cs : d.collapsedSliceDims = [0]
  ob : d.operandBatchingDims = []
  sb : d.startIndicesBatchingDims = []
  sm : d.startIndexMap = [0]
  iv : d.indexVectorDim = 1
  ss : d.sliceSizes = ![1]

/-- A gather of rows read at (e, j): the operand at (the clamped row idx e, j). -/
theorem row_gather_apply (hN : 0 < N) (d : GatherDims ⟨2, ![N, C]⟩ ⟨2, ![M, 1]⟩ ⟨2, ![M, C]⟩) (hd : IsRowGather d)
    (x : (⟨2, ![N, C]⟩ : Shape).Idx → α) (idx : IVec ⟨2, ![M, 1]⟩ w) (e : Fin M) (j : Fin C) :
    Host.gather d x idx (ix2 e j) = x (ix2 (clampRow N hN idx e) j) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact rowDims_gather_apply hN wf x idx e j

/-- A gather of entries read at e: the operand at the clamped index idx e. -/
theorem vec_gather_apply (hN : 0 < N) (d : GatherDims ⟨1, ![N]⟩ ⟨2, ![M, 1]⟩ ⟨1, ![M]⟩) (hd : IsVecGather d)
    (x : (⟨1, ![N]⟩ : Shape).Idx → α) (idx : IVec ⟨2, ![M, 1]⟩ w) (e : Fin M) :
    Host.gather d x idx (ix1 e) = x (ix1 (clampRow N hN idx e)) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact vecDims_gather_apply hN wf x idx e

end Cert.Lib
-- ==== Proof.LibColInDim.lean ====
/-
  Two host broadcasts around a unit column, read at an entry: a vector stood up as one column
  (`broadcast_in_dim` with dims [0], [a] to [a, 1]) and one column stretched over b columns (dims [0, 1], [a, 1] to [a, b]).
-/
import Idealize.ShloMosaic.Lib.Pipeline.Value
import Idealize.ShloMosaic.Lib.ValueIdx

namespace Cert.LibColInDim

open Idealize.ShloMosaic Idealize.ShloMosaic.ValueIdx

variable {α : Type}

/-- An [a] array broadcast to [a, 1] along dims [0] reads, at (p, u), the operand at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] array broadcast to [a, b] along dims [0, 1] reads, at (p, q), the operand's one column at row p. -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColInDim
-- ==== Proof.AggLaw.lean ====
/-
  The reference's aggregation with self-loops appended is the kernel's aggregation plus the self term.

  The reference appends one loop (k, k) per node to the edge list and scatters over the 3200000 + 100000 entries; the
  kernel scatters over the 3200000 edges and adds each node's own row times its self weight afterwards. Entry E + k of
  the long lists is the number k: read signed it is k, it is not negative so it is not wrapped, and it lies in the node
  range so the clamp leaves it; hence the loop's gathered row is row k, its weight is the inverse root of node k squared,
  and it lands on node k only. On the first E entries the long lists are the edge lists. With these pointwise facts the
  two aggregations, and the two degree counts, are equal by the law for self-loops folded out of an accumulating scatter.
  The inverse-root vector and the feature matrix are arbitrary here.
-/
import proofs.«125250_j10754598109885_2_alg».proof.Proof.KStages
import proofs.«125250_j10754598109885_2_alg».proof.Proof.Gen.ReferenceIdeal
import proofs.«125250_j10754598109885_2_alg».proof.Proof.LibSelfLoops
import proofs.«125250_j10754598109885_2_alg».proof.Proof.LibGatherRows
import proofs.«125250_j10754598109885_2_alg».proof.Proof.LibColumnCast
import proofs.«125250_j10754598109885_2_alg».proof.Proof.LibColInDim
import Idealize.ShloMosaic.Lib.Pipeline.Value
import Idealize.ShloMosaic.Lib.ValueIdx

set_option maxRecDepth 16384

noncomputable section

/-! ## The reference's host-side stages, as functions of arrays -/

namespace Cert.ReferenceIdeal.Stages

open Cert.ReferenceIdeal Cert.ReferenceIdeal.Gen Idealize.ShloMosaic Idealize.ShloMosaic.TcCoe

/-- An endpoint vector with the node numbers 0 … 99999 appended: the loops' endpoints. -/
def cat (a : IVec S3200000 32) : IVec S3300000 32 :=
  concatenate S3300000 0 [⟨S3200000, a⟩, ⟨S100000, iotaInDim S100000 32 0⟩] concatenates_S3200000_S100000_S3300000_d0
/-- A vector of node numbers as a one-column index array. -/
def col (v : IVec S3300000 32) : IVec S3300000x1 32 :=
  broadcastInDim S3300000x1 ![0] bcast_S3300000_S3300000x1_0 v
/-- Node numbers with the negative ones wrapped once. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v
/-- The in-degree with loops: ones scattered over the destinations and the loops into zeros. -/
def deg (d : IVec S3200000 32) : FVec Ideal S100000 .f32 :=
  Host.scatterAdd scatter_S100000_S3300000x1_S3300000_n_0_0_1
    (broadcastInDim S100000 ![] bcast_S_S100000 (constant (F := Ideal) S_ .f32 0x00000000#32)) (col (cat d))
    (broadcastInDim S3300000 ![] bcast_S_S3300000 (constant (F := Ideal) S_ .f32 0x3F800000#32))
/-- The per-entry weight over edges and loops. -/
def norm (dinv : FVec Ideal S100000 .f32) (s d : IVec S3200000 32) : FVec Ideal S3300000 .f32 :=
  mulf (F := Ideal) (Host.gather gather_S100000_S3300000x1_S3300000_n_0_n_n_0_1_1 dinv (col (wrap (cat s))))
    (Host.gather gather_S100000_S3300000x1_S3300000_n_0_n_n_0_1_1 dinv (col (wrap (cat d))))
/-- The aggregation of a 16-column feature matrix over edges and loops. -/
def agg16 (h : FVec Ideal S100000x16 .f32) (s d : IVec S3200000 32) (n : FVec Ideal S3300000 .f32) : FVec Ideal S100000x16 .f32 :=
  Host.scatterAdd scatter_S100000x16_S3300000x1_S3300000x16_1_0_0_1
    (broadcastInDim S100000x16 ![] bcast_S_S100000x16 (constant (F := Ideal) S_ .f32 0x00000000#32)) (col (cat d))
    (mulf (F := Ideal) (Host.gather gather_S100000x16_S3300000x1_S3300000x16_1_0_n_n_0_1_116 h (col (wrap (cat s))))
      (broadcastInDim S3300000x16 ![0, 1] bcast_S3300000x1_S3300000x16_0_1 (broadcastInDim S3300000x1 ![0] bcast_S3300000_S3300000x1_0 n)))
/-- The aggregation of a 64-column feature matrix over edges and loops. -/
def agg64 (h : FVec Ideal S100000x64 .f32) (s d : IVec S3200000 32) (n : FVec Ideal S3300000 .f32) : FVec Ideal S100000x64 .f32 :=
  Host.scatterAdd scatter_S100000x64_S3300000x1_S3300000x64_1_0_0_1
    (broadcastInDim S100000x64 ![] bcast_S_S100000x64 (constant (F := Ideal) S_ .f32 0x00000000#32)) (col (cat d))
    (mulf (F := Ideal) (Host.gather gather_S100000x64_S3300000x1_S3300000x64_1_0_n_n_0_1_164 h (col (wrap (cat s))))
      (broadcastInDim S3300000x64 ![0, 1] bcast_S3300000x1_S3300000x64_0_1 (broadcastInDim S3300000x1 ![0] bcast_S3300000_S3300000x1_0 n)))

end Cert.ReferenceIdeal.Stages

namespace Cert.AggLaw

open Idealize.ShloMosaic Idealize.ShloMosaic.ValueIdx Cert.Lib Cert.SumParts

/-- Edge e among the 3300000 entries, and loop k among them. -/
abbrev eIn (e : Fin 3200000) : Fin 3300000 := inl 3200000 100000 3300000 rfl e
abbrev kIn (k : Fin 100000) : Fin 3300000 := inr 3200000 100000 3300000 rfl k

/-! ## Words -/

/-- A node number wrapped once: a negative word has the node count added. -/
def wrapW (x : BitVec 32) : BitVec 32 := Scalar.select (IntOp.cmpi .slt x 0#32) (IntOp.addi x 100000#32) x

theorem toInt_ofNat_small (k : ℕ) (hk : k < 100000) : (BitVec.ofNat 32 k).toInt = (k : Int) := by
  rw [BitVec.toInt_eq_toNat_cond, BitVec.toNat_ofNat]
  have e : k % 2 ^ 32 = k := Nat.mod_eq_of_lt (by omega)
  rw [e]
  split
  · rfl
  · omega

/-- A node number below the node count is not wrapped. -/
theorem wrapW_ofNat_small (k : ℕ) (hk : k < 100000) : wrapW (BitVec.ofNat 32 k) = BitVec.ofNat 32 k := by
  have hs : (BitVec.ofNat 32 k).slt 0#32 = false := by
    have h0 : (0#32 : BitVec 32).toInt = 0 := by decide
    simp only [BitVec.slt, toInt_ofNat_small k hk, h0, decide_eq_false_iff_not, not_lt]
    exact Int.natCast_nonneg k
  have hc : IntOp.cmpi .slt (BitVec.ofNat 32 k) 0#32 = 0#1 := by
    show BitVec.ofBool ((BitVec.ofNat 32 k).slt 0#32) = 0#1
    rw [hs]; rfl
  unfold wrapW
  rw [hc]
  exact select_zero _ _

/-! ## The long lists, entry by entry -/

theorem cat_edge (a : IVec Cert.ReferenceIdeal.S3200000 32) (e : Fin 3200000) : Cert.ReferenceIdeal.Stages.cat a (ix1 (eIn e)) = a (ix1 e) := by
  unfold Cert.ReferenceIdeal.Stages.cat
  exact concatenate_pair_apply_left (0 : Fin 1) a _ _ (ix1 (eIn e)) rfl (ix1 e) (fun b => by
    match b with
    | ⟨0, _⟩ => rfl)

theorem cat_loop (a : IVec Cert.ReferenceIdeal.S3200000 32) (k : Fin 100000) : Cert.ReferenceIdeal.Stages.cat a (ix1 (kIn k)) = BitVec.ofNat 32 k.val := by
  unfold Cert.ReferenceIdeal.Stages.cat
  exact (concatenate_pair_apply_right (s₁ := Cert.ReferenceIdeal.S3200000) (s₂ := Cert.ReferenceIdeal.S100000) (0 : Fin 1) a
    (iotaInDim Cert.ReferenceIdeal.S100000 32 0) _ (ix1 (kIn k)) rfl rfl (ix1 k)
    (fun b hb => absurd (Fin.ext (by have hb1 : b.val < 1 := b.isLt; show b.val = 0; omega)) hb)
    (by show k.val + 3200000 = 3200000 + k.val; omega)).trans rfl

theorem Rcol_at (v : IVec Cert.ReferenceIdeal.S3300000 32) (r : Fin 3300000) : Cert.ReferenceIdeal.Stages.col v (ix2 r (0 : Fin 1)) = v (ix1 r) := by
  unfold Cert.ReferenceIdeal.Stages.col
  exact broadcastInDim_apply ![0] _ v (ix2 r (0 : Fin 1)) (ix1 r) (fun a => by
    match a with
    | ⟨0, _⟩ => rfl)

theorem Kcol_at (v : IVec Cert.KernelIdeal.S3200000 32) (e : Fin 3200000) : Cert.KernelIdeal.Stages.col v (ix2 e (0 : Fin 1)) = v (ix1 e) := by
  unfold Cert.KernelIdeal.Stages.col
  exact broadcastInDim_apply ![0] _ v (ix2 e (0 : Fin 1)) (ix1 e) (fun a => by
    match a with
    | ⟨0, _⟩ => rfl)

theorem Rwrap_at (v : IVec Cert.ReferenceIdeal.S3300000 32) (i : Cert.ReferenceIdeal.S3300000.Idx) : Cert.ReferenceIdeal.Stages.wrap v i = wrapW (v i) := rfl
theorem Kwrap_at (v : IVec Cert.KernelIdeal.S3200000 32) (i : Cert.KernelIdeal.S3200000.Idx) : Cert.KernelIdeal.Stages.wrap v i = wrapW (v i) := rfl

/-- The index words of the wrapped long list: on an edge the wrapped short list's, on a loop the node number. -/
theorem idx_wrap_edge (a : IVec Cert.ReferenceIdeal.S3200000 32) (e : Fin 3200000) :
    Cert.ReferenceIdeal.Stages.col (Cert.ReferenceIdeal.Stages.wrap (Cert.ReferenceIdeal.Stages.cat a)) (ix2 (eIn e) (0 : Fin 1)) = Cert.KernelIdeal.Stages.col (Cert.KernelIdeal.Stages.wrap a) (ix2 e (0 : Fin 1)) := by
  rw [Rcol_at, Kcol_at, Rwrap_at, Kwrap_at, cat_edge]
theorem idx_wrap_loop (a : IVec Cert.ReferenceIdeal.S3200000 32) (k : Fin 100000) :
    (Cert.ReferenceIdeal.Stages.col (Cert.ReferenceIdeal.Stages.wrap (Cert.ReferenceIdeal.Stages.cat a)) (ix2 (kIn k) (0 : Fin 1))).toInt = (k.val : Int) := by
  rw [Rcol_at, Rwrap_at, cat_loop, wrapW_ofNat_small k.val k.isLt, toInt_ofNat_small k.val k.isLt]
/-- The index words of the long list itself (what the scatter reads, not wrapped). -/
theorem idx_edge (a : IVec Cert.ReferenceIdeal.S3200000 32) (e : Fin 3200000) :
    Cert.ReferenceIdeal.Stages.col (Cert.ReferenceIdeal.Stages.cat a) (ix2 (eIn e) (0 : Fin 1)) = Cert.KernelIdeal.Stages.col a (ix2 e (0 : Fin 1)) := by
  rw [Rcol_at, Kcol_at, cat_edge]
theorem idx_loop (a : IVec Cert.ReferenceIdeal.S3200000 32) (k : Fin 100000) :
    (Cert.ReferenceIdeal.Stages.col (Cert.ReferenceIdeal.Stages.cat a) (ix2 (kIn k) (0 : Fin 1))).toInt = (k.val : Int) := by
  rw [Rcol_at, cat_loop, toInt_ofNat_small k.val k.isLt]

/-! ## The records -/

theorem rowScatR16 : IsRowScatter Cert.ReferenceIdeal.scatter_S100000x16_S3300000x1_S3300000x16_1_0_0_1 := ⟨rfl, rfl, rfl, rfl⟩
theorem rowScatK16 : IsRowScatter Cert.KernelIdeal.scatter_S100000x16_S3200000x1_S3200000x16_1_0_0_1 := ⟨rfl, rfl, rfl, rfl⟩
theorem rowScatR64 : IsRowScatter Cert.ReferenceIdeal.scatter_S100000x64_S3300000x1_S3300000x64_1_0_0_1 := ⟨rfl, rfl, rfl, rfl⟩
theorem rowScatK64 : IsRowScatter Cert.KernelIdeal.scatter_S100000x64_S3200000x1_S3200000x64_1_0_0_1 := ⟨rfl, rfl, rfl, rfl⟩
theorem vecScatR : IsVecScatter Cert.ReferenceIdeal.scatter_S100000_S3300000x1_S3300000_n_0_0_1 := ⟨rfl, rfl, rfl, rfl⟩
theorem vecScatK : IsVecScatter Cert.KernelIdeal.scatter_S100000_S3200000x1_S3200000_n_0_0_1 := ⟨rfl, rfl, rfl, rfl⟩
theorem rowGathR16 : IsRowGather Cert.ReferenceIdeal.gather_S100000x16_S3300000x1_S3300000x16_1_0_n_n_0_1_116 := ⟨rfl, rfl, rfl, rfl, rfl, rfl, rfl⟩
theorem rowGathK16 : IsRowGather Cert.KernelIdeal.gather_S100000x16_S3200000x1_S3200000x16_1_0_n_n_0_1_116 := ⟨rfl, rfl, rfl, rfl, rfl, rfl, rfl⟩
theorem rowGathR64 : IsRowGather Cert.ReferenceIdeal.gather_S100000x64_S3300000x1_S3300000x64_1_0_n_n_0_1_164 := ⟨rfl, rfl, rfl, rfl, rfl, rfl, rfl⟩
theorem rowGathK64 : IsRowGather Cert.KernelIdeal.gather_S100000x64_S3200000x1_S3200000x64_1_0_n_n_0_1_164 := ⟨rfl, rfl, rfl, rfl, rfl, rfl, rfl⟩
theorem vecGathR : IsVecGather Cert.ReferenceIdeal.gather_S100000_S3300000x1_S3300000_n_0_n_n_0_1_1 := ⟨rfl, rfl, rfl, rfl, rfl, rfl, rfl⟩
theorem vecGathK : IsVecGather Cert.KernelIdeal.gather_S100000_S3200000x1_S3200000_n_0_n_n_0_1_1 := ⟨rfl, rfl, rfl, rfl, rfl, rfl, rfl⟩

/-! ## The weights, entry by entry -/

theorem hN : 0 < 100000 := by norm_num

/-- Equal index words clamp to equal rows, whatever the two index arrays' lengths. -/
theorem clampRow_word {M M' : ℕ} (idx : IVec ⟨2, ![M, 1]⟩ 32) (idx' : IVec ⟨2, ![M', 1]⟩ 32) (e : Fin M) (e' : Fin M')
    (h : idx (ix2 e (0 : Fin 1)) = idx' (ix2 e' (0 : Fin 1))) : clampRow 100000 hN idx e = clampRow 100000 hN idx' e' := by
  apply Fin.ext
  show min (idx (ix2 e (0 : Fin 1))).toInt.toNat (100000 - 1) = min (idx' (ix2 e' (0 : Fin 1))).toInt.toNat (100000 - 1)
  rw [h]

theorem clamp_edge (a : IVec Cert.ReferenceIdeal.S3200000 32) (e : Fin 3200000) :
    clampRow 100000 hN (Cert.ReferenceIdeal.Stages.col (Cert.ReferenceIdeal.Stages.wrap (Cert.ReferenceIdeal.Stages.cat a))) (eIn e) = clampRow 100000 hN (Cert.KernelIdeal.Stages.col (Cert.KernelIdeal.Stages.wrap a)) e :=
  clampRow_word _ _ _ _ (idx_wrap_edge a e)
theorem clamp_loop (a : IVec Cert.ReferenceIdeal.S3200000 32) (k : Fin 100000) :
    clampRow 100000 hN (Cert.ReferenceIdeal.Stages.col (Cert.ReferenceIdeal.Stages.wrap (Cert.ReferenceIdeal.Stages.cat a))) (kIn k) = k :=
  clampRow_of_toInt hN _ _ k (idx_wrap_loop a k)

theorem Rnorm_at (dinv : FVec Ideal Cert.ReferenceIdeal.S100000 .f32) (s d : IVec Cert.ReferenceIdeal.S3200000 32) (r : Fin 3300000) :
    Cert.ReferenceIdeal.Stages.norm dinv s d (ix1 r) = dinv (ix1 (clampRow 100000 hN (Cert.ReferenceIdeal.Stages.col (Cert.ReferenceIdeal.Stages.wrap (Cert.ReferenceIdeal.Stages.cat s))) r))
      * dinv (ix1 (clampRow 100000 hN (Cert.ReferenceIdeal.Stages.col (Cert.ReferenceIdeal.Stages.wrap (Cert.ReferenceIdeal.Stages.cat d))) r)) := by
  unfold Cert.ReferenceIdeal.Stages.norm
  rw [mulf_apply, vec_gather_apply hN _ vecGathR, vec_gather_apply hN _ vecGathR]

theorem KnormE_at (dinv : FVec Ideal Cert.KernelIdeal.S100000 .f32) (s d : IVec Cert.KernelIdeal.S3200000 32) (e : Fin 3200000) (u : Fin 1) :
    Cert.KernelIdeal.Stages.normE dinv s d (ix2 e u) = dinv (ix1 (clampRow 100000 hN (Cert.KernelIdeal.Stages.col (Cert.KernelIdeal.Stages.wrap s)) e))
      * dinv (ix1 (clampRow 100000 hN (Cert.KernelIdeal.Stages.col (Cert.KernelIdeal.Stages.wrap d)) e)) := by
  unfold Cert.KernelIdeal.Stages.normE
  rw [Cert.LibColumnCast.shapeCast_a_a1_apply, mulf_apply, vec_gather_apply hN _ vecGathK, vec_gather_apply hN _ vecGathK]

theorem KselfS_at (dinv : FVec Ideal Cert.KernelIdeal.S100000 .f32) (k : Fin 100000) (u : Fin 1) :
    Cert.KernelIdeal.Stages.selfS dinv (ix2 k u) = dinv (ix1 k) * dinv (ix1 k) := by
  unfold Cert.KernelIdeal.Stages.selfS
  rw [Cert.LibColumnCast.shapeCast_a_a1_apply, mulf_apply]

/-! ## The updates, entry by entry, for any number of feature columns -/

section Updates

variable {C : ℕ}

/-- The long update list at row r, column q: the gathered row's entry times the entry's weight. -/
theorem updR_at (gR : GatherDims ⟨2, ![100000, C]⟩ ⟨2, ![3300000, 1]⟩ ⟨2, ![3300000, C]⟩) (hgR : IsRowGather gR) (hbR : (⟨2, ![3300000, 1]⟩ : Shape).BroadcastsInDim ⟨2, ![3300000, C]⟩ ![0, 1])
    (h : FVec Ideal ⟨2, ![100000, C]⟩ .f32) (dinv : FVec Ideal Cert.ReferenceIdeal.S100000 .f32) (s d : IVec Cert.ReferenceIdeal.S3200000 32) (r : Fin 3300000) (q : Fin C) :
    mulf (F := Ideal) (Host.gather gR h (Cert.ReferenceIdeal.Stages.col (Cert.ReferenceIdeal.Stages.wrap (Cert.ReferenceIdeal.Stages.cat s))))
      (broadcastInDim ⟨2, ![3300000, C]⟩ ![0, 1] hbR
        (broadcastInDim Cert.ReferenceIdeal.S3300000x1 ![0] Cert.ReferenceIdeal.Gen.bcast_S3300000_S3300000x1_0 (Cert.ReferenceIdeal.Stages.norm dinv s d))) (ix2 r q)
      = h (ix2 (clampRow 100000 hN (Cert.ReferenceIdeal.Stages.col (Cert.ReferenceIdeal.Stages.wrap (Cert.ReferenceIdeal.Stages.cat s))) r) q) * (dinv (ix1 (clampRow 100000 hN (Cert.ReferenceIdeal.Stages.col (Cert.ReferenceIdeal.Stages.wrap (Cert.ReferenceIdeal.Stages.cat s))) r)) * dinv (ix1 (clampRow 100000 hN (Cert.ReferenceIdeal.Stages.col (Cert.ReferenceIdeal.Stages.wrap (Cert.ReferenceIdeal.Stages.cat d))) r))) := by
  rw [mulf_apply, row_gather_apply hN gR hgR, Cert.LibColInDim.bcast_a1_ab_apply, Cert.LibColInDim.bcast_a_a1_apply, Rnorm_at]

/-- The short update list at edge e, column q. -/
theorem updK_at (gK : GatherDims ⟨2, ![100000, C]⟩ ⟨2, ![3200000, 1]⟩ ⟨2, ![3200000, C]⟩) (hgK : IsRowGather gK) (hbK : (⟨2, ![3200000, 1]⟩ : Shape).BroadcastsInDim ⟨2, ![3200000, C]⟩ ![0, 1])
    (h : FVec Ideal ⟨2, ![100000, C]⟩ .f32) (dinv : FVec Ideal Cert.ReferenceIdeal.S100000 .f32) (s d : IVec Cert.ReferenceIdeal.S3200000 32) (e : Fin 3200000) (q : Fin C) :
    mulf (F := Ideal) (Host.gather gK h (Cert.KernelIdeal.Stages.col (Cert.KernelIdeal.Stages.wrap s)))
      (broadcastInDim ⟨2, ![3200000, C]⟩ ![0, 1] hbK (Cert.KernelIdeal.Stages.normE dinv s d)) (ix2 e q)
      = h (ix2 (clampRow 100000 hN (Cert.KernelIdeal.Stages.col (Cert.KernelIdeal.Stages.wrap s)) e) q) * (dinv (ix1 (clampRow 100000 hN (Cert.KernelIdeal.Stages.col (Cert.KernelIdeal.Stages.wrap s)) e)) * dinv (ix1 (clampRow 100000 hN (Cert.KernelIdeal.Stages.col (Cert.KernelIdeal.Stages.wrap d)) e))) := by
  rw [mulf_apply, row_gather_apply hN gK hgK, Cert.LibColInDim.bcast_a1_ab_apply, KnormE_at]

/-- On an edge the two update lists agree. -/
theorem upd_edge (gR : GatherDims ⟨2, ![100000, C]⟩ ⟨2, ![3300000, 1]⟩ ⟨2, ![3300000, C]⟩) (hgR : IsRowGather gR) (gK : GatherDims ⟨2, ![100000, C]⟩ ⟨2, ![3200000, 1]⟩ ⟨2, ![3200000, C]⟩) (hgK : IsRowGather gK) (hbR : (⟨2, ![3300000, 1]⟩ : Shape).BroadcastsInDim ⟨2, ![3300000, C]⟩ ![0, 1]) (hbK : (⟨2, ![3200000, 1]⟩ : Shape).BroadcastsInDim ⟨2, ![3200000, C]⟩ ![0, 1])
    (h : FVec Ideal ⟨2, ![100000, C]⟩ .f32) (dinv : FVec Ideal Cert.ReferenceIdeal.S100000 .f32) (s d : IVec Cert.ReferenceIdeal.S3200000 32) (e : Fin 3200000) (q : Fin C) :
    mulf (F := Ideal) (Host.gather gR h (Cert.ReferenceIdeal.Stages.col (Cert.ReferenceIdeal.Stages.wrap (Cert.ReferenceIdeal.Stages.cat s))))
      (broadcastInDim ⟨2, ![3300000, C]⟩ ![0, 1] hbR
        (broadcastInDim Cert.ReferenceIdeal.S3300000x1 ![0] Cert.ReferenceIdeal.Gen.bcast_S3300000_S3300000x1_0 (Cert.ReferenceIdeal.Stages.norm dinv s d))) (ix2 (eIn e) q)
      = mulf (F := Ideal) (Host.gather gK h (Cert.KernelIdeal.Stages.col (Cert.KernelIdeal.Stages.wrap s)))
      (broadcastInDim ⟨2, ![3200000, C]⟩ ![0, 1] hbK (Cert.KernelIdeal.Stages.normE dinv s d)) (ix2 e q) := by
  rw [updR_at gR hgR hbR, updK_at gK hgK hbK, clamp_edge, clamp_edge]

/-- On loop k the long update list holds the node's own row times its self weight. -/
theorem upd_loop (gR : GatherDims ⟨2, ![100000, C]⟩ ⟨2, ![3300000, 1]⟩ ⟨2, ![3300000, C]⟩) (hgR : IsRowGather gR) (hbR : (⟨2, ![3300000, 1]⟩ : Shape).BroadcastsInDim ⟨2, ![3300000, C]⟩ ![0, 1]) (hbN : (⟨2, ![100000, 1]⟩ : Shape).BroadcastsInDim ⟨2, ![100000, C]⟩ ![0, 1])
    (h : FVec Ideal ⟨2, ![100000, C]⟩ .f32) (dinv : FVec Ideal Cert.ReferenceIdeal.S100000 .f32) (s d : IVec Cert.ReferenceIdeal.S3200000 32) (k : Fin 100000) (q : Fin C) :
    mulf (F := Ideal) (Host.gather gR h (Cert.ReferenceIdeal.Stages.col (Cert.ReferenceIdeal.Stages.wrap (Cert.ReferenceIdeal.Stages.cat s))))
      (broadcastInDim ⟨2, ![3300000, C]⟩ ![0, 1] hbR
        (broadcastInDim Cert.ReferenceIdeal.S3300000x1 ![0] Cert.ReferenceIdeal.Gen.bcast_S3300000_S3300000x1_0 (Cert.ReferenceIdeal.Stages.norm dinv s d))) (ix2 (kIn k) q)
      = mulf (F := Ideal) (broadcastInDim ⟨2, ![100000, C]⟩ ![0, 1] hbN (Cert.KernelIdeal.Stages.selfS dinv)) h (ix2 k q) := by
  rw [updR_at gR hgR hbR, clamp_loop, clamp_loop, mulf_apply, Cert.LibColInDim.bcast_a1_ab_apply, KselfS_at, mul_comm]

end Updates

/-! ## The three equalities -/

/-- The degree counted over edges and loops is the degree counted over edges, plus one. -/
theorem deg_eq (d : IVec Cert.ReferenceIdeal.S3200000 32) : Cert.ReferenceIdeal.Stages.deg d = Cert.KernelIdeal.Stages.deg d := by
  unfold Cert.ReferenceIdeal.Stages.deg Cert.KernelIdeal.Stages.deg
  refine vecScatterAdd_selfLoops (N := 100000) (E := 3200000) (T := 3300000) rfl _ vecScatR _ vecScatK _ _ _ _ _ _ ?_ ?_ ?_ ?_
  · exact fun e => idx_edge d e
  · exact fun k => idx_loop d k
  · intro e; rfl
  · intro k; rfl

/-- The 16-column aggregation over edges and loops is the one over edges plus the self term. -/
theorem agg16_eq (h : FVec Ideal Cert.ReferenceIdeal.S100000x16 .f32) (dinv : FVec Ideal Cert.ReferenceIdeal.S100000 .f32)
    (s d : IVec Cert.ReferenceIdeal.S3200000 32) :
    Cert.ReferenceIdeal.Stages.agg16 h s d (Cert.ReferenceIdeal.Stages.norm dinv s d) = Cert.KernelIdeal.Stages.agg16 h s d (Cert.KernelIdeal.Stages.normE dinv s d) (Cert.KernelIdeal.Stages.selfS dinv) := by
  unfold Cert.ReferenceIdeal.Stages.agg16 Cert.KernelIdeal.Stages.agg16
  refine rowScatterAdd_selfLoops (N := 100000) (E := 3200000) (T := 3300000) (C := 16) rfl _ rowScatR16 _ rowScatK16 _ _ _ _ _ _ ?_ ?_ ?_ ?_
  · exact fun e => idx_edge d e
  · exact fun k => idx_loop d k
  · exact fun e q => upd_edge _ rowGathR16 _ rowGathK16 _ _ h dinv s d e q
  · exact fun k q => upd_loop _ rowGathR16 _ _ h dinv s d k q

/-- The 64-column aggregation over edges and loops is the one over edges plus the self term. -/
theorem agg64_eq (h : FVec Ideal Cert.ReferenceIdeal.S100000x64 .f32) (dinv : FVec Ideal Cert.ReferenceIdeal.S100000 .f32)
    (s d : IVec Cert.ReferenceIdeal.S3200000 32) :
    Cert.ReferenceIdeal.Stages.agg64 h s d (Cert.ReferenceIdeal.Stages.norm dinv s d) = Cert.KernelIdeal.Stages.agg64 h s d (Cert.KernelIdeal.Stages.normE dinv s d) (Cert.KernelIdeal.Stages.selfS dinv) := by
  unfold Cert.ReferenceIdeal.Stages.agg64 Cert.KernelIdeal.Stages.agg64
  refine rowScatterAdd_selfLoops (N := 100000) (E := 3200000) (T := 3300000) (C := 64) rfl _ rowScatR64 _ rowScatK64 _ _ _ _ _ _ ?_ ?_ ?_ ?_
  · exact fun e => idx_edge d e
  · exact fun k => idx_loop d k
  · exact fun e q => upd_edge _ rowGathR64 _ rowGathK64 _ _ h dinv s d e q
  · exact fun k q => upd_loop _ rowGathR64 _ _ h dinv s d k q

end Cert.AggLaw

end
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.LibRowInDim.lean ====
/-
  Two host broadcasts around a unit row, read at an entry: a vector laid down as one row
  (`broadcast_in_dim` with dims [1], [b] to [1, b]) and one row stretched over a rows (dims [0, 1], [1, b] to [a, b]).
-/
import Idealize.ShloMosaic.Lib.Pipeline.Value
import Idealize.ShloMosaic.Lib.ValueIdx

namespace Cert.LibRowInDim

open Idealize.ShloMosaic Idealize.ShloMosaic.ValueIdx

variable {α : Type}

/-- A [b] array broadcast to [1, b] along dims [1] reads, at (u, k), the operand at k. -/
theorem bcast_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- A [1, b] array broadcast to [a, b] along dims [0, 1] reads, at (p, k), the operand's one row at column k. -/
theorem bcast_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply ![0, 1] h x (ix2 p k) (ix2 (0 : Fin 1) k) fun ax => ?_
  match ax with
  | ⟨0, _⟩ => rfl
  | ⟨1, _⟩ =>
    show k.val = if b = 1 then 0 else k.val
    split
    · have := k.isLt; omega
    · rfl

end Cert.LibRowInDim
-- ==== Proof.RDense.lean ====
/-
  The reference's dense host stages, as functions of arrays, read entry by entry.

  The two matrix products are the host's `dot_general`; between them a bias is added along the rows and the positive part
  taken; at the end a bias is added and each row's log-softmax taken the host's way: the row's maximum from −∞ (joined
  once more with −∞, which changes nothing), the row shifted by it, the logarithm of the sum from zero of the exponentials
  of the shifted row, subtracted. Entry by entry these are the matrix product, the biased positive part and the biased row
  log-softmax of `Dense`, the same functions the kernel's three regions compute block by block.
-/
import proofs.«125250_j10754598109885_2_alg».proof.Proof.Gen.ReferenceIdeal
import proofs.«125250_j10754598109885_2_alg».proof.Proof.LibMatmulAt
import proofs.«125250_j10754598109885_2_alg».proof.Proof.LibHostRead
import proofs.«125250_j10754598109885_2_alg».proof.Proof.LibColInDim
import proofs.«125250_j10754598109885_2_alg».proof.Proof.LibRowInDim
import proofs.«125250_j10754598109885_2_alg».proof.Proof.Dense
import Idealize.ShloMosaic.PureOps.Ideal.Laws
import Idealize.ShloMosaic.Lib.Pipeline.Value
import Idealize.ShloMosaic.Lib.ValueIdx

set_option maxRecDepth 16384

noncomputable section

namespace Cert.ReferenceIdeal.DenseStages

open Cert.ReferenceIdeal Cert.ReferenceIdeal.Gen Cert.Dense
open Idealize.ShloMosaic Idealize.ShloMosaic.TcCoe Idealize.ShloMosaic.ValueIdx

/-! ## The stages -/

/-- The first product. -/
def h1 (x0 : FVec Ideal S100000x512 .f32) (x2 : FVec Ideal S512x16 .f32) : FVec Ideal S100000x16 .f32 :=
  Host.dotGeneral dot_S100000x512_S512x16_S100000x16_1_0_0_1_n_n none x0 x2
/-- The bias along the rows and the positive part. -/
def act (o : FVec Ideal S100000x16 .f32) (b1 : FVec Ideal S16 .f32) : FVec Ideal S100000x16 .f32 :=
  maximumf (addf o (broadcastInDim S100000x16 ![0, 1] bcast_S1x16_S100000x16_0_1 (broadcastInDim S1x16 ![1] bcast_S16_S1x16_1 b1)))
    (broadcastInDim S100000x16 ![] bcast_S_S100000x16 (constant (F := Ideal) S_ .f32 0x00000000#32))
/-- The second product. -/
def h2 (a : FVec Ideal S100000x16 .f32) (x4 : FVec Ideal S16x64 .f32) : FVec Ideal S100000x64 .f32 :=
  Host.dotGeneral dot_S100000x16_S16x64_S100000x64_1_0_0_1_n_n none a x4
/-- The last bias along the rows. -/
def pre (o : FVec Ideal S100000x64 .f32) (b2 : FVec Ideal S64 .f32) : FVec Ideal S100000x64 .f32 :=
  addf o (broadcastInDim S100000x64 ![0, 1] bcast_S1x64_S100000x64_0_1 (broadcastInDim S1x64 ![1] bcast_S64_S1x64_1 b2))
/-- Each row's maximum, the host's way. -/
def mxH (a : FVec Ideal S100000x64 .f32) : FVec Ideal S100000 .f32 :=
  maximumf (broadcastInDim S100000 ![] bcast_S_S100000 (constant (F := Ideal) S_ .f32 0xFF800000#32))
    (Host.reduce FloatOps.maximumf a (constant (F := Ideal) S_ .f32 0xFF800000#32) reducesTo_S100000x64_S100000_d1 h_S_)
/-- The array shifted by its rows' maxima. -/
def shH (a : FVec Ideal S100000x64 .f32) : FVec Ideal S100000x64 .f32 :=
  subf a (broadcastInDim S100000x64 ![0, 1] bcast_S100000x1_S100000x64_0_1 (broadcastInDim S100000x1 ![0] bcast_S100000_S100000x1_0 (mxH a)))
/-- Each row's sum of exponentials of the shifted row. -/
def seH (a : FVec Ideal S100000x64 .f32) : FVec Ideal S100000 .f32 :=
  Host.reduceAdd (Host.exp (shH a)) (constant (F := Ideal) S_ .f32 0x00000000#32) reducesTo_S100000x64_S100000_d1 h_S_
/-- The row-wise log-softmax. -/
def lsm (a : FVec Ideal S100000x64 .f32) : FVec Ideal S100000x64 .f32 :=
  subf (shH a) (broadcastInDim S100000x64 ![0, 1] bcast_S100000x1_S100000x64_0_1
    (Host.log (broadcastInDim S100000x1 ![0] bcast_S100000_S100000x1_0 (seH a))))

/-! ## The products -/

namespace P1
theorem lhs0 (i : S100000x16.Idx) (q : dot_S100000x512_S512x16_S100000x16_1_0_0_1_n_n.contr.Idx) :
    (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
theorem lhs1 (i : S100000x16.Idx) (q : dot_S100000x512_S512x16_S100000x16_1_0_0_1_n_n.contr.Idx) :
    (dot_S100000x512_S512x16_S100000x16_1_0_0_1_n_n.lhsIdx i q 1).val = (q ⟨0, by decide⟩).val :=
  dot_S100000x512_S512x16_S100000x16_1_0_0_1_n_n.lhsIdx_val_of_single rfl i q
theorem rhs0 (i : S100000x16.Idx) (q : dot_S100000x512_S512x16_S100000x16_1_0_0_1_n_n.contr.Idx) :
    (dot_S100000x512_S512x16_S100000x16_1_0_0_1_n_n.rhsIdx i q 0).val = (q ⟨0, by decide⟩).val :=
  dot_S100000x512_S512x16_S100000x16_1_0_0_1_n_n.rhsIdx_val_of_single rfl i q
theorem rhs1 (i : S100000x16.Idx) (q : dot_S100000x512_S512x16_S100000x16_1_0_0_1_n_n.contr.Idx) :
    (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl
end P1
namespace P2
theorem lhs0 (i : S100000x64.Idx) (q : dot_S100000x16_S16x64_S100000x64_1_0_0_1_n_n.contr.Idx) :
    (dot_S100000x16_S16x64_S100000x64_1_0_0_1_n_n.lhsIdx i q 0).val = (i 0).val := by
  unfold DotDims.lhsIdx
  rw [dif_neg (show ¬(0 : Fin S100000x16.rank) ∈ dot_S100000x16_S16x64_S100000x64_1_0_0_1_n_n.lhsBatch by decide), dif_pos (show (0 : Fin S100000x16.rank) ∈ dot_S100000x16_S16x64_S100000x64_1_0_0_1_n_n.lhsNonContracting by decide)]
  rfl
theorem lhs1 (i : S100000x64.Idx) (q : dot_S100000x16_S16x64_S100000x64_1_0_0_1_n_n.contr.Idx) :
    (dot_S100000x16_S16x64_S100000x64_1_0_0_1_n_n.lhsIdx i q 1).val = (q ⟨0, by decide⟩).val :=
  dot_S100000x16_S16x64_S100000x64_1_0_0_1_n_n.lhsIdx_val_of_single rfl i q
theorem rhs0 (i : S100000x64.Idx) (q : dot_S100000x16_S16x64_S100000x64_1_0_0_1_n_n.contr.Idx) :
    (dot_S100000x16_S16x64_S100000x64_1_0_0_1_n_n.rhsIdx i q 0).val = (q ⟨0, by decide⟩).val :=
  dot_S100000x16_S16x64_S100000x64_1_0_0_1_n_n.rhsIdx_val_of_single rfl i q
theorem rhs1 (i : S100000x64.Idx) (q : dot_S100000x16_S16x64_S100000x64_1_0_0_1_n_n.contr.Idx) :
    (dot_S100000x16_S16x64_S100000x64_1_0_0_1_n_n.rhsIdx i q 1).val = (i 1).val := by
  unfold DotDims.rhsIdx
  rw [dif_neg (show ¬(1 : Fin S16x64.rank) ∈ dot_S100000x16_S16x64_S100000x64_1_0_0_1_n_n.rhsBatch by decide), dif_pos (show (1 : Fin S16x64.rank) ∈ dot_S100000x16_S16x64_S100000x64_1_0_0_1_n_n.rhsNonContracting by decide)]
  rfl
end P2

theorem h1_eq (x0 : FVec Ideal S100000x512 .f32) (x2 : FVec Ideal S512x16 .f32) : h1 x0 x2 = matProd x0 x2 := by
  funext i
  obtain ⟨p, q, rfl⟩ : ∃ (p : Fin 100000) (q : Fin 16), i = ix2 p q := ⟨i 0, i 1, eq_ix2 i⟩
  unfold h1
  exact (MatmulAt.dotGeneral_ix2 dot_S100000x512_S512x16_S100000x16_1_0_0_1_n_n rfl rfl P1.lhs0 P1.lhs1 P1.rhs0 P1.rhs1 none x0 x2 p q).trans rfl

theorem h2_eq (a : FVec Ideal S100000x16 .f32) (x4 : FVec Ideal S16x64 .f32) : h2 a x4 = matProd a x4 := by
  funext i
  obtain ⟨p, q, rfl⟩ : ∃ (p : Fin 100000) (q : Fin 64), i = ix2 p q := ⟨i 0, i 1, eq_ix2 i⟩
  unfold h2
  exact (MatmulAt.dotGeneral_ix2 dot_S100000x16_S16x64_S100000x64_1_0_0_1_n_n rfl rfl P2.lhs0 P2.lhs1 P2.rhs0 P2.rhs1 none a x4 p q).trans rfl

/-! ## Bias and positive part -/

theorem act_eq (o : FVec Ideal S100000x16 .f32) (b1 : FVec Ideal S16 .f32) : act o b1 = biasRelu o b1 := by
  funext i
  obtain ⟨p, k, rfl⟩ : ∃ (p : Fin 100000) (k : Fin 16), i = ix2 p k := ⟨i 0, i 1, eq_ix2 i⟩
  unfold act biasRelu
  rw [maximumf_apply, addf_apply, Cert.LibRowInDim.bcast_1b_ab_apply, Cert.LibRowInDim.bcast_b_1b_apply, HostRead.splat_at]

/-! ## Bias and row log-softmax -/

theorem pre_at (o : FVec Ideal S100000x64 .f32) (b2 : FVec Ideal S64 .f32) (p : Fin 100000) (k : Fin 64) :
    pre o b2 (ix2 p k) = o (ix2 p k) + b2 (ix1 k) := by
  unfold pre
  rw [addf_apply, Cert.LibRowInDim.bcast_1b_ab_apply, Cert.LibRowInDim.bcast_b_1b_apply]

/-- The reduced index with the column put back is (row, column). -/
theorem red : S100000x64.Reduces [1] S100000 := by decide

theorem lift_eq (p : Fin 100000) (k : Fin 64) : red.lift (ix1 p) k = ix2 p k :=
  funext fun a => Fin.ext (by
    match a with
    | ⟨0, _⟩ => rfl
    | ⟨1, _⟩ => rfl)

/-- One value per row, stood up as a column and stretched over the columns, reads that row's value. -/
theorem col_at (u : FVec Ideal S100000 .f32) (p : Fin 100000) (q : Fin 64) :
    broadcastInDim S100000x64 ![0, 1] bcast_S100000x1_S100000x64_0_1 (broadcastInDim S100000x1 ![0] bcast_S100000_S100000x1_0 u) (ix2 p q)
      = u (ix1 p) := by
  rw [Cert.LibColInDim.bcast_a1_ab_apply, Cert.LibColInDim.bcast_a_a1_apply]

theorem mxH_at (a : FVec Ideal S100000x64 .f32) (p : Fin 100000) : mxH a (ix1 p) = rowMax (fun k : Fin 64 => a (ix2 p k)) := by
  unfold mxH rowMax
  rw [maximumf_apply, HostRead.splat_at, Host.reduce_eq_fold_single FloatOps.maximumf a _ reducesTo_S100000x64_S100000_d1 red h_S_]
  have hf : (a ∘ red.lift (ix1 p)) = fun k : Fin 64 => a (ix2 p k) := funext fun k => congrArg a (lift_eq p k)
  have e : (Finset.univ : Finset (Fin (S100000x64.size 1))).fold FloatOps.maximumf
        ((constant (F := Ideal) S_ .f32 0xFF800000#32) (Shape.Idx.first h_S_)) (a ∘ red.lift (ix1 p))
      = (Finset.univ : Finset (Fin 64)).fold max (Ideal.ofBits .f32 0xFF800000#32) (fun k : Fin 64 => a (ix2 p k)) :=
    congrArg (fun f : Fin 64 → EReal => (Finset.univ : Finset (Fin 64)).fold max (Ideal.ofBits .f32 0xFF800000#32) f) hf
  rw [e]
  exact max_eq_right ((Finset.le_fold_max _).mpr (Or.inl le_rfl))

theorem shH_at (a : FVec Ideal S100000x64 .f32) (p : Fin 100000) (k : Fin 64) :
    shH a (ix2 p k) = a (ix2 p k) - rowMax (fun k : Fin 64 => a (ix2 p k)) := by
  unfold shH
  rw [subf_apply, col_at, mxH_at]

theorem seH_at (a : FVec Ideal S100000x64 .f32) (p : Fin 100000) :
    seH a (ix1 p) = Ideal.ofBits .f32 0x00000000#32 + ∑ k : Fin 64, Ideal.exp (a (ix2 p k) - rowMax (fun k : Fin 64 => a (ix2 p k))) := by
  unfold seH
  simp only [Host.reduceAdd, Ideal.hostReduceAdd_def]
  rw [Ideal.hostReduceAdd_single reducesTo_S100000x64_S100000_d1 red]
  refine congrArg (_ + ·) (Finset.sum_congr rfl fun k _ => ?_)
  refine (congrArg (fun z => Ideal.exp (shH a z)) (lift_eq p k)).trans ?_
  exact congrArg Ideal.exp (shH_at a p k)

/-- The host's logarithm of an array, read at an index. -/
theorem hostLog_apply {s : Shape} {φ : FTy} (x : FVec Ideal s φ) (i : s.Idx) : Host.log x i = Ideal.log (x i) := rfl

theorem lsm_at (a : FVec Ideal S100000x64 .f32) (p : Fin 100000) (q : Fin 64) :
    lsm a (ix2 p q) = logSoftmaxRow (fun k : Fin 64 => a (ix2 p k)) q := by
  unfold lsm logSoftmaxRow
  rw [subf_apply, shH_at]
  refine congrArg (fun z => a (ix2 p q) - rowMax (fun k : Fin 64 => a (ix2 p k)) - z) ?_
  rw [Cert.LibColInDim.bcast_a1_ab_apply, hostLog_apply, Cert.LibColInDim.bcast_a_a1_apply, seH_at]

theorem lsm_pre_eq (o : FVec Ideal S100000x64 .f32) (b2 : FVec Ideal S64 .f32) : lsm (pre o b2) = biasLogSoftmax o b2 := by
  funext i
  obtain ⟨p, q, rfl⟩ : ∃ (p : Fin 100000) (q : Fin 64), i = ix2 p q := ⟨i 0, i 1, eq_ix2 i⟩
  rw [lsm_at]
  unfold biasLogSoftmax
  exact congrArg (fun r : Fin 64 → EReal => logSoftmaxRow r q) (funext fun k => pre_at o b2 p k)

end Cert.ReferenceIdeal.DenseStages

end
-- ==== Proof.RefRun.lean ====
/-
  The reference program's run, read stretch by stretch.

  @main is a straight line of 134 host operations. It is cut into ten stretches: the plain operations between the inlined helper
  functions, and each helper by itself (the choice between the inverse root and zero, twice; the positive part; the row
  log-softmax in three parts: the rows' maxima, the shifted rows and their exponentials, the sums, the logarithm and the
  final subtraction). Every stretch is first read over an ARBITRARY valuation of the buffers — what it leaves in a buffer is a
  stage function of what a few buffers held before it, and a buffer it does not write keeps its contents — and then at
  the contents the stretch before left. Composed, the result buffer ends at the reference's chain of stages of the six
  arguments; by the law for self-loops folded out of a scatter (the degree and both aggregations) and the entry-by-entry
  readings of the dense stages, that chain is the value function the kernel program computes. The arguments are not
  written by any operation.
-/
import proofs.«125250_j10754598109885_2_alg».proof.Proof.RefRunP
import proofs.«125250_j10754598109885_2_alg».proof.Proof.AggLaw
import proofs.«125250_j10754598109885_2_alg».proof.Proof.RDense
import proofs.«125250_j10754598109885_2_alg».proof.Proof.KValue
import Idealize.ShloMosaic.Lib.StableHlo.Run

set_option maxRecDepth 16384

noncomputable section

namespace Cert.ReferenceIdeal.HandRun

open Cert.ReferenceIdeal Cert.ReferenceIdeal.Gen Cert.ReferenceIdeal.ValueP Idealize.ShloMosaic Idealize.ShloMosaic.TcCoe Idealize.SL.Sem Idealize.ShloMosaic.StableHlo

/-! ## The ten stretches of the operation list -/

section Stretches
variable {F : FTy → Type} [FloatOps F]

/-- Operations 1 … 19: endpoints, the first product, the loops' endpoints appended, the degree, its sign test and its inverse root. -/
abbrev opsA1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg2 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Operations 20 … 22: the choice between the inverse root and zero. -/
abbrev opsA2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 23 … 60: the weights, the first aggregation and the first bias. -/
abbrev opsB1 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v4 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- Operations 61 … 63: the positive part. -/
abbrev opsB2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- Operations 64 … 78: the second product; the loops' endpoints, the degree, its sign test and inverse root again. -/
abbrev opsC1 : List (HloOp τ sig (Elt F)) :=
  [ binary main_v47 main_arg4 main_v48 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32) ]

/-- Operations 79 … 81: the choice between the inverse root and zero, again. -/
abbrev opsC2 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select ]

/-- Operations 82 … 119: the weights again, the second aggregation and the second bias. -/
abbrev opsD1 : List (HloOp τ sig (Elt F)) :=
  [ nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v50 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v50 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v67 (broadcastInDim S3300000 ![] bcast_S_S3300000 : (⟨S_, .i32⟩ : BufTy).Contents (Elt F) → (⟨S3300000, .i32⟩ : BufTy).Contents (Elt F)),
    binary main_v51 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v69 (broadcastInDim S3300000 ![] bcast_S_S3300000 : (⟨S_, .i32⟩ : BufTy).Contents (Elt F) → (⟨S3300000, .i32⟩ : BufTy).Contents (Elt F)),
    binary main_v51 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v66 main_v73 main_v74 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v50 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v50 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v48 main_v80 main_v81 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v74 main_v82 (broadcastInDim S3300000x1 ![0] bcast_S3300000_S3300000x1_0 : (⟨S3300000, .f32⟩ : BufTy).Contents (Elt F) → (⟨S3300000x1, .f32⟩ : BufTy).Contents (Elt F)),
    unary main_v82 main_v83 (broadcastInDim S3300000x64 ![0, 1] bcast_S3300000x1_S3300000x64_0_1 : (⟨S3300000x1, .f32⟩ : BufTy).Contents (Elt F) → (⟨S3300000x64, .f32⟩ : BufTy).Contents (Elt F)),
    binary main_v81 main_v83 main_v84 (mulf : (⟨S3300000x64, .f32⟩ : BufTy).Contents (Elt F) → (⟨S3300000x64, .f32⟩ : BufTy).Contents (Elt F) → (⟨S3300000x64, .f32⟩ : BufTy).Contents (Elt F)),
    nullary main_cst_19 (constant S_ .f32 0x00000000#32),
    unary main_cst_19 main_v85 (broadcastInDim S100000x64 ![] bcast_S_S100000x64 : (⟨S_, .f32⟩ : BufTy).Contents (Elt F) → (⟨S100000x64, .f32⟩ : BufTy).Contents (Elt F)),
    unary main_v51 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v87 main_v89 main_v90 (addf : (⟨S100000x64, .f32⟩ : BufTy).Contents (Elt F) → (⟨S100000x64, .f32⟩ : BufTy).Contents (Elt F) → (⟨S100000x64, .f32⟩ : BufTy).Contents (Elt F)) ]

/-- Operations 120 … 124: each row's maximum from −∞. -/
abbrev opsD2a : List (HloOp τ sig (Elt F)) :=
  [ TRef.nullary (TRef.of (T := ⟨S_, .f32⟩) main_call3_cst) (constant S_ .f32 0xFF800000#32),
    TRef.binary (TRef.of (T := ⟨S100000x64, .f32⟩) main_v90) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Operations 125 … 128: the rows shifted by their maxima, and their exponentials. -/
abbrev opsD2b : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v90) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp ]

/-- Operations 129 … 134: each row's sum of exponentials, its logarithm, and the final subtraction. -/
abbrev opsD2c : List (HloOp τ sig (Elt F)) :=
  [ TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v91) subf ]

/-- Operations 120 … 124 with the row reduction an arbitrary function of the array and the initial value. -/
abbrev opsD2aP (R : ((⟨S100000x64, .f32⟩ : BufTy).Contents (Elt F) → (⟨S_, .f32⟩ : BufTy).Contents (Elt F) → (⟨S100000, .f32⟩ : BufTy).Contents (Elt F))) : List (HloOp τ sig (Elt F)) :=
  [ TRef.nullary (TRef.of (T := ⟨S_, .f32⟩) main_call3_cst) (constant S_ .f32 0xFF800000#32),
    TRef.binary (TRef.of (T := ⟨S100000x64, .f32⟩) main_v90) (TRef.of (T := ⟨S_, .f32⟩) main_call3_cst) (TRef.of (T := ⟨S100000, .f32⟩) main_call3_v0) R,
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]
/-- Operations 129 … 134 with the row sum an arbitrary function of the array and the initial value. -/
abbrev opsD2cP (R : ((⟨S100000x64, .f32⟩ : BufTy).Contents (Elt F) → (⟨S_, .f32⟩ : BufTy).Contents (Elt F) → (⟨S100000, .f32⟩ : BufTy).Contents (Elt F))) : List (HloOp τ sig (Elt F)) :=
  [ TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) R,
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v91) subf ]
theorem opsD2a_eq : (opsD2a : List (HloOp τ sig (Elt F))) = opsD2aP (fun x v => Host.reduce FloatOps.maximumf x v reducesTo_S100000x64_S100000_d1 h_S_) := rfl
theorem opsD2c_eq : (opsD2c : List (HloOp τ sig (Elt F))) = opsD2cP (fun x v => Host.reduceAdd x v reducesTo_S100000x64_S100000_d1 h_S_) := rfl

set_option maxRecDepth 65536 in
/-- The operation list is the ten stretches in order. -/
theorem ops_split : (ops : List (HloOp τ sig (Elt F))) = opsA1 ++ (opsA2 ++ (opsB1 ++ (opsB2 ++ (opsC1 ++ (opsC2 ++ (opsD1 ++ (opsD2a ++ (opsD2b ++ (opsD2c))))))))) := rfl

/-- Running a list in two parts. -/
theorem after_append {Val : EltTy → Type} (l₁ l₂ : List (HloOp τ sig Val)) (V : Valuation τ sig Val) :
    after (l₁ ++ l₂) V = after l₂ (after l₁ V) := by
  induction l₁ generalizing V with
  | nil => rfl
  | cons a l ih => exact ih (a.result V)

end Stretches

/-! ## The graph stages over the lists with the loops already appended -/

/-- The degree with loops, from the destinations with the loops' appended. -/
def degc (cd : IVec S3300000 32) : FVec Ideal S100000 .f32 :=
  Host.scatterAdd scatter_S100000_S3300000x1_S3300000_n_0_0_1
    (broadcastInDim S100000 ![] bcast_S_S100000 (constant (F := Ideal) S_ .f32 0x00000000#32)) (Cert.ReferenceIdeal.Stages.col cd)
    (broadcastInDim S3300000 ![] bcast_S_S3300000 (constant (F := Ideal) S_ .f32 0x3F800000#32))
/-- The per-entry weight, from the two endpoint lists with the loops' appended. -/
def normc (dinv : FVec Ideal S100000 .f32) (cs cd : IVec S3300000 32) : FVec Ideal S3300000 .f32 :=
  mulf (F := Ideal) (Host.gather gather_S100000_S3300000x1_S3300000_n_0_n_n_0_1_1 dinv (Cert.ReferenceIdeal.Stages.col (Cert.ReferenceIdeal.Stages.wrap cs)))
    (Host.gather gather_S100000_S3300000x1_S3300000_n_0_n_n_0_1_1 dinv (Cert.ReferenceIdeal.Stages.col (Cert.ReferenceIdeal.Stages.wrap cd)))
/-- The 16-column aggregation over edges and loops, from the appended lists. -/
def agg16c (h : FVec Ideal S100000x16 .f32) (cs cd : IVec S3300000 32) (n : FVec Ideal S3300000 .f32) : FVec Ideal S100000x16 .f32 :=
  Host.scatterAdd scatter_S100000x16_S3300000x1_S3300000x16_1_0_0_1
    (broadcastInDim S100000x16 ![] bcast_S_S100000x16 (constant (F := Ideal) S_ .f32 0x00000000#32)) (Cert.ReferenceIdeal.Stages.col cd)
    (mulf (F := Ideal) (Host.gather gather_S100000x16_S3300000x1_S3300000x16_1_0_n_n_0_1_116 h (Cert.ReferenceIdeal.Stages.col (Cert.ReferenceIdeal.Stages.wrap cs)))
      (broadcastInDim S3300000x16 ![0, 1] bcast_S3300000x1_S3300000x16_0_1 (broadcastInDim S3300000x1 ![0] bcast_S3300000_S3300000x1_0 n)))
/-- The 64-column aggregation over edges and loops, from the appended lists. -/
def agg64c (h : FVec Ideal S100000x64 .f32) (cs cd : IVec S3300000 32) (n : FVec Ideal S3300000 .f32) : FVec Ideal S100000x64 .f32 :=
  Host.scatterAdd scatter_S100000x64_S3300000x1_S3300000x64_1_0_0_1
    (broadcastInDim S100000x64 ![] bcast_S_S100000x64 (constant (F := Ideal) S_ .f32 0x00000000#32)) (Cert.ReferenceIdeal.Stages.col cd)
    (mulf (F := Ideal) (Host.gather gather_S100000x64_S3300000x1_S3300000x64_1_0_n_n_0_1_164 h (Cert.ReferenceIdeal.Stages.col (Cert.ReferenceIdeal.Stages.wrap cs)))
      (broadcastInDim S3300000x64 ![0, 1] bcast_S3300000x1_S3300000x64_0_1 (broadcastInDim S3300000x1 ![0] bcast_S3300000_S3300000x1_0 n)))

/-- An array shifted by one value per row. -/
def shiftBy (a : FVec Ideal S100000x64 .f32) (mx : FVec Ideal S100000 .f32) : FVec Ideal S100000x64 .f32 :=
  subf a (broadcastInDim S100000x64 ![0, 1] bcast_S100000x1_S100000x64_0_1 (broadcastInDim S100000x1 ![0] bcast_S100000_S100000x1_0 mx))
/-- The exponentials of an array. -/
def expOf (s : FVec Ideal S100000x64 .f32) : FVec Ideal S100000x64 .f32 := Host.exp s
/-- A shifted array less the logarithm of one value per row. -/
def lessLog (s : FVec Ideal S100000x64 .f32) (t : FVec Ideal S100000 .f32) : FVec Ideal S100000x64 .f32 :=
  subf s (broadcastInDim S100000x64 ![0, 1] bcast_S100000x1_S100000x64_0_1
    (Host.log (broadcastInDim S100000x1 ![0] bcast_S100000_S100000x1_0 t)))
/-- The rows' maxima, the reduction an arbitrary function. -/
def maxWith (R : FVec Ideal S100000x64 .f32 → FVec Ideal S_ .f32 → FVec Ideal S100000 .f32) (a : FVec Ideal S100000x64 .f32) : FVec Ideal S100000 .f32 :=
  maximumf (broadcastInDim S100000 ![] bcast_S_S100000 (constant (F := Ideal) S_ .f32 0xFF800000#32)) (R a (constant (F := Ideal) S_ .f32 0xFF800000#32))

/-! ## The buffer contents after each stretch -/

variable (m : (ℓ : Loc nD τ sig) → Buf (Elt Ideal) ℓ)

def U1 (c : Dev nD) : Valuation τ sig (Elt Ideal) := after opsA1 (launchContents m c)
def U2 (c : Dev nD) : Valuation τ sig (Elt Ideal) := after opsA2 (U1 m c)
def U3 (c : Dev nD) : Valuation τ sig (Elt Ideal) := after opsB1 (U2 m c)
def U4 (c : Dev nD) : Valuation τ sig (Elt Ideal) := after opsB2 (U3 m c)
def U5 (c : Dev nD) : Valuation τ sig (Elt Ideal) := after opsC1 (U4 m c)
def U6 (c : Dev nD) : Valuation τ sig (Elt Ideal) := after opsC2 (U5 m c)
def U7 (c : Dev nD) : Valuation τ sig (Elt Ideal) := after opsD1 (U6 m c)
def U8 (c : Dev nD) : Valuation τ sig (Elt Ideal) := after opsD2a (U7 m c)
def U9 (c : Dev nD) : Valuation τ sig (Elt Ideal) := after opsD2b (U8 m c)
def U10 (c : Dev nD) : Valuation τ sig (Elt Ideal) := after opsD2c (U9 m c)

theorem after_ops (c : Dev nD) : after ops (launchContents m c) = U10 m c := by
  rw [ops_split, after_append, after_append, after_append, after_append, after_append, after_append, after_append, after_append, after_append]
  rfl

/-! ### Stretch 1 -/

theorem opsA1_main_v1 (W : Valuation τ sig (Elt Ideal)) :
    after opsA1 W (Proc.devRef .tc main_v1) = Cert.KernelIdeal.Stages.src (W (Proc.devRef .tc main_arg1)) := by
  after_results
  all_goals rfl
theorem U1_main_v1 (c : Dev nD) : U1 m c (Proc.devRef .tc main_v1) = Cert.KernelIdeal.Stages.src (m ((c.tc : Thread nD τ).loc main_arg1)) := by
  refine (opsA1_main_v1 (launchContents m c)).trans ?_
  all_goals rfl
theorem opsA1_main_v3 (W : Valuation τ sig (Elt Ideal)) :
    after opsA1 W (Proc.devRef .tc main_v3) = Cert.KernelIdeal.Stages.dst (W (Proc.devRef .tc main_arg1)) := by
  after_results
  all_goals rfl
theorem U1_main_v3 (c : Dev nD) : U1 m c (Proc.devRef .tc main_v3) = Cert.KernelIdeal.Stages.dst (m ((c.tc : Thread nD τ).loc main_arg1)) := by
  refine (opsA1_main_v3 (launchContents m c)).trans ?_
  all_goals rfl
theorem opsA1_main_v4 (W : Valuation τ sig (Elt Ideal)) :
    after opsA1 W (Proc.devRef .tc main_v4) = Cert.ReferenceIdeal.DenseStages.h1 (W (Proc.devRef .tc main_arg0)) (W (Proc.devRef .tc main_arg2)) := by
  after_results
  all_goals rfl
theorem U1_main_v4 (c : Dev nD) : U1 m c (Proc.devRef .tc main_v4) = Cert.ReferenceIdeal.DenseStages.h1 (m ((c.tc : Thread nD τ).loc main_arg0)) (m ((c.tc : Thread nD τ).loc main_arg2)) := by
  refine (opsA1_main_v4 (launchContents m c)).trans ?_
  all_goals rfl
theorem opsA1_main_v6 (W : Valuation τ sig (Elt Ideal)) :
    after opsA1 W (Proc.devRef .tc main_v6) = Cert.ReferenceIdeal.Stages.cat (Cert.KernelIdeal.Stages.src (W (Proc.devRef .tc main_arg1))) := by
  after_results
  all_goals rfl
theorem U1_main_v6 (c : Dev nD) : U1 m c (Proc.devRef .tc main_v6) = (Cert.ReferenceIdeal.Stages.cat (Cert.KernelIdeal.Stages.src (m ((c.tc : Thread nD τ).loc main_arg1)))) := by
  refine (opsA1_main_v6 (launchContents m c)).trans ?_
  all_goals rfl
theorem opsA1_main_v7 (W : Valuation τ sig (Elt Ideal)) :
    after opsA1 W (Proc.devRef .tc main_v7) = Cert.ReferenceIdeal.Stages.cat (Cert.KernelIdeal.Stages.dst (W (Proc.devRef .tc main_arg1))) := by
  after_results
  all_goals rfl
theorem U1_main_v7 (c : Dev nD) : U1 m c (Proc.devRef .tc main_v7) = (Cert.ReferenceIdeal.Stages.cat (Cert.KernelIdeal.Stages.dst (m ((c.tc : Thread nD τ).loc main_arg1)))) := by
  refine (opsA1_main_v7 (launchContents m c)).trans ?_
  all_goals rfl
theorem opsA1_main_v13 (W : Valuation τ sig (Elt Ideal)) :
    after opsA1 W (Proc.devRef .tc main_v13) = cmpf (F := Ideal) .ogt (degc (Cert.ReferenceIdeal.Stages.cat (Cert.KernelIdeal.Stages.dst (W (Proc.devRef .tc main_arg1))))) (broadcastInDim S100000 ![] bcast_S_S100000 (constant (F := Ideal) S_ .f32 0x00000000#32)) := by
  after_results
  all_goals rfl
theorem U1_main_v13 (c : Dev nD) : U1 m c (Proc.devRef .tc main_v13) = cmpf (F := Ideal) .ogt (degc (Cert.ReferenceIdeal.Stages.cat (Cert.KernelIdeal.Stages.dst (m ((c.tc : Thread nD τ).loc main_arg1))))) (broadcastInDim S100000 ![] bcast_S_S100000 (constant (F := Ideal) S_ .f32 0x00000000#32)) := by
  refine (opsA1_main_v13 (launchContents m c)).trans ?_
  all_goals rfl
theorem opsA1_main_v14 (W : Valuation τ sig (Elt Ideal)) :
    after opsA1 W (Proc.devRef .tc main_v14) = Host.rsqrt (F := Ideal) (degc (Cert.ReferenceIdeal.Stages.cat (Cert.KernelIdeal.Stages.dst (W (Proc.devRef .tc main_arg1))))) := by
  after_results
  all_goals rfl
theorem U1_main_v14 (c : Dev nD) : U1 m c (Proc.devRef .tc main_v14) = Host.rsqrt (F := Ideal) (degc (Cert.ReferenceIdeal.Stages.cat (Cert.KernelIdeal.Stages.dst (m ((c.tc : Thread nD τ).loc main_arg1))))) := by
  refine (opsA1_main_v14 (launchContents m c)).trans ?_
  all_goals rfl
theorem opsA1_main_cst_2 (W : Valuation τ sig (Elt Ideal)) :
    after opsA1 W (Proc.devRef .tc main_cst_2) = (constant (F := Ideal) S_ .f32 0x00000000#32) := by
  after_results
  all_goals rfl
theorem U1_main_cst_2 (c : Dev nD) : U1 m c (Proc.devRef .tc main_cst_2) = (constant (F := Ideal) S_ .f32 0x00000000#32) := by
  refine (opsA1_main_cst_2 (launchContents m c)).trans ?_
  all_goals rfl
theorem opsA1_main_arg3 (W : Valuation τ sig (Elt Ideal)) : after opsA1 W (Proc.devRef .tc main_arg3) = W (Proc.devRef .tc main_arg3) := by
  after_results
  all_goals rfl
theorem U1_main_arg3 (c : Dev nD) : U1 m c (Proc.devRef .tc main_arg3) = m ((c.tc : Thread nD τ).loc main_arg3) :=
  (opsA1_main_arg3 (launchContents m c)).trans rfl
theorem opsA1_main_arg4 (W : Valuation τ sig (Elt Ideal)) : after opsA1 W (Proc.devRef .tc main_arg4) = W (Proc.devRef .tc main_arg4) := by
  after_results
  all_goals rfl
theorem U1_main_arg4 (c : Dev nD) : U1 m c (Proc.devRef .tc main_arg4) = m ((c.tc : Thread nD τ).loc main_arg4) :=
  (opsA1_main_arg4 (launchContents m c)).trans rfl
theorem opsA1_main_arg5 (W : Valuation τ sig (Elt Ideal)) : after opsA1 W (Proc.devRef .tc main_arg5) = W (Proc.devRef .tc main_arg5) := by
  after_results
  all_goals rfl
theorem U1_main_arg5 (c : Dev nD) : U1 m c (Proc.devRef .tc main_arg5) = m ((c.tc : Thread nD τ).loc main_arg5) :=
  (opsA1_main_arg5 (launchContents m c)).trans rfl

/-! ### Stretch 2 -/

theorem opsA2_main_v15 (W : Valuation τ sig (Elt Ideal)) :
    after opsA2 W (Proc.devRef .tc main_v15) = select (W (Proc.devRef .tc main_v13)) (W (Proc.devRef .tc main_v14)) (broadcastInDim S100000 ![] bcast_S_S100000 (id (W (Proc.devRef .tc main_cst_2)))) := by
  after_results
  all_goals rfl
theorem U2_main_v15 (c : Dev nD) : U2 m c (Proc.devRef .tc main_v15) = (Cert.KernelIdeal.Stages.dinvOf (degc (Cert.ReferenceIdeal.Stages.cat (Cert.KernelIdeal.Stages.dst (m ((c.tc : Thread nD τ).loc main_arg1)))))) := by
  refine (opsA2_main_v15 (U1 m c)).trans ?_
  rw [U1_main_v13 m c, U1_main_v14 m c, U1_main_cst_2 m c]
  all_goals rfl
theorem opsA2_main_v1 (W : Valuation τ sig (Elt Ideal)) : after opsA2 W (Proc.devRef .tc main_v1) = W (Proc.devRef .tc main_v1) := by
  after_results
  all_goals rfl
theorem U2_main_v1 (c : Dev nD) : U2 m c (Proc.devRef .tc main_v1) = Cert.KernelIdeal.Stages.src (m ((c.tc : Thread nD τ).loc main_arg1)) :=
  (opsA2_main_v1 (U1 m c)).trans (U1_main_v1 m c)
theorem opsA2_main_v3 (W : Valuation τ sig (Elt Ideal)) : after opsA2 W (Proc.devRef .tc main_v3) = W (Proc.devRef .tc main_v3) := by
  after_results
  all_goals rfl
theorem U2_main_v3 (c : Dev nD) : U2 m c (Proc.devRef .tc main_v3) = Cert.KernelIdeal.Stages.dst (m ((c.tc : Thread nD τ).loc main_arg1)) :=
  (opsA2_main_v3 (U1 m c)).trans (U1_main_v3 m c)
theorem opsA2_main_v4 (W : Valuation τ sig (Elt Ideal)) : after opsA2 W (Proc.devRef .tc main_v4) = W (Proc.devRef .tc main_v4) := by
  after_results
  all_goals rfl
theorem U2_main_v4 (c : Dev nD) : U2 m c (Proc.devRef .tc main_v4) = Cert.ReferenceIdeal.DenseStages.h1 (m ((c.tc : Thread nD τ).loc main_arg0)) (m ((c.tc : Thread nD τ).loc main_arg2)) :=
  (opsA2_main_v4 (U1 m c)).trans (U1_main_v4 m c)
theorem opsA2_main_v6 (W : Valuation τ sig (Elt Ideal)) : after opsA2 W (Proc.devRef .tc main_v6) = W (Proc.devRef .tc main_v6) := by
  after_results
  all_goals rfl
theorem U2_main_v6 (c : Dev nD) : U2 m c (Proc.devRef .tc main_v6) = (Cert.ReferenceIdeal.Stages.cat (Cert.KernelIdeal.Stages.src (m ((c.tc : Thread nD τ).loc main_arg1)))) :=
  (opsA2_main_v6 (U1 m c)).trans (U1_main_v6 m c)
theorem opsA2_main_v7 (W : Valuation τ sig (Elt Ideal)) : after opsA2 W (Proc.devRef .tc main_v7) = W (Proc.devRef .tc main_v7) := by
  after_results
  all_goals rfl
theorem U2_main_v7 (c : Dev nD) : U2 m c (Proc.devRef .tc main_v7) = (Cert.ReferenceIdeal.Stages.cat (Cert.KernelIdeal.Stages.dst (m ((c.tc : Thread nD τ).loc main_arg1)))) :=
  (opsA2_main_v7 (U1 m c)).trans (U1_main_v7 m c)
theorem opsA2_main_arg3 (W : Valuation τ sig (Elt Ideal)) : after opsA2 W (Proc.devRef .tc main_arg3) = W (Proc.devRef .tc main_arg3) := by
  after_results
  all_goals rfl
theorem U2_main_arg3 (c : Dev nD) : U2 m c (Proc.devRef .tc main_arg3) = m ((c.tc : Thread nD τ).loc main_arg3) :=
  (opsA2_main_arg3 (U1 m c)).trans (U1_main_arg3 m c)
theorem opsA2_main_arg4 (W : Valuation τ sig (Elt Ideal)) : after opsA2 W (Proc.devRef .tc main_arg4) = W (Proc.devRef .tc main_arg4) := by
  after_results
  all_goals rfl
theorem U2_main_arg4 (c : Dev nD) : U2 m c (Proc.devRef .tc main_arg4) = m ((c.tc : Thread nD τ).loc main_arg4) :=
  (opsA2_main_arg4 (U1 m c)).trans (U1_main_arg4 m c)
theorem opsA2_main_arg5 (W : Valuation τ sig (Elt Ideal)) : after opsA2 W (Proc.devRef .tc main_arg5) = W (Proc.devRef .tc main_arg5) := by
  after_results
  all_goals rfl
theorem U2_main_arg5 (c : Dev nD) : U2 m c (Proc.devRef .tc main_arg5) = m ((c.tc : Thread nD τ).loc main_arg5) :=
  (opsA2_main_arg5 (U1 m c)).trans (U1_main_arg5 m c)

/-! ### Stretch 3 -/

set_option maxHeartbeats 8000000 in
theorem opsB1_main_v46 (W : Valuation τ sig (Elt Ideal)) :
    after opsB1 W (Proc.devRef .tc main_v46) = addf (F := Ideal) (agg16c (W (Proc.devRef .tc main_v4)) (W (Proc.devRef .tc main_v6)) (W (Proc.devRef .tc main_v7)) (normc (W (Proc.devRef .tc main_v15)) (W (Proc.devRef .tc main_v6)) (W (Proc.devRef .tc main_v7)))) (broadcastInDim S100000x16 ![0, 1] bcast_S1x16_S100000x16_0_1 (broadcastInDim S1x16 ![1] bcast_S16_S1x16_1 (W (Proc.devRef .tc main_arg3)))) := by
  after_results_simp
  all_goals rfl
theorem U3_main_v46 (c : Dev nD) : U3 m c (Proc.devRef .tc main_v46) = addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3)))) := by
  refine (opsB1_main_v46 (U2 m c)).trans ?_
  rw [U2_main_v4 m c, U2_main_v6 m c, U2_main_v7 m c, U2_main_v15 m c, U2_main_arg3 m c]
  all_goals rfl
set_option maxHeartbeats 8000000 in
theorem opsB1_main_v1 (W : Valuation τ sig (Elt Ideal)) : after opsB1 W (Proc.devRef .tc main_v1) = W (Proc.devRef .tc main_v1) := by
  after_results_simp
  all_goals rfl
theorem U3_main_v1 (c : Dev nD) : U3 m c (Proc.devRef .tc main_v1) = Cert.KernelIdeal.Stages.src (m ((c.tc : Thread nD τ).loc main_arg1)) :=
  (opsB1_main_v1 (U2 m c)).trans (U2_main_v1 m c)
set_option maxHeartbeats 8000000 in
theorem opsB1_main_v3 (W : Valuation τ sig (Elt Ideal)) : after opsB1 W (Proc.devRef .tc main_v3) = W (Proc.devRef .tc main_v3) := by
  after_results_simp
  all_goals rfl
theorem U3_main_v3 (c : Dev nD) : U3 m c (Proc.devRef .tc main_v3) = Cert.KernelIdeal.Stages.dst (m ((c.tc : Thread nD τ).loc main_arg1)) :=
  (opsB1_main_v3 (U2 m c)).trans (U2_main_v3 m c)
set_option maxHeartbeats 8000000 in
theorem opsB1_main_arg4 (W : Valuation τ sig (Elt Ideal)) : after opsB1 W (Proc.devRef .tc main_arg4) = W (Proc.devRef .tc main_arg4) := by
  after_results_simp
  all_goals rfl
theorem U3_main_arg4 (c : Dev nD) : U3 m c (Proc.devRef .tc main_arg4) = m ((c.tc : Thread nD τ).loc main_arg4) :=
  (opsB1_main_arg4 (U2 m c)).trans (U2_main_arg4 m c)
set_option maxHeartbeats 8000000 in
theorem opsB1_main_arg5 (W : Valuation τ sig (Elt Ideal)) : after opsB1 W (Proc.devRef .tc main_arg5) = W (Proc.devRef .tc main_arg5) := by
  after_results_simp
  all_goals rfl
theorem U3_main_arg5 (c : Dev nD) : U3 m c (Proc.devRef .tc main_arg5) = m ((c.tc : Thread nD τ).loc main_arg5) :=
  (opsB1_main_arg5 (U2 m c)).trans (U2_main_arg5 m c)

/-! ### Stretch 4 -/

theorem opsB2_main_v47 (W : Valuation τ sig (Elt Ideal)) :
    after opsB2 W (Proc.devRef .tc main_v47) = maximumf (F := Ideal) (W (Proc.devRef .tc main_v46)) (broadcastInDim S100000x16 ![] bcast_S_S100000x16 (constant (F := Ideal) S_ .f32 0x00000000#32)) := by
  after_results
  all_goals rfl
theorem U4_main_v47 (c : Dev nD) : U4 m c (Proc.devRef .tc main_v47) = maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32)) := by
  refine (opsB2_main_v47 (U3 m c)).trans ?_
  rw [U3_main_v46 m c]
  all_goals rfl
theorem opsB2_main_v1 (W : Valuation τ sig (Elt Ideal)) : after opsB2 W (Proc.devRef .tc main_v1) = W (Proc.devRef .tc main_v1) := by
  after_results
  all_goals rfl
theorem U4_main_v1 (c : Dev nD) : U4 m c (Proc.devRef .tc main_v1) = Cert.KernelIdeal.Stages.src (m ((c.tc : Thread nD τ).loc main_arg1)) :=
  (opsB2_main_v1 (U3 m c)).trans (U3_main_v1 m c)
theorem opsB2_main_v3 (W : Valuation τ sig (Elt Ideal)) : after opsB2 W (Proc.devRef .tc main_v3) = W (Proc.devRef .tc main_v3) := by
  after_results
  all_goals rfl
theorem U4_main_v3 (c : Dev nD) : U4 m c (Proc.devRef .tc main_v3) = Cert.KernelIdeal.Stages.dst (m ((c.tc : Thread nD τ).loc main_arg1)) :=
  (opsB2_main_v3 (U3 m c)).trans (U3_main_v3 m c)
theorem opsB2_main_arg4 (W : Valuation τ sig (Elt Ideal)) : after opsB2 W (Proc.devRef .tc main_arg4) = W (Proc.devRef .tc main_arg4) := by
  after_results
  all_goals rfl
theorem U4_main_arg4 (c : Dev nD) : U4 m c (Proc.devRef .tc main_arg4) = m ((c.tc : Thread nD τ).loc main_arg4) :=
  (opsB2_main_arg4 (U3 m c)).trans (U3_main_arg4 m c)
theorem opsB2_main_arg5 (W : Valuation τ sig (Elt Ideal)) : after opsB2 W (Proc.devRef .tc main_arg5) = W (Proc.devRef .tc main_arg5) := by
  after_results
  all_goals rfl
theorem U4_main_arg5 (c : Dev nD) : U4 m c (Proc.devRef .tc main_arg5) = m ((c.tc : Thread nD τ).loc main_arg5) :=
  (opsB2_main_arg5 (U3 m c)).trans (U3_main_arg5 m c)

/-! ### Stretch 5 -/

theorem opsC1_main_v48 (W : Valuation τ sig (Elt Ideal)) :
    after opsC1 W (Proc.devRef .tc main_v48) = Cert.ReferenceIdeal.DenseStages.h2 (W (Proc.devRef .tc main_v47)) (W (Proc.devRef .tc main_arg4)) := by
  after_results
  all_goals rfl
theorem U5_main_v48 (c : Dev nD) : U5 m c (Proc.devRef .tc main_v48) = Cert.ReferenceIdeal.DenseStages.h2 (maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32))) (m ((c.tc : Thread nD τ).loc main_arg4)) := by
  refine (opsC1_main_v48 (U4 m c)).trans ?_
  rw [U4_main_v47 m c, U4_main_arg4 m c]
  all_goals rfl
theorem opsC1_main_v50 (W : Valuation τ sig (Elt Ideal)) :
    after opsC1 W (Proc.devRef .tc main_v50) = Cert.ReferenceIdeal.Stages.cat (W (Proc.devRef .tc main_v1)) := by
  after_results
  all_goals rfl
theorem U5_main_v50 (c : Dev nD) : U5 m c (Proc.devRef .tc main_v50) = (Cert.ReferenceIdeal.Stages.cat (Cert.KernelIdeal.Stages.src (m ((c.tc : Thread nD τ).loc main_arg1)))) := by
  refine (opsC1_main_v50 (U4 m c)).trans ?_
  rw [U4_main_v1 m c]
  all_goals rfl
theorem opsC1_main_v51 (W : Valuation τ sig (Elt Ideal)) :
    after opsC1 W (Proc.devRef .tc main_v51) = Cert.ReferenceIdeal.Stages.cat (W (Proc.devRef .tc main_v3)) := by
  after_results
  all_goals rfl
theorem U5_main_v51 (c : Dev nD) : U5 m c (Proc.devRef .tc main_v51) = (Cert.ReferenceIdeal.Stages.cat (Cert.KernelIdeal.Stages.dst (m ((c.tc : Thread nD τ).loc main_arg1)))) := by
  refine (opsC1_main_v51 (U4 m c)).trans ?_
  rw [U4_main_v3 m c]
  all_goals rfl
theorem opsC1_main_v57 (W : Valuation τ sig (Elt Ideal)) :
    after opsC1 W (Proc.devRef .tc main_v57) = cmpf (F := Ideal) .ogt (degc (Cert.ReferenceIdeal.Stages.cat (W (Proc.devRef .tc main_v3)))) (broadcastInDim S100000 ![] bcast_S_S100000 (constant (F := Ideal) S_ .f32 0x00000000#32)) := by
  after_results
  all_goals rfl
theorem U5_main_v57 (c : Dev nD) : U5 m c (Proc.devRef .tc main_v57) = cmpf (F := Ideal) .ogt (degc (Cert.ReferenceIdeal.Stages.cat (Cert.KernelIdeal.Stages.dst (m ((c.tc : Thread nD τ).loc main_arg1))))) (broadcastInDim S100000 ![] bcast_S_S100000 (constant (F := Ideal) S_ .f32 0x00000000#32)) := by
  refine (opsC1_main_v57 (U4 m c)).trans ?_
  rw [U4_main_v3 m c]
  all_goals rfl
theorem opsC1_main_v58 (W : Valuation τ sig (Elt Ideal)) :
    after opsC1 W (Proc.devRef .tc main_v58) = Host.rsqrt (F := Ideal) (degc (Cert.ReferenceIdeal.Stages.cat (W (Proc.devRef .tc main_v3)))) := by
  after_results
  all_goals rfl
theorem U5_main_v58 (c : Dev nD) : U5 m c (Proc.devRef .tc main_v58) = Host.rsqrt (F := Ideal) (degc (Cert.ReferenceIdeal.Stages.cat (Cert.KernelIdeal.Stages.dst (m ((c.tc : Thread nD τ).loc main_arg1))))) := by
  refine (opsC1_main_v58 (U4 m c)).trans ?_
  rw [U4_main_v3 m c]
  all_goals rfl
theorem opsC1_main_cst_12 (W : Valuation τ sig (Elt Ideal)) :
    after opsC1 W (Proc.devRef .tc main_cst_12) = (constant (F := Ideal) S_ .f32 0x00000000#32) := by
  after_results
  all_goals rfl
theorem U5_main_cst_12 (c : Dev nD) : U5 m c (Proc.devRef .tc main_cst_12) = (constant (F := Ideal) S_ .f32 0x00000000#32) := by
  refine (opsC1_main_cst_12 (U4 m c)).trans ?_
  all_goals rfl
theorem opsC1_main_arg5 (W : Valuation τ sig (Elt Ideal)) : after opsC1 W (Proc.devRef .tc main_arg5) = W (Proc.devRef .tc main_arg5) := by
  after_results
  all_goals rfl
theorem U5_main_arg5 (c : Dev nD) : U5 m c (Proc.devRef .tc main_arg5) = m ((c.tc : Thread nD τ).loc main_arg5) :=
  (opsC1_main_arg5 (U4 m c)).trans (U4_main_arg5 m c)

/-! ### Stretch 6 -/

theorem opsC2_main_v59 (W : Valuation τ sig (Elt Ideal)) :
    after opsC2 W (Proc.devRef .tc main_v59) = select (W (Proc.devRef .tc main_v57)) (W (Proc.devRef .tc main_v58)) (broadcastInDim S100000 ![] bcast_S_S100000 (id (W (Proc.devRef .tc main_cst_12)))) := by
  after_results
  all_goals rfl
theorem U6_main_v59 (c : Dev nD) : U6 m c (Proc.devRef .tc main_v59) = (Cert.KernelIdeal.Stages.dinvOf (degc (Cert.ReferenceIdeal.Stages.cat (Cert.KernelIdeal.Stages.dst (m ((c.tc : Thread nD τ).loc main_arg1)))))) := by
  refine (opsC2_main_v59 (U5 m c)).trans ?_
  rw [U5_main_v57 m c, U5_main_v58 m c, U5_main_cst_12 m c]
  all_goals rfl
theorem opsC2_main_v48 (W : Valuation τ sig (Elt Ideal)) : after opsC2 W (Proc.devRef .tc main_v48) = W (Proc.devRef .tc main_v48) := by
  after_results
  all_goals rfl
theorem U6_main_v48 (c : Dev nD) : U6 m c (Proc.devRef .tc main_v48) = Cert.ReferenceIdeal.DenseStages.h2 (maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32))) (m ((c.tc : Thread nD τ).loc main_arg4)) :=
  (opsC2_main_v48 (U5 m c)).trans (U5_main_v48 m c)
theorem opsC2_main_v50 (W : Valuation τ sig (Elt Ideal)) : after opsC2 W (Proc.devRef .tc main_v50) = W (Proc.devRef .tc main_v50) := by
  after_results
  all_goals rfl
theorem U6_main_v50 (c : Dev nD) : U6 m c (Proc.devRef .tc main_v50) = (Cert.ReferenceIdeal.Stages.cat (Cert.KernelIdeal.Stages.src (m ((c.tc : Thread nD τ).loc main_arg1)))) :=
  (opsC2_main_v50 (U5 m c)).trans (U5_main_v50 m c)
theorem opsC2_main_v51 (W : Valuation τ sig (Elt Ideal)) : after opsC2 W (Proc.devRef .tc main_v51) = W (Proc.devRef .tc main_v51) := by
  after_results
  all_goals rfl
theorem U6_main_v51 (c : Dev nD) : U6 m c (Proc.devRef .tc main_v51) = (Cert.ReferenceIdeal.Stages.cat (Cert.KernelIdeal.Stages.dst (m ((c.tc : Thread nD τ).loc main_arg1)))) :=
  (opsC2_main_v51 (U5 m c)).trans (U5_main_v51 m c)
theorem opsC2_main_arg5 (W : Valuation τ sig (Elt Ideal)) : after opsC2 W (Proc.devRef .tc main_arg5) = W (Proc.devRef .tc main_arg5) := by
  after_results
  all_goals rfl
theorem U6_main_arg5 (c : Dev nD) : U6 m c (Proc.devRef .tc main_arg5) = m ((c.tc : Thread nD τ).loc main_arg5) :=
  (opsC2_main_arg5 (U5 m c)).trans (U5_main_arg5 m c)

/-! ### Stretch 7 -/

set_option maxHeartbeats 8000000 in
theorem opsD1_main_v90 (W : Valuation τ sig (Elt Ideal)) :
    after opsD1 W (Proc.devRef .tc main_v90) = Cert.ReferenceIdeal.DenseStages.pre (agg64c (W (Proc.devRef .tc main_v48)) (W (Proc.devRef .tc main_v50)) (W (Proc.devRef .tc main_v51)) (normc (W (Proc.devRef .tc main_v59)) (W (Proc.devRef .tc main_v50)) (W (Proc.devRef .tc main_v51)))) (W (Proc.devRef .tc main_arg5)) := by
  after_results_simp
  all_goals rfl
theorem U7_main_v90 (c : Dev nD) : U7 m c (Proc.devRef .tc main_v90) = Cert.ReferenceIdeal.DenseStages.pre (agg64c (Cert.ReferenceIdeal.DenseStages.h2 (maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32))) (m ((c.tc : Thread nD τ).loc main_arg4))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (m ((c.tc : Thread nD τ).loc main_arg5)) := by
  refine (opsD1_main_v90 (U6 m c)).trans ?_
  rw [U6_main_v48 m c, U6_main_v50 m c, U6_main_v51 m c, U6_main_v59 m c, U6_main_arg5 m c]
  all_goals rfl

/-! ### Stretch 8 -/

theorem opsD2aP_main_call3_v2 (R : FVec Ideal S100000x64 .f32 → FVec Ideal S_ .f32 → FVec Ideal S100000 .f32) (W : Valuation τ sig (Elt Ideal)) :
    after (opsD2aP R) W (Proc.devRef .tc main_call3_v2) = maxWith R (W (Proc.devRef .tc main_v90)) := by
  after_results
  all_goals rfl
theorem opsD2a_main_call3_v2 (W : Valuation τ sig (Elt Ideal)) :
    after opsD2a W (Proc.devRef .tc main_call3_v2) = Cert.ReferenceIdeal.DenseStages.mxH (W (Proc.devRef .tc main_v90)) := by
  rw [opsD2a_eq]
  exact (opsD2aP_main_call3_v2 _ W).trans rfl
theorem U8_main_call3_v2 (c : Dev nD) : U8 m c (Proc.devRef .tc main_call3_v2) = (Cert.ReferenceIdeal.DenseStages.mxH (Cert.ReferenceIdeal.DenseStages.pre (agg64c (Cert.ReferenceIdeal.DenseStages.h2 (maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32))) (m ((c.tc : Thread nD τ).loc main_arg4))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (m ((c.tc : Thread nD τ).loc main_arg5)))) := by
  refine (opsD2a_main_call3_v2 (U7 m c)).trans ?_
  rw [U7_main_v90 m c]
theorem opsD2a_main_v90 (W : Valuation τ sig (Elt Ideal)) : after opsD2a W (Proc.devRef .tc main_v90) = W (Proc.devRef .tc main_v90) := by
  after_results
  all_goals rfl
theorem U8_main_v90 (c : Dev nD) : U8 m c (Proc.devRef .tc main_v90) = Cert.ReferenceIdeal.DenseStages.pre (agg64c (Cert.ReferenceIdeal.DenseStages.h2 (maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32))) (m ((c.tc : Thread nD τ).loc main_arg4))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (m ((c.tc : Thread nD τ).loc main_arg5)) :=
  (opsD2a_main_v90 (U7 m c)).trans (U7_main_v90 m c)

/-! ### Stretch 9 -/

theorem opsD2b_main_call3_v5 (W : Valuation τ sig (Elt Ideal)) :
    after opsD2b W (Proc.devRef .tc main_call3_v5) = shiftBy (W (Proc.devRef .tc main_v90)) (W (Proc.devRef .tc main_call3_v2)) := by
  after_results
  all_goals rfl
theorem opsD2b_main_call3_v6 (W : Valuation τ sig (Elt Ideal)) :
    after opsD2b W (Proc.devRef .tc main_call3_v6) = expOf (shiftBy (W (Proc.devRef .tc main_v90)) (W (Proc.devRef .tc main_call3_v2))) := by
  after_results
  all_goals rfl
theorem U9_main_call3_v5 (c : Dev nD) : U9 m c (Proc.devRef .tc main_call3_v5) = (Cert.ReferenceIdeal.DenseStages.shH (Cert.ReferenceIdeal.DenseStages.pre (agg64c (Cert.ReferenceIdeal.DenseStages.h2 (maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32))) (m ((c.tc : Thread nD τ).loc main_arg4))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (m ((c.tc : Thread nD τ).loc main_arg5)))) := by
  refine (opsD2b_main_call3_v5 (U8 m c)).trans ?_
  rw [U8_main_v90 m c, U8_main_call3_v2 m c]
  rfl
theorem U9_main_call3_v6 (c : Dev nD) : U9 m c (Proc.devRef .tc main_call3_v6) = expOf (Cert.ReferenceIdeal.DenseStages.shH (Cert.ReferenceIdeal.DenseStages.pre (agg64c (Cert.ReferenceIdeal.DenseStages.h2 (maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32))) (m ((c.tc : Thread nD τ).loc main_arg4))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (m ((c.tc : Thread nD τ).loc main_arg5)))) := by
  refine (opsD2b_main_call3_v6 (U8 m c)).trans ?_
  rw [U8_main_v90 m c, U8_main_call3_v2 m c]
  rfl

/-! ### Stretch 10 -/

theorem opsD2cP_main_v91 (R : FVec Ideal S100000x64 .f32 → FVec Ideal S_ .f32 → FVec Ideal S100000 .f32) (W : Valuation τ sig (Elt Ideal)) :
    after (opsD2cP R) W (Proc.devRef .tc main_v91)
      = lessLog (W (Proc.devRef .tc main_call3_v5)) (R (W (Proc.devRef .tc main_call3_v6)) (constant (F := Ideal) S_ .f32 0x00000000#32)) := by
  after_results
  all_goals rfl
theorem opsD2c_main_v91 (W : Valuation τ sig (Elt Ideal)) :
    after opsD2c W (Proc.devRef .tc main_v91)
      = lessLog (W (Proc.devRef .tc main_call3_v5)) (Host.reduceAdd (W (Proc.devRef .tc main_call3_v6)) (constant (F := Ideal) S_ .f32 0x00000000#32) reducesTo_S100000x64_S100000_d1 h_S_) := by
  rw [opsD2c_eq]
  exact (opsD2cP_main_v91 _ W).trans rfl
theorem U10_main_v91 (c : Dev nD) : U10 m c (Proc.devRef .tc main_v91) = Cert.ReferenceIdeal.DenseStages.lsm (Cert.ReferenceIdeal.DenseStages.pre (agg64c (Cert.ReferenceIdeal.DenseStages.h2 (maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32))) (m ((c.tc : Thread nD τ).loc main_arg4))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (m ((c.tc : Thread nD τ).loc main_arg5))) := by
  refine (opsD2c_main_v91 (U9 m c)).trans ?_
  rw [U9_main_call3_v5 m c, U9_main_call3_v6 m c]
  rfl

/-! ## The chain of stages is the value function -/

/-- The chain over the appended lists is the chain over the edge lists. -/
theorem chain_named (c : Dev nD) : Cert.ReferenceIdeal.DenseStages.lsm (Cert.ReferenceIdeal.DenseStages.pre (agg64c (Cert.ReferenceIdeal.DenseStages.h2 (maximumf (F := Ideal) (addf (F := Ideal) (agg16c (Cert.ReferenceIdeal.DenseStages.h1 (m ((c.tc : Thread nD τ).loc main_arg0)) (m ((c.tc : Thread nD τ).loc main_arg2))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant (F := Ideal) S_ .f32 0x00000000#32))) (m ((c.tc : Thread nD τ).loc main_arg4))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))) (normc (Cert.KernelIdeal.Stages.dinvOf (degc (Cert.ReferenceIdeal.Stages.cat (Cert.KernelIdeal.Stages.dst (m ((c.tc : Thread nD τ).loc main_arg1)))))) (Cert.ReferenceIdeal.Stages.cat (Cert.KernelIdeal.Stages.src (m ((c.tc : Thread nD τ).loc main_arg1)))) (Cert.ReferenceIdeal.Stages.cat (Cert.KernelIdeal.Stages.dst (m ((c.tc : Thread nD τ).loc main_arg1)))))) (m ((c.tc : Thread nD τ).loc main_arg5))) = Cert.ReferenceIdeal.DenseStages.lsm (Cert.ReferenceIdeal.DenseStages.pre (Cert.ReferenceIdeal.Stages.agg64 (Cert.ReferenceIdeal.DenseStages.h2 (Cert.ReferenceIdeal.DenseStages.act (Cert.ReferenceIdeal.Stages.agg16 (Cert.ReferenceIdeal.DenseStages.h1 (m ((c.tc : Thread nD τ).loc main_arg0)) (m ((c.tc : Thread nD τ).loc main_arg2))) (Cert.KernelIdeal.Stages.src (m ((c.tc : Thread nD τ).loc main_arg1))) (Cert.KernelIdeal.Stages.dst (m ((c.tc : Thread nD τ).loc main_arg1))) (Cert.ReferenceIdeal.Stages.norm (Cert.KernelIdeal.Stages.dinvOf (Cert.ReferenceIdeal.Stages.deg (Cert.KernelIdeal.Stages.dst (m ((c.tc : Thread nD τ).loc main_arg1))))) (Cert.KernelIdeal.Stages.src (m ((c.tc : Thread nD τ).loc main_arg1))) (Cert.KernelIdeal.Stages.dst (m ((c.tc : Thread nD τ).loc main_arg1))))) (m ((c.tc : Thread nD τ).loc main_arg3))) (m ((c.tc : Thread nD τ).loc main_arg4))) (Cert.KernelIdeal.Stages.src (m ((c.tc : Thread nD τ).loc main_arg1))) (Cert.KernelIdeal.Stages.dst (m ((c.tc : Thread nD τ).loc main_arg1))) (Cert.ReferenceIdeal.Stages.norm (Cert.KernelIdeal.Stages.dinvOf (Cert.ReferenceIdeal.Stages.deg (Cert.KernelIdeal.Stages.dst (m ((c.tc : Thread nD τ).loc main_arg1))))) (Cert.KernelIdeal.Stages.src (m ((c.tc : Thread nD τ).loc main_arg1))) (Cert.KernelIdeal.Stages.dst (m ((c.tc : Thread nD τ).loc main_arg1))))) (m ((c.tc : Thread nD τ).loc main_arg5))) := rfl

/-- The reference's chain of stages of the six arguments is the value function. -/
theorem chain_eq (c : Dev nD) : Cert.ReferenceIdeal.DenseStages.lsm (Cert.ReferenceIdeal.DenseStages.pre (Cert.ReferenceIdeal.Stages.agg64 (Cert.ReferenceIdeal.DenseStages.h2 (Cert.ReferenceIdeal.DenseStages.act (Cert.ReferenceIdeal.Stages.agg16 (Cert.ReferenceIdeal.DenseStages.h1 (m ((c.tc : Thread nD τ).loc main_arg0)) (m ((c.tc : Thread nD τ).loc main_arg2))) (Cert.KernelIdeal.Stages.src (m ((c.tc : Thread nD τ).loc main_arg1))) (Cert.KernelIdeal.Stages.dst (m ((c.tc : Thread nD τ).loc main_arg1))) (Cert.ReferenceIdeal.Stages.norm (Cert.KernelIdeal.Stages.dinvOf (Cert.ReferenceIdeal.Stages.deg (Cert.KernelIdeal.Stages.dst (m ((c.tc : Thread nD τ).loc main_arg1))))) (Cert.KernelIdeal.Stages.src (m ((c.tc : Thread nD τ).loc main_arg1))) (Cert.KernelIdeal.Stages.dst (m ((c.tc : Thread nD τ).loc main_arg1))))) (m ((c.tc : Thread nD τ).loc main_arg3))) (m ((c.tc : Thread nD τ).loc main_arg4))) (Cert.KernelIdeal.Stages.src (m ((c.tc : Thread nD τ).loc main_arg1))) (Cert.KernelIdeal.Stages.dst (m ((c.tc : Thread nD τ).loc main_arg1))) (Cert.ReferenceIdeal.Stages.norm (Cert.KernelIdeal.Stages.dinvOf (Cert.ReferenceIdeal.Stages.deg (Cert.KernelIdeal.Stages.dst (m ((c.tc : Thread nD τ).loc main_arg1))))) (Cert.KernelIdeal.Stages.src (m ((c.tc : Thread nD τ).loc main_arg1))) (Cert.KernelIdeal.Stages.dst (m ((c.tc : Thread nD τ).loc main_arg1))))) (m ((c.tc : Thread nD τ).loc main_arg5)))
    = Cert.Value.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [Cert.AggLaw.deg_eq, Cert.AggLaw.agg16_eq, Cert.ReferenceIdeal.DenseStages.h1_eq, Cert.ReferenceIdeal.DenseStages.act_eq, Cert.ReferenceIdeal.DenseStages.h2_eq, Cert.AggLaw.agg64_eq, Cert.ReferenceIdeal.DenseStages.lsm_pre_eq]
  rfl

/-- The result buffer's fold through the 134 operations is the value function of the arguments. -/
theorem value (c : Dev nD) : after ops (launchContents m c) (Proc.devRef .tc main_v91)
    = Cert.Value.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops, U10_main_v91]
  exact (chain_named m c).trans (chain_eq m c)

/-! ## The run -/

set_option maxRecDepth 65536 in
set_option maxHeartbeats 53600000 in
/-- Every weakly fair execution of the reference's @main terminates without a fault, the result buffer at the value
    function of the six arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v91) = Cert.Value.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HandRun

end
-- ==== Proof.lean ====
/-
  A two-layer graph convolution with symmetric normalization, then a row-wise log-softmax: kernel against reference.

  Both programs compute, from node features x [100000, 512], an edge list [2, 3200000], weights W1 [512, 16], W2 [16, 64] and
  biases b1, b2:   out1 = A (x · W1),   out2 = A (max (out1 + b1, 0) · W2),   result = log-softmax of the rows of out2 + b2,
  where A is the aggregation over the graph with one loop added per node and weights dinv(source) · dinv(destination),
  dinv the inverse root of the in-degree (loop counted) where it is positive and zero elsewhere.

  The kernel program computes the two matrix products and the log-softmax in three tiled regions — each region's result
  array is, block by block, one whole-array function of the arrays it was entered with (the products over row blocks of
  5000 and 10000 rows, the log-softmax row by row) — and the aggregation on the host: a scatter-add over the 3200000 edges
  plus each node's own row times dinv squared. The reference appends the 100000 loops to the edge list and scatters over
  all 3300000 entries, and counts the degree the same way. The two agree on the extended reals because a sum over edges and
  loops is the sum over the edges plus the loop's one term (the loop k lands on node k only, reads row k, and carries the
  weight dinv k · dinv k), and only commutativity and associativity of + and · are used: no finiteness of the inputs is
  needed, and out-of-range endpoints are treated alike by both programs (dropped by the scatter, clamped by the gather).
  The matrix products are the same sums over the contracted axis; the positive part, the maxima (from −∞), the exponentials,
  the logarithm and the subtractions are the same operations entry by entry.

  The three frame claims: the two kernel programs by their region-by-region frames, the reference by its run. The
  idealization rewrote no operation, so its claim is trivial.
-/
import proofs.«125250_j10754598109885_2_alg».proof.Defs
import proofs.«125250_j10754598109885_2_alg».proof.Proof.Gen.Kernel
import proofs.«125250_j10754598109885_2_alg».proof.Proof.Gen.Kernel.Skeleton
import proofs.«125250_j10754598109885_2_alg».proof.Proof.Gen.Kernel.Launch
import proofs.«125250_j10754598109885_2_alg».proof.Proof.Gen.Kernel.Points
import proofs.«125250_j10754598109885_2_alg».proof.Proof.Gen.Kernel.Frame
import proofs.«125250_j10754598109885_2_alg».proof.Proof.Gen.KernelIdeal
import proofs.«125250_j10754598109885_2_alg».proof.Proof.Gen.KernelIdeal.Skeleton
import proofs.«125250_j10754598109885_2_alg».proof.Proof.Gen.KernelIdeal.Launch
import proofs.«125250_j10754598109885_2_alg».proof.Proof.Gen.KernelIdeal.Points
import proofs.«125250_j10754598109885_2_alg».proof.Proof.Gen.KernelIdeal.Frame
import proofs.«125250_j10754598109885_2_alg».proof.Proof.Gen.ReferenceIdeal
import proofs.«125250_j10754598109885_2_alg».proof.Proof.Gen.Pre_finite_inputs
import proofs.«125250_j10754598109885_2_alg».proof.Proof.KernelRun
import proofs.«125250_j10754598109885_2_alg».proof.Proof.KBounds
import proofs.«125250_j10754598109885_2_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_p : Cert.frame_Kernel := fun m ρ _ => Cert.Kernel.Gen.frame m ρ
/-- The idealized kernel program runs and leaves its arguments unchanged. -/
theorem frame_pi : Cert.frame_KernelIdeal := fun m ρ _ => Cert.KernelIdeal.Gen.frame m ρ
/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.HandRun.run m ρ)

/-- The idealization rewrote no operation. -/
theorem preserves : Cert.preserves_Kernel_KernelIdeal := trivial

/-- From memories agreeing on the six arguments both idealized programs end with the value function of the arguments in
    their result buffers. -/
theorem algebraic : Cert.algebraic_KernelIdeal_ReferenceIdeal := by
  intro m ρ m' ρ' _ hagree
  refine ⟨fun c => Cert.Value.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bounds.W8_main_v66 m ρ c), (h c).2⟩)
      (Cert.KernelIdeal.Named.run_result (F := Ideal) m ρ)
  · refine (θ_run Cert.ReferenceIdeal.defs _ _).mono (fun _ h c => ⟨(h c).1.trans ?_, (h c).2⟩)
      (Cert.ReferenceIdeal.HandRun.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
